-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100001x128 : Shape := ⟨2, ![100001, 128]⟩
abbrev S_ : Shape := ⟨0, ![]⟩

class Facts : Prop where
  bcast_S_S100001x128 : S_.BroadcastsInDim S100001x128 (![] : Fin 0 → Fin S100001x128.rank)
  reducesTo_S100001x128_S_d0_1 : S100001x128.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : IVec S4096x50 32) (main_arg1 : FVec F S100001x128 .f32) : IVec S_ 1 :=
  let main_v0 : FVec F S100001x128 .f32 := Host.absf main_arg1
  let main_cst : FVec F S_ .f32 := constant S_ .f32 0x7F800000#32
  let main_v1 : FVec F S100001x128 .f32 := broadcastInDim S100001x128 ![] bcast_S_S100001x128 main_cst
  let main_v2 : IVec S100001x128 1 := cmpf .olt main_v0 main_v1
  let main_c : IVec S_ 1 := constantI S_ 1 1#1
  let main_v3 : IVec S_ 1 := (fun x v => Host.reduce IntOp.andi x v reducesTo_S100001x128_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg0 main_v4
  let main_c_1 : IVec S_ 32 := constantI S_ 32 100000#32
  let main_v6 : IVec S4096x50 32 := broadcastInDim S4096x50 ![] bcast_S_S4096x50 main_c_1
  let main_v7 : IVec S4096x50 1 := cmpi .sle main_arg0 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  main_v10
-- ==== Kernel.lean ====
abbrev S4096x50 : Shape := ⟨2, ![4096, 50]⟩
abbrev S100001x128 : Shape := ⟨2, ![100001, 128]⟩
abbrev S50x4096 : Shape := ⟨2, ![50, 4096]⟩
abbrev S50x4096x128 : Shape := ⟨3, ![50, 4096, 128]⟩
abbrev S256 : Shape := ⟨1, ![256]⟩
abbrev S2x256x128 : Shape := ⟨3, ![2, 256, 128]⟩
abbrev S2 : Shape := ⟨1, ![2]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S4096x50x128 : Shape := ⟨3, ![4096, 50, 128]⟩

abbrev nBuf : Table → Nat
  | .hbm => 5
  | .local .scVector .vmem => 3
  | _ => 0

abbrev bufTy : (tb : Table) → Fin (nBuf tb) → BufTy
  | .hbm, ⟨0, _⟩ => ⟨S4096x50, .i32⟩
  | .hbm, ⟨1, _⟩ => ⟨S100001x128, .f32⟩
  | .hbm, ⟨2, _⟩ => ⟨S50x4096, .i32⟩
  | .hbm, ⟨3, _⟩ => ⟨S50x4096x128, .f32⟩
  | .hbm, ⟨4, _⟩ => ⟨S4096x50x128, .f32⟩
  | .local .scVector .vmem, ⟨0, _⟩ => ⟨S256, .i32⟩
  | .local .scVector .vmem, ⟨1, _⟩ => ⟨S256, .i32⟩
  | .local .scVector .vmem, ⟨2, _⟩ => ⟨S2x256x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32 : BitVec 32 := 16#32
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32 : BitVec 32 := 256#32
  let v30 : BitVec 32 := Scalar.muli v29 c256_i32
  ![v19.toNat, v30.toNat]
def k0_off2 (i : grid0.Coords) (c0_i32_55 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v117 : BitVec 32 := Scalar.addi v1 c0_i32_55
  let c0_i32_57 : BitVec 32 := 0#32
  let v119 : BitVec 1 := Scalar.cmpi .sgt v117 c0_i32_57
  let v120 : BitVec 32 := Scalar.extui v119
  let c0_i32_58 : BitVec 32 := 0#32
  let v121 : BitVec 1 := Scalar.cmpi .slt v117 c0_i32_58
  let v122 : BitVec 32 := Scalar.extui v121
  let v123 : BitVec 32 := Scalar.subi v120 v122
  let c16_i32_56 : BitVec 32 := 16#32
  let c0_i32_59 : BitVec 32 := 0#32
  let v124 : BitVec 1 := Scalar.cmpi .sgt c16_i32_56 c0_i32_59
  let v125 : BitVec 32 := Scalar.extui v124
  let c0_i32_60 : BitVec 32 := 0#32
  let v126 : BitVec 1 := Scalar.cmpi .slt c16_i32_56 c0_i32_60
  let v127 : BitVec 32 := Scalar.extui v126
  let v128 : BitVec 32 := Scalar.subi v125 v127
  let v129 : BitVec 1 := Scalar.cmpi .ne v123 v128
  let v130 : BitVec 32 := Scalar.remsi v117 c16_i32_56
  let c0_i32_61 : BitVec 32 := 0#32
  let v131 : BitVec 1 := Scalar.cmpi .ne v130 c0_i32_61
  let v132 : BitVec 1 := Scalar.andi v129 v131
  let v118 : BitVec 32 := Scalar.divsi v117 c16_i32_56
  let c1_i32_62 : BitVec 32 := 1#32
  let v133 : BitVec 32 := Scalar.subi v118 c1_i32_62
  let v134 : BitVec 32 := Scalar.select v132 v133 v118
  let c16_i32_63 : BitVec 32 := 16#32
  let c0_i32_64 : BitVec 32 := 0#32
  let v135 : BitVec 1 := Scalar.cmpi .eq c16_i32_63 c0_i32_64
  let c1_i32_65 : BitVec 32 := 1#32
  let v136 : BitVec 32 := Scalar.select v135 c1_i32_65 c16_i32_63
  let v137 : BitVec 32 := Scalar.remsi v117 v136
  let c0_i32_67 : BitVec 32 := 0#32
  let v139 : BitVec 1 := Scalar.cmpi .slt v137 c0_i32_67
  let c0_i32_68 : BitVec 32 := 0#32
  let v140 : BitVec 1 := Scalar.cmpi .slt v136 c0_i32_68
  let v141 : BitVec 1 := Scalar.xori v139 v140
  let c0_i32_66 : BitVec 32 := 0#32
  let v138 : BitVec 1 := Scalar.cmpi .ne v137 c0_i32_66
  let v142 : BitVec 1 := Scalar.andi v141 v138
  let v143 : BitVec 32 := Scalar.addi v137 v136
  let v144 : BitVec 32 := Scalar.select v142 v143 v137
  let c256_i32_69 : BitVec 32 := 256#32
  let v145 : BitVec 32 := Scalar.muli v144 c256_i32_69
  let c0_i32_74 : BitVec 32 := 0#32
  ![v134.toNat, v145.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x50_S50x4096_1_0 : S4096x50.Transposes [1, 0] S50x4096
  squeezes_S1x256_S256 : S1x256.Squeezes S256
  inb_S2_S1_0 : ∀ a, (![0] : Fin 1 → Nat) a + S1.size a ≤ S2.size a
  squeezes_S1_S_ : S1.Squeezes S_
  inb_S2_S1_1 : ∀ a, (![1] : Fin 1 → Nat) a + S1.size a ≤ S2.size a
  inb_S2x256x128_S1x256x128_0_0_0 : ∀ a, (![0, 0, 0] : Fin 3 → Nat) a + S1x256x128.size a ≤ S2x256x128.size a
  squeezes_S1x256x128_S256x128 : S1x256x128.Squeezes S256x128
  inb_S100001x128_S100001x128_0_0 : ∀ a, (![0, 0] : Fin 2 → Nat) a + S100001x128.size a ≤ S100001x128.size a
  gathers_S100001x128_S256x128 : S100001x128.Gathers 0 S256x128
  inb_S2x256x128_S1x256x128_1_0_0 : ∀ a, (![1, 0, 0] : Fin 3 → Nat) a + S1x256x128.size a ≤ S2x256x128.size a
  transposes_S50x4096x128_S4096x50x128_1_0_2 : S50x4096x128.Transposes [1, 0, 2] S4096x50x128
  hcc0_scratch3 : 0 + S2.numel ≤ 6
  hcc0_scratch4 : 2 + S2.numel ≤ 6
  hcc0_scratch5 : 4 + S2.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 25), ∀ a, (k0_off1 i (BitVec.ofNat 32 (32 * r.val))) a + S1x256.size a ≤ S50x4096.size a
  k0_off2_inb : ∀ i : grid0.Coords, ∀ (r : Fin 25), ∀ a, (k0_off2 i (BitVec.ofNat 32 (32 * r.val))) a + S1x256x128.size a ≤ S50x4096x128.size a

variable [Facts₀]

abbrev cc0_scratch3 : DmaSems sig S2 := SemArray.consecutive 0 S2 hcc0_scratch3
abbrev cc0_scratch4 : DmaSems sig S2 := SemArray.consecutive 2 S2 hcc0_scratch4
abbrev cc0_scratch5 : DmaSems sig S2 := SemArray.consecutive 4 S2 hcc0_scratch5

class Facts : Prop extends Facts₀ where

variable [Facts]
-- ==== ReferenceIdeal.lean ====
abbrev S4096x50 : Shape := ⟨2, ![4096, 50]⟩
abbrev S100001x128 : Shape := ⟨2, ![100001, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100001x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  gather_S100001x128_S4096x50x1_S4096x50x128_2_0_n_n_0_2_1128_wf : GatherDims.WF S100001x128 S4096x50x1 S4096x50x128 [2] [0] [] [0] [] 2 ![1, 128]

variable [Facts₀]

def gather_S100001x128_S4096x50x1_S4096x50x128_2_0_n_n_0_2_1128 : GatherDims S100001x128 S4096x50x1 S4096x50x128 where
  offsetDims := [2]
  collapsedSliceDims := [0]
  operandBatchingDims := []
  startIndicesBatchingDims := []
  startIndexMap := [0]
  indexVectorDim := 2
  sliceSizes := ![1, 128]
  wf := gather_S100001x128_S4096x50x1_S4096x50x128_2_0_n_n_0_2_1128_wf

class Facts : Prop extends Facts₀ where

variable [Facts]
-- ==== Proof.SetupKI.lean ====
/-
  The kernel as its launch sees it: thirty-two vector subcores (two SparseCores of sixteen), each moving twenty-five
  windows of 256 rows. Worker `w = 2·subcore + core` handles windows `w + 32·r`, `r < 25`; window `v` is row
  `v / 16`, columns `256·(v % 16) … + 256` of the transposed index array, and the same block of the output.
-/
import proofs.«218878_g9363028706246_cont_9to1c4b_116_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«218878_g9363028706246_cont_9to1c4b_116_21_alg».proof.Proof.Gen.KernelIdeal
import proofs.«218878_g9363028706246_cont_9to1c4b_116_21_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The index array as given, the table, the transposed indices, the kernel's output, the result. -/
abbrev aLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev xV : Memref sig .scVector .hbm S100001x128 .f32 := Memref.whole main_arg1_scv
abbrev iV : Memref sig .scVector .hbm S50x4096 .i32 := Memref.whole main_v0_scv
abbrev oV : Memref sig .scVector .hbm S50x4096x128 .f32 := Memref.whole main_v1_scv
/-- A subcore's two index lists and its two row buffers (one array of two slots). -/
abbrev l0V : Memref sig .scVector .vmem S256 .i32 := Memref.whole cc0_scratch0
abbrev l1V : Memref sig .scVector .vmem S256 .i32 := Memref.whole cc0_scratch1
abbrev bV : Memref sig .scVector .vmem S2x256x128 .f32 := Memref.whole cc0_scratch2

abbrev cV (L : grid0.Coords) : Fin τ.nSC := (L 0).castLE hcore0
abbrev jV (L : grid0.Coords) : Fin τ.nSub := (L 1).castLE hsub0

/-- Window `r` of worker `L`, in the index array and in the output, as the kernel slices them. -/
abbrev iWin (L : grid0.Coords) (w : BitVec 32) (h : ∀ a, (k0_off1 L w) a + S1x256.size a ≤ S50x4096.size a) : Memref sig .scVector .hbm S256 .i32 :=
  ((iV).slice (Rect.unit (s := S50x4096) (k0_off1 L w) S1x256.size h) (fun _ => rfl)).squeeze S256 squeezes_S1x256_S256
abbrev oWin (L : grid0.Coords) (w : BitVec 32) (h : ∀ a, (k0_off2 L w) a + S1x256x128.size a ≤ S50x4096x128.size a) : Memref sig .scVector .hbm S256x128 .f32 :=
  ((oV).slice (Rect.unit (s := S50x4096x128) (k0_off2 L w) S1x256x128.size h) (fun _ => rfl)).squeeze S256x128 squeezes_S1x256x128_S256x128

/-- The six transfer counters of a subcore: index fetches, gathers, write-outs, one per slot. -/
abbrev semI0 : DmaSem sig := ((cc0_scratch3.slice (Rect.unit (s := S2) ![0] S1.size inb_S2_S1_0)).squeeze S_ squeezes_S1_S_).sem
abbrev semI1 : DmaSem sig := ((cc0_scratch3.slice (Rect.unit (s := S2) ![1] S1.size inb_S2_S1_1)).squeeze S_ squeezes_S1_S_).sem
abbrev semG0 : DmaSem sig := ((cc0_scratch4.slice (Rect.unit (s := S2) ![0] S1.size inb_S2_S1_0)).squeeze S_ squeezes_S1_S_).sem
abbrev semG1 : DmaSem sig := ((cc0_scratch4.slice (Rect.unit (s := S2) ![1] S1.size inb_S2_S1_1)).squeeze S_ squeezes_S1_S_).sem
abbrev semO0 : DmaSem sig := ((cc0_scratch5.slice (Rect.unit (s := S2) ![0] S1.size inb_S2_S1_0)).squeeze S_ squeezes_S1_S_).sem
abbrev semO1 : DmaSem sig := ((cc0_scratch5.slice (Rect.unit (s := S2) ![1] S1.size inb_S2_S1_1)).squeeze S_ squeezes_S1_S_).sem

/-- The elements of a window, in the index array and in the output. -/
def iSet (L : grid0.Coords) (w : BitVec 32) (h : ∀ a, (k0_off1 L w) a + S1x256.size a ≤ S50x4096.size a) : Finset S50x4096.Idx := (iWin L w h).view.set
def oSet (L : grid0.Coords) (w : BitVec 32) (h : ∀ a, (k0_off2 L w) a + S1x256x128.size a ≤ S50x4096x128.size a) : Finset S50x4096x128.Idx := (oWin L w h).view.set

/-- Window number `r` of the worker at `L`. -/
abbrev iSetR (L : grid0.Coords) (r : Fin 25) : Finset S50x4096.Idx := iSet L (BitVec.ofNat 32 (32 * r.val)) (k0_off1_inb L r)
abbrev oSetR (L : grid0.Coords) (r : Fin 25) : Finset S50x4096x128.Idx := oSet L (BitVec.ofNat 32 (32 * r.val)) (k0_off2_inb L r)

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The number of the window: worker `2·subcore + core`, plus 32 per round. -/
def winNo (L : grid0.Coords) (r : Fin 25) : ℕ := 2 * (L 1).val + (L 0).val + 32 * r.val

end Cert.Proof.KI

end
-- ==== Proof.Spec.lean ====
/-
  The lookup both programs compute: entry (b, s, e) of the result is entry e of the table's row ids[b, s].
-/
import Idealize.ShloMosaic.PureOps.Ideal
import Idealize.ShloMosaic.Lib.ValueIdx

noncomputable section

namespace Cert.Proof.Spec

open Idealize.ShloMosaic

abbrev SIds : Shape := ⟨2, ![4096, 50]⟩
abbrev STab : Shape := ⟨2, ![100001, 128]⟩
abbrev SOut : Shape := ⟨3, ![4096, 50, 128]⟩

/-- The table row an index word names: the word itself inside the stated range 0 … 100000, the last row beyond it. -/
def rowOf (w : BitVec 32) : Fin 100001 := ⟨min w.toNat 100000, by omega⟩

theorem rowOf_val_of_le {w : BitVec 32} (h : w.toNat ≤ 100000) : (rowOf w).val = w.toNat := by
  simp [rowOf, h]

/-- The lookup. -/
def lookup {α : Type} (ids : SIds.Idx → BitVec 32) (tab : STab.Idx → α) : SOut.Idx → α :=
  fun j => tab (ValueIdx.ix2 (rowOf (ids (ValueIdx.ix2 (n0 := 4096) (n1 := 50) (j 0) (j 1)))) (n1 := 128) (j 2))

end Cert.Proof.Spec

end
-- ==== Proof.PayKI.lean ====
import proofs.«218878_g9363028706246_cont_9to1c4b_116_21_alg».proof.Proof.SetupKI
import proofs.«218878_g9363028706246_cont_9to1c4b_116_21_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2)

variable (m : (ℓ : Loc nD τ sig) → Buf (Elt F) ℓ) (ρ : Dev nD → PrngReg)

variable [FloatOps F]

/-- The transposed index array, as the program's first line leaves it: entry (s, b) is ids[b, s]. -/
def idxT (d : Dev nD) : Buf (Elt F) (iLoc d) :=
  (transpose S50x4096 [1, 0] (m (aLoc d)) transposes_S4096x50_S50x4096_1_0 : (⟨S50x4096, .i32⟩ : BufTy).Contents (Elt F))

/-- What the kernel leaves in its output array: at (s, b, e), entry e of the table's row idxT[s, b]. -/
def G1 (d : Dev nD) : Buf (Elt F) (oLoc d) :=
  fun j => m (xLoc d) (ix2 (n0 := 100001) (n1 := 128) (Spec.rowOf (idxT m d (ix2 (n0 := 50) (n1 := 4096) (j 0) (j 1)))) (j 2))

/-- The share of the table a SparseCore is lent, and a subcore's share of that. -/
abbrev xqC (c : Fin 2) : PosShare TreeShare := Transfers.shareTok fullShare 2 c
abbrev xq (c : Fin 2) (s : Fin 16) : PosShare TreeShare := Transfers.shareTok (xqC c) 16 s

/-- What a subcore at grid point `L` is handed: its twenty-five windows of the transposed indices, a share of the
    table, its twenty-five windows of the output; and what it hands back: the same, the output windows filled. -/
def goFor (d : Dev nD) (L : grid0.Coords) (q : PosShare TreeShare) : sProp 𝕄 :=
  iprop((bigSep Finset.univ fun r : Fin 25 => iLoc d ↦[iSetR L r]{fullShare} idxT m d) ∗ (xLoc d ↦{q} m (xLoc d))
    ∗ bigSep Finset.univ fun r : Fin 25 => oLoc d ↦[oSetR L r]{fullShare} m (oLoc d))
def tdFor (d : Dev nD) (L : grid0.Coords) (q : PosShare TreeShare) : sProp 𝕄 :=
  iprop((bigSep Finset.univ fun r : Fin 25 => iLoc d ↦[iSetR L r]{fullShare} idxT m d) ∗ (xLoc d ↦{q} m (xLoc d))
    ∗ bigSep Finset.univ fun r : Fin 25 => oLoc d ↦[oSetR L r]{fullShare} G1 m d)

/-- The same per SparseCore: all sixteen subcores' windows, the core's share of the table. -/
def stFor (d : Dev nD) (c : Fin 2) : sProp 𝕄 :=
  iprop((bigSep Finset.univ fun s : Fin 16 => bigSep Finset.univ fun r : Fin 25 => iLoc d ↦[iSetR (coordsV c s) r]{fullShare} idxT m d)
    ∗ (xLoc d ↦{xqC c} m (xLoc d))
    ∗ bigSep Finset.univ fun s : Fin 16 => bigSep Finset.univ fun r : Fin 25 => oLoc d ↦[oSetR (coordsV c s) r]{fullShare} m (oLoc d))
def dnFor (d : Dev nD) (c : Fin 2) : sProp 𝕄 :=
  iprop((bigSep Finset.univ fun s : Fin 16 => bigSep Finset.univ fun r : Fin 25 => iLoc d ↦[iSetR (coordsV c s) r]{fullShare} idxT m d)
    ∗ (xLoc d ↦{xqC c} m (xLoc d))
    ∗ bigSep Finset.univ fun s : Fin 16 => bigSep Finset.univ fun r : Fin 25 => oLoc d ↦[oSetR (coordsV c s) r]{fullShare} G1 m d)

instance goFor_storable (d : Dev nD) (L : grid0.Coords) (q : PosShare TreeShare) : BI.Storable (upEmb : UEmb _ 𝕄) (goFor m d L q) := by
  unfold goFor; infer_instance
instance tdFor_storable (d : Dev nD) (L : grid0.Coords) (q : PosShare TreeShare) : BI.Storable (upEmb : UEmb _ 𝕄) (tdFor m d L q) := by
  unfold tdFor; infer_instance
instance stFor_storable (d : Dev nD) (c : Fin 2) : BI.Storable (upEmb : UEmb _ 𝕄) (stFor m d c) := by
  unfold stFor; infer_instance
instance dnFor_storable (d : Dev nD) (c : Fin 2) : BI.Storable (upEmb : UEmb _ 𝕄) (dnFor m d c) := by
  unfold dnFor; infer_instance

/-- The one call: each SparseCore takes its half of the windows and a share of the table, each subcore its
    twenty-five; they come back with the output's windows filled. -/
def P : (K (F := F)).Pay (nD := nD) (Val := Elt F) (Name := ℕ) (U := UU) where
  st := fun q d c => match q with | 0 => stFor m d (Fin.cast nCore_zero c)
  dn := fun q d c => match q with | 0 => dnFor m d (Fin.cast nCore_zero c)
  go := fun q d c i => match q with | 0 => goFor m d (coordsV (Fin.cast nCore_zero c) (Fin.cast nSub_zero i)) (xq (Fin.cast nCore_zero c) (Fin.cast nSub_zero i))
  td := fun q d c i => match q with | 0 => tdFor m d (coordsV (Fin.cast nCore_zero c) (Fin.cast nSub_zero i)) (xq (Fin.cast nCore_zero c) (Fin.cast nSub_zero i))
  x := fun _ _ => iprop(emp)

instance P_storable : (P (F := F) m).IsStorable where
  st q d c := match q with | 0 => (inferInstance : BI.Storable (upEmb : UEmb _ 𝕄) (stFor m d (Fin.cast nCore_zero c)))
  dn q d c := match q with | 0 => (inferInstance : BI.Storable (upEmb : UEmb _ 𝕄) (dnFor m d (Fin.cast nCore_zero c)))
  go q d c i := match q with | 0 => (inferInstance : BI.Storable (upEmb : UEmb _ 𝕄) (goFor m d (coordsV (Fin.cast nCore_zero c) (Fin.cast nSub_zero i)) (xq (Fin.cast nCore_zero c) (Fin.cast nSub_zero i))))
  td q d c i := match q with | 0 => (inferInstance : BI.Storable (upEmb : UEmb _ 𝕄) (tdFor m d (coordsV (Fin.cast nCore_zero c) (Fin.cast nSub_zero i)) (xq (Fin.cast nCore_zero c) (Fin.cast nSub_zero i))))

end Cert.Proof.KI

end
-- ==== Proof.TilePreKI.lean ====
import proofs.«218878_g9363028706246_cont_9to1c4b_116_21_alg».proof.Proof.SetupKI
import proofs.«218878_g9363028706246_cont_9to1c4b_116_21_alg».proof.Proof.PayKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2)

variable (m : (ℓ : Loc nD τ sig) → Buf (Elt F) ℓ)

variable [FloatOps F] (d : Dev nD) (L : grid0.Coords)

omit [FloatOps F] in
theorem pts_x (q : PosShare TreeShare) (f : Buf (Elt F) (xLoc d)) :
    ((xV).view.loc (V d (cV L) (jV L)) ↦{q} f : sProp 𝕄) = xLoc d ↦{q} f := rfl
omit [FloatOps F] in
theorem pts_i (w : BitVec 32) (h : ∀ a, (k0_off1 L w) a + S1x256.size a ≤ S50x4096.size a) (f : Buf (Elt F) (iLoc d)) :
    ((iWin L w h).view.loc (V d (cV L) (jV L)) ↦[(iWin L w h).view.set]{fullShare} f : sProp 𝕄) = iLoc d ↦[iSet L w h]{fullShare} f := rfl
omit [FloatOps F] in
theorem pts_o (w : BitVec 32) (h : ∀ a, (k0_off2 L w) a + S1x256x128.size a ≤ S50x4096x128.size a) (f : Buf (Elt F) (oLoc d)) :
    ((oWin L w h).view.loc (V d (cV L) (jV L)) ↦[(oWin L w h).view.set]{fullShare} f : sProp 𝕄) = oLoc d ↦[oSet L w h]{fullShare} f := rfl
omit [FloatOps F] in
theorem pts_l0 (f : Buf (Elt F) ((V d (cV L) (jV L)).loc cc0_scratch0)) :
    ((l0V).view.loc (V d (cV L) (jV L)) ↦{fullShare} f : sProp 𝕄) = (V d (cV L) (jV L)).loc cc0_scratch0 ↦{fullShare} f := rfl
omit [FloatOps F] in
theorem pts_l1 (f : Buf (Elt F) ((V d (cV L) (jV L)).loc cc0_scratch1)) :
    ((l1V).view.loc (V d (cV L) (jV L)) ↦{fullShare} f : sProp 𝕄) = (V d (cV L) (jV L)).loc cc0_scratch1 ↦{fullShare} f := rfl
omit [FloatOps F] in
theorem pts_b (f : Buf (Elt F) ((V d (cV L) (jV L)).loc cc0_scratch2)) :
    ((bV).view.loc (V d (cV L) (jV L)) ↦{fullShare} f : sProp 𝕄) = (V d (cV L) (jV L)).loc cc0_scratch2 ↦{fullShare} f := rfl

omit [FloatOps F] in
/-- Whatever an index list held before, once a window of the index array has landed in it whole, every word of
    the list is a word of the index array, so names a row of the table. -/
theorem hin_l0 (fi : Buf (Elt F) (iLoc d)) (hfi : ∀ j, (fi j).toNat < 100001) (g : Buf (Elt F) ((V d (cV L) (jV L)).loc cc0_scratch0))
    (w : BitVec 32) (h : ∀ a, (k0_off1 L w) a + S1x256.size a ≤ S50x4096.size a) :
    ∀ x : S256.Idx, (View.read (Elt F) (l0V).view (View.write (Elt F) (l0V).view g
      (ReadAs.same.apply (View.read (Elt F) (iWin L w h).view fi)) Finset.univ) x).toNat < 100001 := by
  intro x
  rw [View.write_whole_univ]
  simp only [Memref.view_whole, View.read_whole]
  show (View.read (Elt F) (iWin L w h).view fi x).toNat < 100001
  rw [show View.read (Elt F) (iWin L w h).view fi x = fi ((iWin L w h).view.emb x) from (View.read_apply _ _).trans (cast_eq _ _)]
  exact hfi _
omit [FloatOps F] in
theorem hin_l1 (fi : Buf (Elt F) (iLoc d)) (hfi : ∀ j, (fi j).toNat < 100001) (g : Buf (Elt F) ((V d (cV L) (jV L)).loc cc0_scratch1))
    (w : BitVec 32) (h : ∀ a, (k0_off1 L w) a + S1x256.size a ≤ S50x4096.size a) :
    ∀ x : S256.Idx, (View.read (Elt F) (l1V).view (View.write (Elt F) (l1V).view g
      (ReadAs.same.apply (View.read (Elt F) (iWin L w h).view fi)) Finset.univ) x).toNat < 100001 := by
  intro x
  rw [View.write_whole_univ]
  simp only [Memref.view_whole, View.read_whole]
  show (View.read (Elt F) (iWin L w h).view fi x).toNat < 100001
  rw [show View.read (Elt F) (iWin L w h).view fi x = fi ((iWin L w h).view.emb x) from (View.read_apply _ _).trans (cast_eq _ _)]
  exact hfi _

/-- The subcore's six transfer counters, as cells. -/
abbrev cI0 (d : Dev nD) (c : Fin τ.nSC) (i : Fin τ.nSub) : GSem nD τ sig := (V d c i, .dma semI0)
abbrev cI1 (d : Dev nD) (c : Fin τ.nSC) (i : Fin τ.nSub) : GSem nD τ sig := (V d c i, .dma semI1)
abbrev cG0 (d : Dev nD) (c : Fin τ.nSC) (i : Fin τ.nSub) : GSem nD τ sig := (V d c i, .dma semG0)
abbrev cG1 (d : Dev nD) (c : Fin τ.nSC) (i : Fin τ.nSub) : GSem nD τ sig := (V d c i, .dma semG1)
abbrev cO0 (d : Dev nD) (c : Fin τ.nSC) (i : Fin τ.nSub) : GSem nD τ sig := (V d c i, .dma semO0)
abbrev cO1 (d : Dev nD) (c : Fin τ.nSC) (i : Fin τ.nSub) : GSem nD τ sig := (V d c i, .dma semO1)

omit [FloatOps F] in
theorem ownSems0_V :
    (ownSems0 (V d (cV L) (jV L)) : sProp 𝕄)
      = iprop(semVal (cI0 d (cV L) (jV L)) 0 ∗ semVal (cI1 d (cV L) (jV L)) 0 ∗ semVal (cG0 d (cV L) (jV L)) 0 ∗ semVal (cG1 d (cV L) (jV L)) 0 ∗ semVal (cO0 d (cV L) (jV L)) 0 ∗ semVal (cO1 d (cV L) (jV L)) 0
          ∗ bigSep (((((((ownCells (V d (cV L) (jV L))).erase (cI0 d (cV L) (jV L))).erase (cI1 d (cV L) (jV L))).erase (cG0 d (cV L) (jV L))).erase (cG1 d (cV L) (jV L))).erase (cO0 d (cV L) (jV L))).erase (cO1 d (cV L) (jV L))) fun g => semVal g 0) := by
  unfold SparseCore.Cfg.ownSems0
  rw [SparseCore.bigSep_erase' ((mem_ownCells (g := (cI0 d (cV L) (jV L)))).mpr ⟨rfl, by show (SemLoc.dma semI0 : SemLoc sig).isScoped .scVector = true; decide⟩),
    SparseCore.bigSep_erase' (Finset.mem_erase.mpr ⟨(fun e => absurd (congrArg Prod.snd e) (show (SemLoc.dma semI1 : SemLoc sig) ≠ SemLoc.dma semI0 by decide)), (mem_ownCells (g := (cI1 d (cV L) (jV L)))).mpr ⟨rfl, by show (SemLoc.dma semI1 : SemLoc sig).isScoped .scVector = true; decide⟩⟩),
    SparseCore.bigSep_erase' (Finset.mem_erase.mpr ⟨(fun e => absurd (congrArg Prod.snd e) (show (SemLoc.dma semG0 : SemLoc sig) ≠ SemLoc.dma semI1 by decide)), Finset.mem_erase.mpr ⟨(fun e => absurd (congrArg Prod.snd e) (show (SemLoc.dma semG0 : SemLoc sig) ≠ SemLoc.dma semI0 by decide)), (mem_ownCells (g := (cG0 d (cV L) (jV L)))).mpr ⟨rfl, by show (SemLoc.dma semG0 : SemLoc sig).isScoped .scVector = true; decide⟩⟩⟩),
    SparseCore.bigSep_erase' (Finset.mem_erase.mpr ⟨(fun e => absurd (congrArg Prod.snd e) (show (SemLoc.dma semG1 : SemLoc sig) ≠ SemLoc.dma semG0 by decide)), Finset.mem_erase.mpr ⟨(fun e => absurd (congrArg Prod.snd e) (show (SemLoc.dma semG1 : SemLoc sig) ≠ SemLoc.dma semI1 by decide)), Finset.mem_erase.mpr ⟨(fun e => absurd (congrArg Prod.snd e) (show (SemLoc.dma semG1 : SemLoc sig) ≠ SemLoc.dma semI0 by decide)), (mem_ownCells (g := (cG1 d (cV L) (jV L)))).mpr ⟨rfl, by show (SemLoc.dma semG1 : SemLoc sig).isScoped .scVector = true; decide⟩⟩⟩⟩),
    SparseCore.bigSep_erase' (Finset.mem_erase.mpr ⟨(fun e => absurd (congrArg Prod.snd e) (show (SemLoc.dma semO0 : SemLoc sig) ≠ SemLoc.dma semG1 by decide)), Finset.mem_erase.mpr ⟨(fun e => absurd (congrArg Prod.snd e) (show (SemLoc.dma semO0 : SemLoc sig) ≠ SemLoc.dma semG0 by decide)), Finset.mem_erase.mpr ⟨(fun e => absurd (congrArg Prod.snd e) (show (SemLoc.dma semO0 : SemLoc sig) ≠ SemLoc.dma semI1 by decide)), Finset.mem_erase.mpr ⟨(fun e => absurd (congrArg Prod.snd e) (show (SemLoc.dma semO0 : SemLoc sig) ≠ SemLoc.dma semI0 by decide)), (mem_ownCells (g := (cO0 d (cV L) (jV L)))).mpr ⟨rfl, by show (SemLoc.dma semO0 : SemLoc sig).isScoped .scVector = true; decide⟩⟩⟩⟩⟩),
    SparseCore.bigSep_erase' (Finset.mem_erase.mpr ⟨(fun e => absurd (congrArg Prod.snd e) (show (SemLoc.dma semO1 : SemLoc sig) ≠ SemLoc.dma semO0 by decide)), Finset.mem_erase.mpr ⟨(fun e => absurd (congrArg Prod.snd e) (show (SemLoc.dma semO1 : SemLoc sig) ≠ SemLoc.dma semG1 by decide)), Finset.mem_erase.mpr ⟨(fun e => absurd (congrArg Prod.snd e) (show (SemLoc.dma semO1 : SemLoc sig) ≠ SemLoc.dma semG0 by decide)), Finset.mem_erase.mpr ⟨(fun e => absurd (congrArg Prod.snd e) (show (SemLoc.dma semO1 : SemLoc sig) ≠ SemLoc.dma semI1 by decide)), Finset.mem_erase.mpr ⟨(fun e => absurd (congrArg Prod.snd e) (show (SemLoc.dma semO1 : SemLoc sig) ≠ SemLoc.dma semI0 by decide)), (mem_ownCells (g := (cO1 d (cV L) (jV L)))).mpr ⟨rfl, by show (SemLoc.dma semO1 : SemLoc sig).isScoped .scVector = true; decide⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩)]

omit [FloatOps F] in
/-- A product over the twenty-five rounds, written out. -/
theorem bigSep_fin25 (Φ : Fin 25 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) := by
  rw [show (Finset.univ : Finset (Fin 25)) = {0, 1, 2, 3, 4, 5, 6, 7, 8, 9, 10, 11, 12, 13, 14, 15, 16, 17, 18, 19, 20, 21, 22, 23, 24} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Cert.Proof.KI

end
-- ==== Proof.WinOff.lean ====
/-
  Where a worker's windows lie. The kernel computes a window's row and its column offset from the window number
  v = 2·subcore + core + 32·round by a floor division and a floor remainder by 16, each spelt with sign
  corrections around the truncating operations. The window number is never negative, so the corrections never
  fire: the row is v / 16 and the column offset 256·(v % 16).
-/
import proofs.«218878_g9363028706246_cont_9to1c4b_116_21_alg».proof.Proof.SetupKI

namespace Cert.Proof.KI

open Cert.KernelIdeal Cert.KernelIdeal.Gen
open Idealize.ShloMosaic

/-- Floor division of a word by 16 as the kernel spells it: the truncating quotient, less one when the signs of
    dividend and divisor differ and the remainder is not zero. -/
def fdiv16 (v2 : BitVec 32) : BitVec 32 :=
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32 : BitVec 32 := 16#32
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let v3 : BitVec 32 := Scalar.divsi v2 c16_i32
  let c1_i32 : BitVec 32 := 1#32
  let v18 : BitVec 32 := Scalar.subi v3 c1_i32
  Scalar.select v17 v18 v3

/-- 256 times the floor remainder of a word by 16 as the kernel spells it: the truncating remainder, plus the
    divisor when it is not zero and its sign differs from the divisor's. -/
def fmod16x256 (v2 : BitVec 32) : BitVec 32 :=
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32 : BitVec 32 := 256#32
  Scalar.muli v29 c256_i32

/-- The window number as the kernel's word: twice the subcore, plus the core, plus the round constant. -/
def vWord (L : grid0.Coords) (w : BitVec 32) : BitVec 32 :=
  Scalar.addi (Scalar.addi (Scalar.muli (BitVec.ofNat 32 (L 1).val) 2#32) (BitVec.ofNat 32 (L 0).val)) w

/-- On a word that reads as a small nonnegative integer, the spelt floor division is the quotient. -/
theorem fdiv16_isInt {v2 : BitVec 32} {e : Int} (h_v2 : Affine.IsInt v2 e) (he : 0 ≤ e ∧ e < 2 ^ 20) :
    Affine.IsInt (fdiv16 v2) (e / 16) := by
  unfold fdiv16
  have h_0 : Affine.IsInt 0#32 (0) := Affine.ofNat _ (by omega)
  have h_1 : Affine.IsInt 1#32 (1) := Affine.ofNat _ (by omega)
  have h_16 : Affine.IsInt 16#32 (16) := Affine.ofNat _ (by omega)
  -- the sign of the divisor is 1
  have h_v9 : Affine.Holds _ := Affine.sgt_holds h_16 h_0 (by omega)
  have h_v10 : Affine.IsInt _ (1) := Affine.extui_holds h_v9 (by omega)
  have h_v11 : Affine.Fails _ := Affine.slt_fails h_16 h_0 (by omega)
  have h_v12 : Affine.IsInt _ (0) := Affine.extui_fails h_v11 (by omega)
  have h_v13 : Affine.IsInt _ (1) := Affine.subi h_v10 h_v12 (by omega)
  -- the dividend is not negative
  have h_v6 : Affine.Fails _ := Affine.slt_fails h_v2 h_0 (by omega)
  have h_v7 : Affine.IsInt _ (0) := Affine.extui_fails h_v6 (by omega)
  have h_v3 : Affine.IsInt _ (e / 16) := Affine.divsi h_v2 h_16 (by omega)
  have h_v18 : Affine.IsInt _ (e / 16 - 1) := Affine.subi h_v3 h_1 (by omega)
  have h_v15 : Affine.IsInt _ (e % 16) := Affine.remsi h_v2 h_16 (by omega)
  rcases (show e ≤ 0 ∨ 1 ≤ e by omega) with hs | hs
  · -- the dividend is zero: its sign differs from the divisor's, but the remainder is zero
    have h_v4 : Affine.Fails _ := Affine.sgt_fails h_v2 h_0 (by omega)
    have h_v5 : Affine.IsInt _ (0) := Affine.extui_fails h_v4 (by omega)
    have h_v8 : Affine.IsInt _ (0) := Affine.subi h_v5 h_v7 (by omega)
    have h_v14 : Affine.Holds _ := Affine.ne_holds h_v8 h_v13 (by omega)
    have h_v16 : Affine.Fails _ := Affine.ne_fails h_v15 h_0 (by omega)
    have h_v17 : Affine.Fails _ := Affine.andi_fails_right (Affine.tH h_v14) h_v16
    exact Affine.select_fails h_v17 h_v18 h_v3 (by omega)
  · -- the dividend is positive: the signs agree
    have h_v4 : Affine.Holds _ := Affine.sgt_holds h_v2 h_0 (by omega)
    have h_v5 : Affine.IsInt _ (1) := Affine.extui_holds h_v4 (by omega)
    have h_v8 : Affine.IsInt _ (1) := Affine.subi h_v5 h_v7 (by omega)
    have h_v14 : Affine.Fails _ := Affine.ne_fails h_v8 h_v13 (by omega)
    have h_v16 : Affine.Term _ := Affine.cmpi_term .ne h_v15 h_0
    have h_v17 : Affine.Fails _ := Affine.andi_fails_left h_v14 h_v16
    exact Affine.select_fails h_v17 h_v18 h_v3 (by omega)

/-- On such a word the spelt floor remainder is the remainder; scaled by 256. -/
theorem fmod16x256_isInt {v2 : BitVec 32} {e : Int} (h_v2 : Affine.IsInt v2 e) (he : 0 ≤ e ∧ e < 2 ^ 20) :
    Affine.IsInt (fmod16x256 v2) (256 * (e % 16)) := by
  unfold fmod16x256
  have h_0 : Affine.IsInt 0#32 (0) := Affine.ofNat _ (by omega)
  have h_1 : Affine.IsInt 1#32 (1) := Affine.ofNat _ (by omega)
  have h_16 : Affine.IsInt 16#32 (16) := Affine.ofNat _ (by omega)
  have h_256 : Affine.IsInt 256#32 (256) := Affine.ofNat _ (by omega)
  have h_v20 : Affine.Fails _ := Affine.eq_fails h_16 h_0 (by omega)
  have h_v21 : Affine.IsInt _ (16) := Affine.select_fails h_v20 h_1 h_16 (by omega)
  have h_v22 : Affine.IsInt _ (e % 16) := Affine.remsi h_v2 h_v21 (by omega)
  -- neither the remainder nor the divisor is negative
  have h_v24 : Affine.Fails _ := Affine.slt_fails h_v22 h_0 (by omega)
  have h_v25 : Affine.Fails _ := Affine.slt_fails h_v21 h_0 (by omega)
  have h_v26 : Affine.Fails _ := Affine.xori_ff h_v24 h_v25
  have h_v23 : Affine.Term _ := Affine.cmpi_term .ne h_v22 h_0
  have h_v27 : Affine.Fails _ := Affine.andi_fails_left h_v26 h_v23
  have h_v28 : Affine.IsInt _ (e % 16 + 16) := Affine.addi h_v22 h_v21 (by omega)
  have h_v29 : Affine.IsInt _ (e % 16) := Affine.select_fails h_v27 h_v28 h_v22 (by omega)
  exact Affine.muli h_v29 h_256 (by omega)

theorem winNo_lt (L : grid0.Coords) (r : Fin 25) : winNo L r < 800 := by
  have h1 : (L 1).val < 16 := (L 1).isLt
  have h0 : (L 0).val < 2 := (L 0).isLt
  have hr : r.val < 25 := r.isLt
  unfold winNo; omega

/-- The window number's word reads as the window number. -/
theorem vWord_isInt (L : grid0.Coords) (r : Fin 25) :
    Affine.IsInt (vWord L (BitVec.ofNat 32 (32 * r.val))) (winNo L r : Int) := by
  have h1 : (L 1).val < 16 := (L 1).isLt
  have h0 : (L 0).val < 2 := (L 0).isLt
  have hr : r.val < 25 := r.isLt
  unfold vWord
  have h_w : Affine.IsInt (BitVec.ofNat 32 (32 * r.val)) (32 * (r.val : Int)) := Affine.ofNat _ (by omega)
  have h_arg1 : Affine.IsInt (BitVec.ofNat 32 (L 1).val) (((L 1).val : Int)) := Affine.ofNat _ (by omega)
  have h_2 : Affine.IsInt 2#32 (2) := Affine.ofNat _ (by omega)
  have h_v0 : Affine.IsInt _ (2 * ((L 1).val : Int)) := Affine.muli h_arg1 h_2 (by omega)
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  exact Affine.addi h_v1 h_w (by unfold winNo; omega)

/-- The index array's window of worker `L` in round `r`: row v / 16, from column 256·(v % 16). -/
theorem off1_closed (L : grid0.Coords) (r : Fin 25) :
    k0_off1 L (BitVec.ofNat 32 (32 * r.val)) = ![winNo L r / 16, 256 * (winNo L r % 16)] := by
  have hv := vWord_isInt L r
  have hw := winNo_lt L r
  have h1 := fdiv16_isInt hv (by omega)
  have h2 := fmod16x256_isInt hv (by omega)
  exact Affine.vec_cons h1 (by omega) <| Affine.vec_cons h2 (by omega) <| Affine.vec_nil

/-- The output's window of worker `L` in round `r`: the same row and columns, every lane. -/
theorem off2_closed (L : grid0.Coords) (r : Fin 25) :
    k0_off2 L (BitVec.ofNat 32 (32 * r.val)) = ![winNo L r / 16, 256 * (winNo L r % 16), 0] := by
  have hv := vWord_isInt L r
  have hw := winNo_lt L r
  have h1 := fdiv16_isInt hv (by omega)
  have h2 := fmod16x256_isInt hv (by omega)
  exact Affine.vec_cons h1 (by omega) <| Affine.vec_cons h2 (by omega) <| rfl

end Cert.Proof.KI
-- ==== Proof.WinMem.lean ====
/-
  Which elements a window holds, and where a window's own index lands. A window is a unit-stride rectangle of the
  array (one row, 256 columns; in the output also every lane) with its leading axis of size one dropped: its
  elements are the rectangle's, and its index x sits at the rectangle's offsets plus x behind the coordinate 0.
-/
import proofs.«218878_g9363028706246_cont_9to1c4b_116_21_alg».proof.Proof.WinOff

namespace Cert.Proof.KI

open Cert.KernelIdeal Cert.KernelIdeal.Gen
open Idealize.ShloMosaic

/-! ## Membership, from the offsets -/

theorem mem_iSet (L : grid0.Coords) (w : BitVec 32) (h : ∀ a, (k0_off1 L w) a + S1x256.size a ≤ S50x4096.size a)
    (j : S50x4096.Idx) :
    j ∈ iSet L w h ↔ ∀ a, (k0_off1 L w) a ≤ (j a).val ∧ (j a).val < (k0_off1 L w) a + S1x256.size a := by
  show j ∈ (((View.whole main_v0_scv).slice (Rect.unit (s := S50x4096) (k0_off1 L w) S1x256.size h)).reshape S256
    squeezes_S1x256_S256.numel_eq).set ↔ _
  rw [View.set_reshape, View.set_slice_whole, Rect.mem_set_unit]
  exact Iff.rfl

theorem mem_oSet (L : grid0.Coords) (w : BitVec 32) (h : ∀ a, (k0_off2 L w) a + S1x256x128.size a ≤ S50x4096x128.size a)
    (j : S50x4096x128.Idx) :
    j ∈ oSet L w h ↔ ∀ a, (k0_off2 L w) a ≤ (j a).val ∧ (j a).val < (k0_off2 L w) a + S1x256x128.size a := by
  show j ∈ (((View.whole main_v1_scv).slice (Rect.unit (s := S50x4096x128) (k0_off2 L w) S1x256x128.size h)).reshape S256x128
    squeezes_S1x256x128_S256x128.numel_eq).set ↔ _
  rw [View.set_reshape, View.set_slice_whole, Rect.mem_set_unit]
  exact Iff.rfl

/-- An index is in window v of the index array iff its row is v / 16 and its column lies in block v % 16. -/
theorem mem_iSetR (L : grid0.Coords) (r : Fin 25) (j : S50x4096.Idx) :
    j ∈ iSetR L r ↔ (j 0).val = winNo L r / 16 ∧ (j 1).val / 256 = winNo L r % 16 := by
  rw [mem_iSet, off1_closed, Fin.forall_fin_two]
  show (winNo L r / 16 ≤ (j 0).val ∧ (j 0).val < winNo L r / 16 + 1)
    ∧ (256 * (winNo L r % 16) ≤ (j 1).val ∧ (j 1).val < 256 * (winNo L r % 16) + 256) ↔ _
  omega

/-- The same for the output: every lane of those rows. -/
theorem mem_oSetR (L : grid0.Coords) (r : Fin 25) (j : S50x4096x128.Idx) :
    j ∈ oSetR L r ↔ (j 0).val = winNo L r / 16 ∧ (j 1).val / 256 = winNo L r % 16 := by
  have h2 : (j 2).val < 128 := (j 2).isLt
  rw [mem_oSet, off2_closed, Fin.forall_fin_succ, Fin.forall_fin_two]
  show (winNo L r / 16 ≤ (j 0).val ∧ (j 0).val < winNo L r / 16 + 1)
    ∧ (256 * (winNo L r % 16) ≤ (j 1).val ∧ (j 1).val < 256 * (winNo L r % 16) + 256)
    ∧ (0 ≤ (j 2).val ∧ (j 2).val < 0 + 128) ↔ _
  omega

/-! ## Where a window's own index lands -/

theorem iWin_emb (L : grid0.Coords) (w : BitVec 32) (h : ∀ a, (k0_off1 L w) a + S1x256.size a ≤ S50x4096.size a)
    (x : S256.Idx) :
    (((iWin L w h).view.emb x : S50x4096.Idx) 0).val = (k0_off1 L w) 0
      ∧ (((iWin L w h).view.emb x : S50x4096.Idx) 1).val = (k0_off1 L w) 1 + (x 0).val := by
  have e : ((iWin L w h).view.emb x : S50x4096.Idx)
      = (Rect.unit (s := S50x4096) (k0_off1 L w) S1x256.size h).emb (Fin.cons ⟨0, Nat.one_pos⟩ x) := by
    show (Rect.unit (s := S50x4096) (k0_off1 L w) S1x256.size h).emb
      (Shape.reshapeEquiv squeezes_S1x256_S256.numel_eq x) = _
    rw [Shape.reshapeEquiv_cons_one]
  rw [e]
  constructor
  · show (k0_off1 L w) 0 + 1 * 0 = _
    omega
  · show (k0_off1 L w) 1 + 1 * (x 0).val = _
    omega

theorem oWin_emb (L : grid0.Coords) (w : BitVec 32) (h : ∀ a, (k0_off2 L w) a + S1x256x128.size a ≤ S50x4096x128.size a)
    (y : S256x128.Idx) :
    (((oWin L w h).view.emb y : S50x4096x128.Idx) 0).val = (k0_off2 L w) 0
      ∧ (((oWin L w h).view.emb y : S50x4096x128.Idx) 1).val = (k0_off2 L w) 1 + (y 0).val
      ∧ (((oWin L w h).view.emb y : S50x4096x128.Idx) 2).val = (k0_off2 L w) 2 + (y 1).val := by
  have e : ((oWin L w h).view.emb y : S50x4096x128.Idx)
      = (Rect.unit (s := S50x4096x128) (k0_off2 L w) S1x256x128.size h).emb (Fin.cons ⟨0, Nat.one_pos⟩ y) := by
    show (Rect.unit (s := S50x4096x128) (k0_off2 L w) S1x256x128.size h).emb
      (Shape.reshapeEquiv squeezes_S1x256x128_S256x128.numel_eq y) = _
    rw [Shape.reshapeEquiv_cons_one]
  rw [e]
  refine ⟨?_, ?_, ?_⟩
  · show (k0_off2 L w) 0 + 1 * 0 = _
    omega
  · show (k0_off2 L w) 1 + 1 * (y 0).val = _
    omega
  · show (k0_off2 L w) 2 + 1 * (y 1).val = _
    omega

end Cert.Proof.KI
-- ==== Proof.WinValue.lean ====
/-
  The values a subcore's round moves. A round fetches a window of the transposed index array into a list, gathers
  the table's rows the list names into a slot, and writes the slot out to the same window of the output. Reading
  a view after a whole write through it gives back what was written, so the slot's row k holds the table's row
  named by the window's entry k; written out, the output's window holds at (row i, column c, lane e) the table's
  row idxT[i, c] at lane e.
-/
import proofs.«218878_g9363028706246_cont_9to1c4b_116_21_alg».proof.Proof.PayKI
import proofs.«218878_g9363028706246_cont_9to1c4b_116_21_alg».proof.Proof.WinMem
import Idealize.ShloMosaic.Lib.SparseCore.Launch
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2 ix1)

variable [FloatOps F]

/-- The slot after the gather, read at (k, e): lane e of the table's row named by entry k of the index window. -/
theorem payload_value (d : Dev nD) (L : grid0.Coords) (fx : Buf (Elt F) (xLoc d)) (fi : Buf (Elt F) (iLoc d))
    (hfi : ∀ j, (fi j).toNat ≤ 100000)
    (w : BitVec 32) (h1 : ∀ a, (k0_off1 L w) a + S1x256.size a ≤ S50x4096.size a)
    (slot : Memref sig .scVector .vmem S256x128 .f32) (lV : Memref sig .scVector .vmem S256 .i32)
    (PREV : slot.view.ty.Contents (Elt F)) (g : lV.view.ty.Contents (Elt F))
    (hg : S100001x128.Gathers 0 S256x128)
    (hx1 : ∀ a, (![0, 0] : Fin 2 → ℕ) a + S100001x128.size a ≤ S100001x128.size a)
    (hx2 : ∀ a, (Rect.unit (s := S100001x128) ![0, 0] S100001x128.size hx1).stride a = 1)
    (hn : S256.numel = S256x128.size hg.axis')
    (hin : ∀ x, (View.read (Elt F) lV.view (View.write (Elt F) lV.view g (ReadAs.same.apply (View.read (Elt F) (iWin L w h1).view fi)) Finset.univ) x).toNat < S100001x128.size hg.axis)
    (y : S256x128.Idx) :
    ReadAs.same.apply (View.read (Elt F) slot.view (View.write (Elt F) slot.view PREV
      (SparseCore.gatherPayload hg (View.read (Elt F) (xV.slice (Rect.unit (s := S100001x128) ![0, 0] S100001x128.size hx1) hx2).view fx)
        (SparseCore.rows (View.read (Elt F) lV.view (View.write (Elt F) lV.view g (ReadAs.same.apply (View.read (Elt F) (iWin L w h1).view fi)) Finset.univ)) hn hin))
      Finset.univ)) y
    = fx (ix2 (n0 := 100001) (n1 := 128) (Spec.rowOf (fi ((iWin L w h1).view.emb (ix1 (n := 256) (y 0))))) (y 1)) := by
  -- the index list as held: the window's words
  have hl : ∀ x, View.read (Elt F) lV.view (View.write (Elt F) lV.view g (ReadAs.same.apply (View.read (Elt F) (iWin L w h1).view fi)) Finset.univ) x
      = fi ((iWin L w h1).view.emb x) := fun x => by
    rw [View.read_write_univ]
    exact (View.read_apply _ _).trans (cast_eq _ _)
  -- entry k of the list, in row-major order, is the entry at index k
  have hk : S256.rowMajor.symm ((y hg.axis').cast hn.symm) = ix1 (n := 256) (y 0) := by
    rw [Equiv.symm_apply_eq]
    apply Fin.ext
    rw [Shape.rowMajor_val_one]
    rfl
  show View.read (Elt F) slot.view (View.write (Elt F) slot.view PREV _ Finset.univ) y = _
  rw [View.read_write_univ]
  refine ((View.read_apply _ _).trans (cast_eq _ _)).trans (congrArg fx ?_)
  funext a
  apply Fin.ext
  match a with
  | ⟨0, _⟩ =>
    show 0 + 1 * (hg.idx _ y hg.axis).val = _
    rw [Shape.Gathers.idx_axis]
    show 0 + 1 * (View.read (Elt F) lV.view _ (S256.rowMajor.symm ((y hg.axis').cast hn.symm))).toNat = _
    rw [hl, hk, Nat.zero_add, Nat.one_mul]
    exact (Spec.rowOf_val_of_le (hfi _)).symm
  | ⟨1, _⟩ =>
    show 0 + 1 * (hg.idx _ y ⟨1, _⟩).val = _
    rw [Shape.Gathers.idx_of_ne hg _ y ⟨1, _⟩ Nat.one_ne_zero, Nat.zero_add, Nat.one_mul]
    rfl

/-- What a subcore's write-out leaves in an output window: the lookup's values there. -/
theorem out_final (m : (ℓ : Loc nD τ sig) → Buf (Elt F) ℓ) (d : Dev nD) (L : grid0.Coords) (r : Fin 25) (w : BitVec 32)
    (hw : w = BitVec.ofNat 32 (32 * r.val))
    (h1 : ∀ a, (k0_off1 L w) a + S1x256.size a ≤ S50x4096.size a)
    (h2 : ∀ a, (k0_off2 L w) a + S1x256x128.size a ≤ S50x4096x128.size a)
    (fo : Buf (Elt F) (oLoc d)) (p : S256x128.Idx → Elt F .f32)
    (hp : ∀ y, p y = m (xLoc d) (ix2 (n0 := 100001) (n1 := 128)
      (Spec.rowOf (idxT m d ((iWin L w h1).view.emb (ix1 (n := 256) (y 0))))) (y 1))) :
    ((oWin L w h2).view.loc (V d (cV L) (jV L)) ↦[(oWin L w h2).view.set]{fullShare}
        (oWin L w h2).view.writes (Elt F) fo [⟨Rect.whole S256x128, p⟩] : sProp 𝕄)
      = oLoc d ↦[oSetR L r]{fullShare} G1 m d := by
  subst hw
  show (oLoc d ↦[oSetR L r]{fullShare} _ : sProp 𝕄) = _
  refine pointsTo_congr fun j hj => ?_
  obtain ⟨y, rfl⟩ := View.exists_emb_of_mem_set (oWin L (BitVec.ofNat 32 (32 * r.val)) h2).view hj
  -- the element written at the window's index y
  have e1 : ((oWin L (BitVec.ofNat 32 (32 * r.val)) h2).view.slice (Rect.whole S256x128)).emb y
      = (oWin L (BitVec.ofNat 32 (32 * r.val)) h2).view.emb y := by
    show (oWin L (BitVec.ofNat 32 (32 * r.val)) h2).view.emb ((Rect.whole S256x128).emb y) = _
    rw [Rect.emb_whole_apply]
  rw [View.writes_singleton, ← e1, View.write_emb_of_mem _ _ (Finset.mem_univ _)]
  refine (cast_eq _ _).trans ((hp y).trans ?_)
  rw [e1]
  -- its place in the array: the window's row, the window's first column plus y's row, y's lane
  obtain ⟨o0, o1, o2⟩ := oWin_emb L (BitVec.ofNat 32 (32 * r.val)) h2 y
  obtain ⟨i0, i1⟩ := iWin_emb L (BitVec.ofNat 32 (32 * r.val)) h1 (ix1 (n := 256) (y 0))
  have ea : (iWin L (BitVec.ofNat 32 (32 * r.val)) h1).view.emb (ix1 (n := 256) (y 0))
      = ix2 (n0 := 50) (n1 := 4096) (((oWin L (BitVec.ofNat 32 (32 * r.val)) h2).view.emb y : S50x4096x128.Idx) 0)
          (((oWin L (BitVec.ofNat 32 (32 * r.val)) h2).view.emb y : S50x4096x128.Idx) 1) := by
    funext a
    apply Fin.ext
    match a with
    | ⟨0, _⟩ => exact i0.trans o0.symm
    | ⟨1, _⟩ => exact i1.trans o1.symm
  have eb : (y 1 : Fin 128) = ((oWin L (BitVec.ofNat 32 (32 * r.val)) h2).view.emb y : S50x4096x128.Idx) 2 :=
    Fin.ext (o2.trans (Nat.zero_add _)).symm
  have key : ∀ (a a' : S50x4096.Idx) (b b' : Fin 128), a = a' → b = b' →
      m (xLoc d) (ix2 (n0 := 100001) (n1 := 128) (Spec.rowOf (idxT m d a)) b)
        = m (xLoc d) (ix2 (n0 := 100001) (n1 := 128) (Spec.rowOf (idxT m d a')) b') := by
    rintro _ _ _ _ rfl rfl; rfl
  exact key _ _ _ _ ea eb

end Cert.Proof.KI

end
-- ==== Proof.TileKI.lean ====
import proofs.«218878_g9363028706246_cont_9to1c4b_116_21_alg».proof.Proof.SetupKI
import proofs.«218878_g9363028706246_cont_9to1c4b_116_21_alg».proof.Proof.TilePreKI
import proofs.«218878_g9363028706246_cont_9to1c4b_116_21_alg».proof.Proof.WinValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2)

variable (m : (ℓ : Loc nD τ sig) → Buf (Elt F) ℓ)

variable [FloatOps F] (d : Dev nD) (L : grid0.Coords)

omit [FloatOps F] in
/-- Recording one more finished wait keeps every recorded wait either an earlier one or the kernel's own. -/
theorem waits_insert {W : Waits sig (HIx 1)} (S : Waits sig (HIx 1)) (a : SemLoc sig)
    (h : ∀ p ∈ S, p ∈ W ∨ p.2 = none) : ∀ p ∈ insert (a, (default : HIx 1)) S, p ∈ W ∨ p.2 = none := by
  intro p hp
  rcases Finset.mem_insert.mp hp with hp | hp
  · exact .inr (hp ▸ rfl)
  · exact h p hp

omit [FloatOps F] in
theorem pack_l0 (f : Buf (Elt F) ((V d (cV L) (jV L)).loc cc0_scratch0)) :
    ((l0V).view.loc (V d (cV L) (jV L)) ↦{fullShare} f : sProp 𝕄) ⊢ iprop(∃ f, (V d (cV L) (jV L)).loc cc0_scratch0 ↦{fullShare} f) := by
  iintro H; iexists f; iexact H
omit [FloatOps F] in
theorem pack_l1 (f : Buf (Elt F) ((V d (cV L) (jV L)).loc cc0_scratch1)) :
    ((l1V).view.loc (V d (cV L) (jV L)) ↦{fullShare} f : sProp 𝕄) ⊢ iprop(∃ f, (V d (cV L) (jV L)).loc cc0_scratch1 ↦{fullShare} f) := by
  iintro H; iexists f; iexact H
omit [FloatOps F] in
theorem pack_b (f : Buf (Elt F) ((V d (cV L) (jV L)).loc cc0_scratch2)) :
    ((bV).view.loc (V d (cV L) (jV L)) ↦{fullShare} f : sProp 𝕄) ⊢ iprop(∃ f, (V d (cV L) (jV L)).loc cc0_scratch2 ↦{fullShare} f) := by
  iintro H; iexists f; iexact H
omit [FloatOps F] in
/-- The waits recorded during the task, all the kernel's own, beside what the subcore still owes. -/
theorem pack_owes (O : CellTallies nD τ sig (HIx 1)) (W W' : Waits sig (HIx 1)) (h : ∀ p ∈ W', p ∈ W ∨ p.2 = none) :
    (owes (V d (cV L) (jV L)) O W' : sProp 𝕄) ⊢ iprop(∃ W', ⌜∀ p ∈ W', p ∈ W ∨ p.2 = none⌝ ∗ owes (V d (cV L) (jV L)) O W') := by
  iintro H; iexists W'; isplitr
  · ipureintro; exact h
  · iexact H

set_option maxHeartbeats 16000000 in
/-- The task of the subcore at grid point `L`: twenty-five rounds, each fetching a window of 256 transposed indices
    into one of two lists, gathering the table's rows they name into one of two row buffers, and writing the rows
    out to the matching window of the output; a list is refilled only after the gather reading it has been waited
    for, a row buffer only after its write-out has. Every window of the output ends holding the table's rows its
    indices name. -/
theorem tile_body (hF : (K (F := F)).Facts) (hpre : ∀ j, (idxT m d j).toNat ≤ 100000) (q : PosShare TreeShare)
    (O : CellTallies nD τ sig (HIx 1)) (W : Waits sig (HIx 1)) (hO : ∀ g, O g none = 0) :
    iprop(levAts (K (F := F)).L (K (F := F)).lev ∗ emp ∗ goFor m d L q
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather L xV (Memref.isWhole_whole _) iV (Memref.isWhole_whole _) oV (Memref.isWhole_whole _)
            l0V (Memref.isWhole_whole _) l1V (Memref.isWhole_whole _) bV (Memref.isWhole_whole _) cc0_scratch3 cc0_scratch4 cc0_scratch5)
          fun _ => iprop(tdFor m d L q ∗ scopedBufs (V d (cV L) (jV L)) ∗ scopedSems0 (V d (cV L) (jV L))
            ∗ ∃ W', ⌜∀ p ∈ W', p ∈ W ∨ p.2 = none⌝ ∗ owes (V d (cV L) (jV L)) O W') := by
  have hfi : ∀ j, (idxT m d j).toNat < 100001 := fun j => Nat.lt_succ_of_le (hpre j)
  simp only [cc0__gather_eq_skeleton]; unfold cc0__gather_skel
  rw [(K (F := F)).scopedBufs_V hF d (cV L) (jV L), SparseCore.Cfg.scopedSems0_V (Val := Elt F) d (cV L) (jV L), ownSems0_V, ownBufs_V]
  unfold goFor tdFor
  rw [bigSep_fin25, bigSep_fin25, bigSep_fin25]
  iintro ⟨#Hlv, -, ⟨⟨Hi0, Hi1, Hi2, Hi3, Hi4, Hi5, Hi6, Hi7, Hi8, Hi9, Hi10, Hi11, Hi12, Hi13, Hi14, Hi15, Hi16, Hi17, Hi18, Hi19, Hi20, Hi21, Hi22, Hi23, Hi24⟩, Hx, ⟨Ho0, Ho1, Ho2, Ho3, Ho4, Ho5, Ho6, Ho7, Ho8, Ho9, Ho10, Ho11, Ho12, Ho13, Ho14, Ho15, Ho16, Ho17, Ho18, Ho19, Ho20, Ho21, Ho22, Ho23, Ho24⟩⟩, ⟨⟨%f0, Hl0⟩, ⟨%f1, Hl1⟩, ⟨%f2, Hb⟩, Hbufs⟩, ⟨HsI0, HsI1, HsG0, HsG1, HsO0, HsO1, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hx := (Entails.of_eq (pts_x (F := F) d L _ _).symm) $$ Hx
  ihave Hi0 := (Entails.of_eq (pts_i (F := F) d L 0#32 (k0_off1_inb L 0) _).symm) $$ Hi0
  ihave Hi1 := (Entails.of_eq (pts_i (F := F) d L 32#32 (k0_off1_inb L 1) _).symm) $$ Hi1
  ihave Hi2 := (Entails.of_eq (pts_i (F := F) d L 64#32 (k0_off1_inb L 2) _).symm) $$ Hi2
  ihave Hi3 := (Entails.of_eq (pts_i (F := F) d L 96#32 (k0_off1_inb L 3) _).symm) $$ Hi3
  ihave Hi4 := (Entails.of_eq (pts_i (F := F) d L 128#32 (k0_off1_inb L 4) _).symm) $$ Hi4
  ihave Hi5 := (Entails.of_eq (pts_i (F := F) d L 160#32 (k0_off1_inb L 5) _).symm) $$ Hi5
  ihave Hi6 := (Entails.of_eq (pts_i (F := F) d L 192#32 (k0_off1_inb L 6) _).symm) $$ Hi6
  ihave Hi7 := (Entails.of_eq (pts_i (F := F) d L 224#32 (k0_off1_inb L 7) _).symm) $$ Hi7
  ihave Hi8 := (Entails.of_eq (pts_i (F := F) d L 256#32 (k0_off1_inb L 8) _).symm) $$ Hi8
  ihave Hi9 := (Entails.of_eq (pts_i (F := F) d L 288#32 (k0_off1_inb L 9) _).symm) $$ Hi9
  ihave Hi10 := (Entails.of_eq (pts_i (F := F) d L 320#32 (k0_off1_inb L 10) _).symm) $$ Hi10
  ihave Hi11 := (Entails.of_eq (pts_i (F := F) d L 352#32 (k0_off1_inb L 11) _).symm) $$ Hi11
  ihave Hi12 := (Entails.of_eq (pts_i (F := F) d L 384#32 (k0_off1_inb L 12) _).symm) $$ Hi12
  ihave Hi13 := (Entails.of_eq (pts_i (F := F) d L 416#32 (k0_off1_inb L 13) _).symm) $$ Hi13
  ihave Hi14 := (Entails.of_eq (pts_i (F := F) d L 448#32 (k0_off1_inb L 14) _).symm) $$ Hi14
  ihave Hi15 := (Entails.of_eq (pts_i (F := F) d L 480#32 (k0_off1_inb L 15) _).symm) $$ Hi15
  ihave Hi16 := (Entails.of_eq (pts_i (F := F) d L 512#32 (k0_off1_inb L 16) _).symm) $$ Hi16
  ihave Hi17 := (Entails.of_eq (pts_i (F := F) d L 544#32 (k0_off1_inb L 17) _).symm) $$ Hi17
  ihave Hi18 := (Entails.of_eq (pts_i (F := F) d L 576#32 (k0_off1_inb L 18) _).symm) $$ Hi18
  ihave Hi19 := (Entails.of_eq (pts_i (F := F) d L 608#32 (k0_off1_inb L 19) _).symm) $$ Hi19
  ihave Hi20 := (Entails.of_eq (pts_i (F := F) d L 640#32 (k0_off1_inb L 20) _).symm) $$ Hi20
  ihave Hi21 := (Entails.of_eq (pts_i (F := F) d L 672#32 (k0_off1_inb L 21) _).symm) $$ Hi21
  ihave Hi22 := (Entails.of_eq (pts_i (F := F) d L 704#32 (k0_off1_inb L 22) _).symm) $$ Hi22
  ihave Hi23 := (Entails.of_eq (pts_i (F := F) d L 736#32 (k0_off1_inb L 23) _).symm) $$ Hi23
  ihave Hi24 := (Entails.of_eq (pts_i (F := F) d L 768#32 (k0_off1_inb L 24) _).symm) $$ Hi24
  ihave Ho0 := (Entails.of_eq (pts_o (F := F) d L 0#32 (k0_off2_inb L 0) _).symm) $$ Ho0
  ihave Ho1 := (Entails.of_eq (pts_o (F := F) d L 32#32 (k0_off2_inb L 1) _).symm) $$ Ho1
  ihave Ho2 := (Entails.of_eq (pts_o (F := F) d L 64#32 (k0_off2_inb L 2) _).symm) $$ Ho2
  ihave Ho3 := (Entails.of_eq (pts_o (F := F) d L 96#32 (k0_off2_inb L 3) _).symm) $$ Ho3
  ihave Ho4 := (Entails.of_eq (pts_o (F := F) d L 128#32 (k0_off2_inb L 4) _).symm) $$ Ho4
  ihave Ho5 := (Entails.of_eq (pts_o (F := F) d L 160#32 (k0_off2_inb L 5) _).symm) $$ Ho5
  ihave Ho6 := (Entails.of_eq (pts_o (F := F) d L 192#32 (k0_off2_inb L 6) _).symm) $$ Ho6
  ihave Ho7 := (Entails.of_eq (pts_o (F := F) d L 224#32 (k0_off2_inb L 7) _).symm) $$ Ho7
  ihave Ho8 := (Entails.of_eq (pts_o (F := F) d L 256#32 (k0_off2_inb L 8) _).symm) $$ Ho8
  ihave Ho9 := (Entails.of_eq (pts_o (F := F) d L 288#32 (k0_off2_inb L 9) _).symm) $$ Ho9
  ihave Ho10 := (Entails.of_eq (pts_o (F := F) d L 320#32 (k0_off2_inb L 10) _).symm) $$ Ho10
  ihave Ho11 := (Entails.of_eq (pts_o (F := F) d L 352#32 (k0_off2_inb L 11) _).symm) $$ Ho11
  ihave Ho12 := (Entails.of_eq (pts_o (F := F) d L 384#32 (k0_off2_inb L 12) _).symm) $$ Ho12
  ihave Ho13 := (Entails.of_eq (pts_o (F := F) d L 416#32 (k0_off2_inb L 13) _).symm) $$ Ho13
  ihave Ho14 := (Entails.of_eq (pts_o (F := F) d L 448#32 (k0_off2_inb L 14) _).symm) $$ Ho14
  ihave Ho15 := (Entails.of_eq (pts_o (F := F) d L 480#32 (k0_off2_inb L 15) _).symm) $$ Ho15
  ihave Ho16 := (Entails.of_eq (pts_o (F := F) d L 512#32 (k0_off2_inb L 16) _).symm) $$ Ho16
  ihave Ho17 := (Entails.of_eq (pts_o (F := F) d L 544#32 (k0_off2_inb L 17) _).symm) $$ Ho17
  ihave Ho18 := (Entails.of_eq (pts_o (F := F) d L 576#32 (k0_off2_inb L 18) _).symm) $$ Ho18
  ihave Ho19 := (Entails.of_eq (pts_o (F := F) d L 608#32 (k0_off2_inb L 19) _).symm) $$ Ho19
  ihave Ho20 := (Entails.of_eq (pts_o (F := F) d L 640#32 (k0_off2_inb L 20) _).symm) $$ Ho20
  ihave Ho21 := (Entails.of_eq (pts_o (F := F) d L 672#32 (k0_off2_inb L 21) _).symm) $$ Ho21
  ihave Ho22 := (Entails.of_eq (pts_o (F := F) d L 704#32 (k0_off2_inb L 22) _).symm) $$ Ho22
  ihave Ho23 := (Entails.of_eq (pts_o (F := F) d L 736#32 (k0_off2_inb L 23) _).symm) $$ Ho23
  ihave Ho24 := (Entails.of_eq (pts_o (F := F) d L 768#32 (k0_off2_inb L 24) _).symm) $$ Ho24
  ihave Hl0 := (Entails.of_eq (pts_l0 (F := F) d L _).symm) $$ Hl0
  ihave Hl1 := (Entails.of_eq (pts_l1 (F := F) d L _).symm) $$ Hl1
  ihave Hb := (Entails.of_eq (pts_b (F := F) d L _).symm) $$ Hb
  have hin0 := hin_l0 (F := F) d L (idxT m d) hfi
  have hin1 := hin_l1 (F := F) d L (idxT m d) hfi
  sl_exec_parts
  sl_step
  ihave Ho0 := (Entails.of_eq (out_final (F := F) m d L 0 0#32 rfl (k0_off1_inb L 0) (k0_off2_inb L 0) _ _ ?hp0)) $$ Ho0
  case hp0 => exact fun y => payload_value (F := F) d L (m (xLoc d)) (idxT m d) hpre _ _ _ _ _ _ _ _ _ _ _ y
  ihave Ho1 := (Entails.of_eq (out_final (F := F) m d L 1 32#32 rfl (k0_off1_inb L 1) (k0_off2_inb L 1) _ _ ?hp1)) $$ Ho1
  case hp1 => exact fun y => payload_value (F := F) d L (m (xLoc d)) (idxT m d) hpre _ _ _ _ _ _ _ _ _ _ _ y
  ihave Ho2 := (Entails.of_eq (out_final (F := F) m d L 2 64#32 rfl (k0_off1_inb L 2) (k0_off2_inb L 2) _ _ ?hp2)) $$ Ho2
  case hp2 => exact fun y => payload_value (F := F) d L (m (xLoc d)) (idxT m d) hpre _ _ _ _ _ _ _ _ _ _ _ y
  ihave Ho3 := (Entails.of_eq (out_final (F := F) m d L 3 96#32 rfl (k0_off1_inb L 3) (k0_off2_inb L 3) _ _ ?hp3)) $$ Ho3
  case hp3 => exact fun y => payload_value (F := F) d L (m (xLoc d)) (idxT m d) hpre _ _ _ _ _ _ _ _ _ _ _ y
  ihave Ho4 := (Entails.of_eq (out_final (F := F) m d L 4 128#32 rfl (k0_off1_inb L 4) (k0_off2_inb L 4) _ _ ?hp4)) $$ Ho4
  case hp4 => exact fun y => payload_value (F := F) d L (m (xLoc d)) (idxT m d) hpre _ _ _ _ _ _ _ _ _ _ _ y
  ihave Ho5 := (Entails.of_eq (out_final (F := F) m d L 5 160#32 rfl (k0_off1_inb L 5) (k0_off2_inb L 5) _ _ ?hp5)) $$ Ho5
  case hp5 => exact fun y => payload_value (F := F) d L (m (xLoc d)) (idxT m d) hpre _ _ _ _ _ _ _ _ _ _ _ y
  ihave Ho6 := (Entails.of_eq (out_final (F := F) m d L 6 192#32 rfl (k0_off1_inb L 6) (k0_off2_inb L 6) _ _ ?hp6)) $$ Ho6
  case hp6 => exact fun y => payload_value (F := F) d L (m (xLoc d)) (idxT m d) hpre _ _ _ _ _ _ _ _ _ _ _ y
  ihave Ho7 := (Entails.of_eq (out_final (F := F) m d L 7 224#32 rfl (k0_off1_inb L 7) (k0_off2_inb L 7) _ _ ?hp7)) $$ Ho7
  case hp7 => exact fun y => payload_value (F := F) d L (m (xLoc d)) (idxT m d) hpre _ _ _ _ _ _ _ _ _ _ _ y
  ihave Ho8 := (Entails.of_eq (out_final (F := F) m d L 8 256#32 rfl (k0_off1_inb L 8) (k0_off2_inb L 8) _ _ ?hp8)) $$ Ho8
  case hp8 => exact fun y => payload_value (F := F) d L (m (xLoc d)) (idxT m d) hpre _ _ _ _ _ _ _ _ _ _ _ y
  ihave Ho9 := (Entails.of_eq (out_final (F := F) m d L 9 288#32 rfl (k0_off1_inb L 9) (k0_off2_inb L 9) _ _ ?hp9)) $$ Ho9
  case hp9 => exact fun y => payload_value (F := F) d L (m (xLoc d)) (idxT m d) hpre _ _ _ _ _ _ _ _ _ _ _ y
  ihave Ho10 := (Entails.of_eq (out_final (F := F) m d L 10 320#32 rfl (k0_off1_inb L 10) (k0_off2_inb L 10) _ _ ?hp10)) $$ Ho10
  case hp10 => exact fun y => payload_value (F := F) d L (m (xLoc d)) (idxT m d) hpre _ _ _ _ _ _ _ _ _ _ _ y
  ihave Ho11 := (Entails.of_eq (out_final (F := F) m d L 11 352#32 rfl (k0_off1_inb L 11) (k0_off2_inb L 11) _ _ ?hp11)) $$ Ho11
  case hp11 => exact fun y => payload_value (F := F) d L (m (xLoc d)) (idxT m d) hpre _ _ _ _ _ _ _ _ _ _ _ y
  ihave Ho12 := (Entails.of_eq (out_final (F := F) m d L 12 384#32 rfl (k0_off1_inb L 12) (k0_off2_inb L 12) _ _ ?hp12)) $$ Ho12
  case hp12 => exact fun y => payload_value (F := F) d L (m (xLoc d)) (idxT m d) hpre _ _ _ _ _ _ _ _ _ _ _ y
  ihave Ho13 := (Entails.of_eq (out_final (F := F) m d L 13 416#32 rfl (k0_off1_inb L 13) (k0_off2_inb L 13) _ _ ?hp13)) $$ Ho13
  case hp13 => exact fun y => payload_value (F := F) d L (m (xLoc d)) (idxT m d) hpre _ _ _ _ _ _ _ _ _ _ _ y
  ihave Ho14 := (Entails.of_eq (out_final (F := F) m d L 14 448#32 rfl (k0_off1_inb L 14) (k0_off2_inb L 14) _ _ ?hp14)) $$ Ho14
  case hp14 => exact fun y => payload_value (F := F) d L (m (xLoc d)) (idxT m d) hpre _ _ _ _ _ _ _ _ _ _ _ y
  ihave Ho15 := (Entails.of_eq (out_final (F := F) m d L 15 480#32 rfl (k0_off1_inb L 15) (k0_off2_inb L 15) _ _ ?hp15)) $$ Ho15
  case hp15 => exact fun y => payload_value (F := F) d L (m (xLoc d)) (idxT m d) hpre _ _ _ _ _ _ _ _ _ _ _ y
  ihave Ho16 := (Entails.of_eq (out_final (F := F) m d L 16 512#32 rfl (k0_off1_inb L 16) (k0_off2_inb L 16) _ _ ?hp16)) $$ Ho16
  case hp16 => exact fun y => payload_value (F := F) d L (m (xLoc d)) (idxT m d) hpre _ _ _ _ _ _ _ _ _ _ _ y
  ihave Ho17 := (Entails.of_eq (out_final (F := F) m d L 17 544#32 rfl (k0_off1_inb L 17) (k0_off2_inb L 17) _ _ ?hp17)) $$ Ho17
  case hp17 => exact fun y => payload_value (F := F) d L (m (xLoc d)) (idxT m d) hpre _ _ _ _ _ _ _ _ _ _ _ y
  ihave Ho18 := (Entails.of_eq (out_final (F := F) m d L 18 576#32 rfl (k0_off1_inb L 18) (k0_off2_inb L 18) _ _ ?hp18)) $$ Ho18
  case hp18 => exact fun y => payload_value (F := F) d L (m (xLoc d)) (idxT m d) hpre _ _ _ _ _ _ _ _ _ _ _ y
  ihave Ho19 := (Entails.of_eq (out_final (F := F) m d L 19 608#32 rfl (k0_off1_inb L 19) (k0_off2_inb L 19) _ _ ?hp19)) $$ Ho19
  case hp19 => exact fun y => payload_value (F := F) d L (m (xLoc d)) (idxT m d) hpre _ _ _ _ _ _ _ _ _ _ _ y
  ihave Ho20 := (Entails.of_eq (out_final (F := F) m d L 20 640#32 rfl (k0_off1_inb L 20) (k0_off2_inb L 20) _ _ ?hp20)) $$ Ho20
  case hp20 => exact fun y => payload_value (F := F) d L (m (xLoc d)) (idxT m d) hpre _ _ _ _ _ _ _ _ _ _ _ y
  ihave Ho21 := (Entails.of_eq (out_final (F := F) m d L 21 672#32 rfl (k0_off1_inb L 21) (k0_off2_inb L 21) _ _ ?hp21)) $$ Ho21
  case hp21 => exact fun y => payload_value (F := F) d L (m (xLoc d)) (idxT m d) hpre _ _ _ _ _ _ _ _ _ _ _ y
  ihave Ho22 := (Entails.of_eq (out_final (F := F) m d L 22 704#32 rfl (k0_off1_inb L 22) (k0_off2_inb L 22) _ _ ?hp22)) $$ Ho22
  case hp22 => exact fun y => payload_value (F := F) d L (m (xLoc d)) (idxT m d) hpre _ _ _ _ _ _ _ _ _ _ _ y
  ihave Ho23 := (Entails.of_eq (out_final (F := F) m d L 23 736#32 rfl (k0_off1_inb L 23) (k0_off2_inb L 23) _ _ ?hp23)) $$ Ho23
  case hp23 => exact fun y => payload_value (F := F) d L (m (xLoc d)) (idxT m d) hpre _ _ _ _ _ _ _ _ _ _ _ y
  ihave Ho24 := (Entails.of_eq (out_final (F := F) m d L 24 768#32 rfl (k0_off1_inb L 24) (k0_off2_inb L 24) _ _ ?hp24)) $$ Ho24
  case hp24 => exact fun y => payload_value (F := F) d L (m (xLoc d)) (idxT m d) hpre _ _ _ _ _ _ _ _ _ _ _ y
  ihave Hl0 := (pack_l0 (F := F) d L _) $$ Hl0
  ihave Hl1 := (pack_l1 (F := F) d L _) $$ Hl1
  ihave Hb := (pack_b (F := F) d L _) $$ Hb
  ihave HO := (pack_owes (F := F) d L O W _ ?hW) $$ HO
  case hW =>
    repeat (refine waits_insert _ _ ?_)
    exact fun p hp => .inl hp
  ihave Hi0 := (Entails.of_eq (pts_i (F := F) d L 0#32 (k0_off1_inb L 0) _)) $$ Hi0
  ihave Hi1 := (Entails.of_eq (pts_i (F := F) d L 32#32 (k0_off1_inb L 1) _)) $$ Hi1
  ihave Hi2 := (Entails.of_eq (pts_i (F := F) d L 64#32 (k0_off1_inb L 2) _)) $$ Hi2
  ihave Hi3 := (Entails.of_eq (pts_i (F := F) d L 96#32 (k0_off1_inb L 3) _)) $$ Hi3
  ihave Hi4 := (Entails.of_eq (pts_i (F := F) d L 128#32 (k0_off1_inb L 4) _)) $$ Hi4
  ihave Hi5 := (Entails.of_eq (pts_i (F := F) d L 160#32 (k0_off1_inb L 5) _)) $$ Hi5
  ihave Hi6 := (Entails.of_eq (pts_i (F := F) d L 192#32 (k0_off1_inb L 6) _)) $$ Hi6
  ihave Hi7 := (Entails.of_eq (pts_i (F := F) d L 224#32 (k0_off1_inb L 7) _)) $$ Hi7
  ihave Hi8 := (Entails.of_eq (pts_i (F := F) d L 256#32 (k0_off1_inb L 8) _)) $$ Hi8
  ihave Hi9 := (Entails.of_eq (pts_i (F := F) d L 288#32 (k0_off1_inb L 9) _)) $$ Hi9
  ihave Hi10 := (Entails.of_eq (pts_i (F := F) d L 320#32 (k0_off1_inb L 10) _)) $$ Hi10
  ihave Hi11 := (Entails.of_eq (pts_i (F := F) d L 352#32 (k0_off1_inb L 11) _)) $$ Hi11
  ihave Hi12 := (Entails.of_eq (pts_i (F := F) d L 384#32 (k0_off1_inb L 12) _)) $$ Hi12
  ihave Hi13 := (Entails.of_eq (pts_i (F := F) d L 416#32 (k0_off1_inb L 13) _)) $$ Hi13
  ihave Hi14 := (Entails.of_eq (pts_i (F := F) d L 448#32 (k0_off1_inb L 14) _)) $$ Hi14
  ihave Hi15 := (Entails.of_eq (pts_i (F := F) d L 480#32 (k0_off1_inb L 15) _)) $$ Hi15
  ihave Hi16 := (Entails.of_eq (pts_i (F := F) d L 512#32 (k0_off1_inb L 16) _)) $$ Hi16
  ihave Hi17 := (Entails.of_eq (pts_i (F := F) d L 544#32 (k0_off1_inb L 17) _)) $$ Hi17
  ihave Hi18 := (Entails.of_eq (pts_i (F := F) d L 576#32 (k0_off1_inb L 18) _)) $$ Hi18
  ihave Hi19 := (Entails.of_eq (pts_i (F := F) d L 608#32 (k0_off1_inb L 19) _)) $$ Hi19
  ihave Hi20 := (Entails.of_eq (pts_i (F := F) d L 640#32 (k0_off1_inb L 20) _)) $$ Hi20
  ihave Hi21 := (Entails.of_eq (pts_i (F := F) d L 672#32 (k0_off1_inb L 21) _)) $$ Hi21
  ihave Hi22 := (Entails.of_eq (pts_i (F := F) d L 704#32 (k0_off1_inb L 22) _)) $$ Hi22
  ihave Hi23 := (Entails.of_eq (pts_i (F := F) d L 736#32 (k0_off1_inb L 23) _)) $$ Hi23
  ihave Hi24 := (Entails.of_eq (pts_i (F := F) d L 768#32 (k0_off1_inb L 24) _)) $$ Hi24
  ihave Hx := (Entails.of_eq (pts_x (F := F) d L _ _)) $$ Hx
  isplitl [Hi0 Hi1 Hi2 Hi3 Hi4 Hi5 Hi6 Hi7 Hi8 Hi9 Hi10 Hi11 Hi12 Hi13 Hi14 Hi15 Hi16 Hi17 Hi18 Hi19 Hi20 Hi21 Hi22 Hi23 Hi24 Hx Ho0 Ho1 Ho2 Ho3 Ho4 Ho5 Ho6 Ho7 Ho8 Ho9 Ho10 Ho11 Ho12 Ho13 Ho14 Ho15 Ho16 Ho17 Ho18 Ho19 Ho20 Ho21 Ho22 Ho23 Ho24]
  · skip
    isplitl [Hi0 Hi1 Hi2 Hi3 Hi4 Hi5 Hi6 Hi7 Hi8 Hi9 Hi10 Hi11 Hi12 Hi13 Hi14 Hi15 Hi16 Hi17 Hi18 Hi19 Hi20 Hi21 Hi22 Hi23 Hi24]
    · skip
      isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hi7]; · iexact Hi7
      isplitl [Hi8]; · iexact Hi8
      isplitl [Hi9]; · iexact Hi9
      isplitl [Hi10]; · iexact Hi10
      isplitl [Hi11]; · iexact Hi11
      isplitl [Hi12]; · iexact Hi12
      isplitl [Hi13]; · iexact Hi13
      isplitl [Hi14]; · iexact Hi14
      isplitl [Hi15]; · iexact Hi15
      isplitl [Hi16]; · iexact Hi16
      isplitl [Hi17]; · iexact Hi17
      isplitl [Hi18]; · iexact Hi18
      isplitl [Hi19]; · iexact Hi19
      isplitl [Hi20]; · iexact Hi20
      isplitl [Hi21]; · iexact Hi21
      isplitl [Hi22]; · iexact Hi22
      isplitl [Hi23]; · iexact Hi23
      iexact Hi24
    isplitl [Hx]; · iexact Hx
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    isplitl [Ho19]; · iexact Ho19
    isplitl [Ho20]; · iexact Ho20
    isplitl [Ho21]; · iexact Ho21
    isplitl [Ho22]; · iexact Ho22
    isplitl [Ho23]; · iexact Ho23
    iexact Ho24
  isplitl [Hl0 Hl1 Hb Hbufs]
  · isplitl [Hl0]; · iexact Hl0
    isplitl [Hl1]; · iexact Hl1
    isplitl [Hb]; · iexact Hb
    iexact Hbufs
  isplitl [HsI0 HsI1 HsG0 HsG1 HsO0 HsO1 Hsems]
  · isplitl [HsI0]; · iexact HsI0
    isplitl [HsI1]; · iexact HsI1
    isplitl [HsG0]; · iexact HsG0
    isplitl [HsG1]; · iexact HsG1
    isplitl [HsO0]; · iexact HsO0
    isplitl [HsO1]; · iexact HsO1
    iexact Hsems
  iexact HO

end Cert.Proof.KI

end
-- ==== Proof.ObligKI.lean ====
import proofs.«218878_g9363028706246_cont_9to1c4b_116_21_alg».proof.Proof.SetupKI
import proofs.«218878_g9363028706246_cont_9to1c4b_116_21_alg».proof.Proof.TileKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The launch theorem's obligation for a subcore's task -/

theorem defs₀_vector (c : Fin τ.nSC) (s : Fin τ.nSub) :
    defs₀ (F := F) (.scVector c s) 0 ()
      = SparseCore.onTile hcore0 hsub0 (fun c s => cc0__gather (coordsV c s)
          xV (Memref.isWhole_whole _) iV (Memref.isWhole_whole _) oV (Memref.isWhole_whole _)
          l0V (Memref.isWhole_whole _) l1V (Memref.isWhole_whole _) bV (Memref.isWhole_whole _) cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
theorem tileObl (hF : (K (F := F)).Facts) (hpre : ∀ d j, (idxT m d j).toNat ≤ 100000) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hpre d) _ O W hO).trans (wp_mono frame _ _ fun _ => obl_post)

end Cert.Proof.KI

end
-- ==== Proof.WinTile.lean ====
/-
  The 800 windows tile the arrays. Window v = core + 2·subcore + 32·round is row v / 16, column block v % 16, so
  an index (i, k, …) lies in exactly the window v = 16·i + k / 256; and v determines its core v % 2, its subcore
  (v % 32) / 2 and its round v / 32.
-/
import proofs.«218878_g9363028706246_cont_9to1c4b_116_21_alg».proof.Proof.WinMem

namespace Cert.Proof.KI

open Cert.KernelIdeal Cert.KernelIdeal.Gen
open Idealize.ShloMosaic

theorem winNo_coordsV (c : Fin 2) (s : Fin 16) (r : Fin 25) :
    winNo (coordsV c s) r = 2 * s.val + c.val + 32 * r.val := rfl

/-- The window number determines the worker and the round. -/
theorem winNo_inj (a b : Fin 2 × Fin 16 × Fin 25)
    (h : winNo (coordsV a.1 a.2.1) a.2.2 = winNo (coordsV b.1 b.2.1) b.2.2) : a = b := by
  obtain ⟨c, s, r⟩ := a
  obtain ⟨c', s', r'⟩ := b
  simp only [winNo_coordsV] at h
  have hc := c.isLt
  have hc' := c'.isLt
  have hs := s.isLt
  have hs' := s'.isLt
  have e1 : c = c' := Fin.ext (by omega)
  have e2 : s = s' := Fin.ext (by omega)
  have e3 : r = r' := Fin.ext (by omega)
  rw [e1, e2, e3]

/-- The window holding row `i`, column `k`: number 16·i + k / 256, as (core, subcore, round). -/
def winOf (i k : ℕ) (hi : i < 50) (hk : k < 4096) : Fin 2 × Fin 16 × Fin 25 :=
  (⟨(16 * i + k / 256) % 2, by omega⟩, ⟨(16 * i + k / 256) % 32 / 2, by omega⟩, ⟨(16 * i + k / 256) / 32, by omega⟩)

theorem winNo_winOf (i k : ℕ) (hi : i < 50) (hk : k < 4096) :
    winNo (coordsV (winOf i k hi hk).1 (winOf i k hi hk).2.1) (winOf i k hi hk).2.2 = 16 * i + k / 256 := by
  rw [winNo_coordsV]
  show 2 * ((16 * i + k / 256) % 32 / 2) + (16 * i + k / 256) % 2 + 32 * ((16 * i + k / 256) / 32) = _
  omega

theorem iSetR_disjoint : ∀ a b : Fin 2 × Fin 16 × Fin 25, a ≠ b →
    Disjoint (iSetR (coordsV a.1 a.2.1) a.2.2) (iSetR (coordsV b.1 b.2.1) b.2.2) := by
  intro a b hab
  refine Finset.disjoint_left.mpr fun j hj hj' => hab (winNo_inj a b ?_)
  rw [mem_iSetR] at hj hj'
  omega

theorem oSetR_disjoint : ∀ a b : Fin 2 × Fin 16 × Fin 25, a ≠ b →
    Disjoint (oSetR (coordsV a.1 a.2.1) a.2.2) (oSetR (coordsV b.1 b.2.1) b.2.2) := by
  intro a b hab
  refine Finset.disjoint_left.mpr fun j hj hj' => hab (winNo_inj a b ?_)
  rw [mem_oSetR] at hj hj'
  omega

theorem iSetR_cover : (Finset.univ : Finset (Fin 2 × Fin 16 × Fin 25)).biUnion
    (fun a => iSetR (coordsV a.1 a.2.1) a.2.2) = Finset.univ := by
  refine Finset.eq_univ_iff_forall.mpr fun j => ?_
  have h0 : (j 0).val < 50 := (j 0).isLt
  have h1 : (j 1).val < 4096 := (j 1).isLt
  refine Finset.mem_biUnion.mpr ⟨winOf (j 0).val (j 1).val h0 h1, Finset.mem_univ _, ?_⟩
  rw [mem_iSetR, winNo_winOf]
  omega

theorem oSetR_cover : (Finset.univ : Finset (Fin 2 × Fin 16 × Fin 25)).biUnion
    (fun a => oSetR (coordsV a.1 a.2.1) a.2.2) = Finset.univ := by
  refine Finset.eq_univ_iff_forall.mpr fun j => ?_
  have h0 : (j 0).val < 50 := (j 0).isLt
  have h1 : (j 1).val < 4096 := (j 1).isLt
  refine Finset.mem_biUnion.mpr ⟨winOf (j 0).val (j 1).val h0 h1, Finset.mem_univ _, ?_⟩
  rw [mem_oSetR, winNo_winOf]
  omega

end Cert.Proof.KI
-- ==== Proof.LaunchKI.lean ====
import proofs.«218878_g9363028706246_cont_9to1c4b_116_21_alg».proof.Proof.SetupKI
import proofs.«218878_g9363028706246_cont_9to1c4b_116_21_alg».proof.Proof.PayKI
import proofs.«218878_g9363028706246_cont_9to1c4b_116_21_alg».proof.Proof.WinTile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)

variable [FloatOps F]

/-! ## How a SparseCore's windows and share split among its sixteen subcores -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stFor m d (Fin.cast nCore_zero c) ⊢ |={Set.univ}=> iprop(
      (bigSep Finset.univ fun i : Fin ((K (F := F)).nSub 0) =>
        goFor m d (coordsV (Fin.cast nCore_zero c) (Fin.cast nSub_zero i)) (xq (Fin.cast nCore_zero c) (Fin.cast nSub_zero i)))
      ∗ ((bigSep Finset.univ fun i : Fin ((K (F := F)).nSub 0) =>
          tdFor m d (coordsV (Fin.cast nCore_zero c) (Fin.cast nSub_zero i)) (xq (Fin.cast nCore_zero c) (Fin.cast nSub_zero i)))
          -∗ dnFor m d (Fin.cast nCore_zero c)))
  unfold stFor dnFor goFor tdFor
  rw [bigSep_sep', bigSep_sep', bigSep_sep', bigSep_sep']
  iintro ⟨Hi, Hx, Ho⟩
  ihave Hx' := (Transfers.pointsTo_toks_split (xqC (Fin.cast nCore_zero c)) ((K (F := F)).nSub 0)) $$ Hx
  icases Hx' with ⟨Hxr, Hxs⟩
  imodintro
  isplitl [Hi Hxs Ho]
  · isplitl [Hi]; · iexact Hi
    isplitl [Hxs]; · iexact Hxs
    iexact Ho
  iintro ⟨Hi, Hxs, Ho⟩
  isplitl [Hi]; · iexact Hi
  isplitl [Hxr Hxs]
  · iapply (Transfers.pointsTo_toks_join (xqC (Fin.cast nCore_zero c)) ((K (F := F)).nSub 0)); isplitl [Hxr]
    · iexact Hxr
    · iexact Hxs
  iexact Ho

/-! ## The launch element: the handshakes' rounds; the transfers' counters start empty -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays as their 800 windows -/

omit [FloatOps F] in
set_option maxHeartbeats 2000000 in
theorem iPts_windows (d : Dev nD) (f : Buf (Elt F) (iLoc d)) :
    (iLoc d ↦{fullShare} f : sProp 𝕄) = bigSep Finset.univ fun c : Fin 2 => bigSep Finset.univ fun s : Fin 16 =>
      bigSep Finset.univ fun r : Fin 25 => iLoc d ↦[iSetR (coordsV c s) r]{fullShare} f := by
  have e : (bigSep Finset.univ fun c : Fin 2 => bigSep Finset.univ fun s : Fin 16 =>
      bigSep Finset.univ fun r : Fin 25 => (iLoc d ↦[iSetR (coordsV c s) r]{fullShare} f : sProp 𝕄))
      = bigSep Finset.univ fun a : Fin 2 × Fin 16 × Fin 25 => iLoc d ↦[iSetR (coordsV a.1 a.2.1) a.2.2]{fullShare} f := by
    rw [bigSep_univ_prod]
    refine bigSep_congr fun c _ => ?_
    rw [bigSep_univ_prod]
  rw [e, ← pointsTo_biUnion (Finset.univ : Finset (Fin 2 × Fin 16 × Fin 25)) (ℓ := iLoc d) (fun a => iSetR (coordsV a.1 a.2.1) a.2.2)
    (fun a _ b _ hab => iSetR_disjoint a b hab), iSetR_cover]

omit [FloatOps F] in
set_option maxHeartbeats 2000000 in
theorem oPts_windows (d : Dev nD) (f : Buf (Elt F) (oLoc d)) :
    (oLoc d ↦{fullShare} f : sProp 𝕄) = bigSep Finset.univ fun c : Fin 2 => bigSep Finset.univ fun s : Fin 16 =>
      bigSep Finset.univ fun r : Fin 25 => oLoc d ↦[oSetR (coordsV c s) r]{fullShare} f := by
  have e : (bigSep Finset.univ fun c : Fin 2 => bigSep Finset.univ fun s : Fin 16 =>
      bigSep Finset.univ fun r : Fin 25 => (oLoc d ↦[oSetR (coordsV c s) r]{fullShare} f : sProp 𝕄))
      = bigSep Finset.univ fun a : Fin 2 × Fin 16 × Fin 25 => oLoc d ↦[oSetR (coordsV a.1 a.2.1) a.2.2]{fullShare} f := by
    rw [bigSep_univ_prod]
    refine bigSep_congr fun c _ => ?_
    rw [bigSep_univ_prod]
  rw [e, ← pointsTo_biUnion (Finset.univ : Finset (Fin 2 × Fin 16 × Fin 25)) (ℓ := oLoc d) (fun a => oSetR (coordsV a.1 a.2.1) a.2.2)
    (fun a _ b _ hab => oSetR_disjoint a b hab), oSetR_cover]

omit [FloatOps F] in
theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

end Cert.Proof.KI

end
-- ==== Proof.MainKI.lean ====
/-
  The program's entry function on the TensorCore, and the run of the whole program from the subcores' obligation.

  The entry function transposes the index array, starts the two SparseCores on the transposed indices, the table and
  the output array and waits for them, then transposes the output into the result. Around the call the transposed
  indices and the output are cut into their 800 windows, half to each SparseCore, and the table is lent as two read
  shares; what comes back is the same with the output's windows filled. The index array, the table and the result are
  kept to the end: the first two at their launch contents, the result at the transposed gathered rows.
-/
import proofs.«218878_g9363028706246_cont_9to1c4b_116_21_alg».proof.Proof.SetupKI
import proofs.«218878_g9363028706246_cont_9to1c4b_116_21_alg».proof.Proof.PayKI
import proofs.«218878_g9363028706246_cont_9to1c4b_116_21_alg».proof.Proof.WinTile
import proofs.«218878_g9363028706246_cont_9to1c4b_116_21_alg».proof.Proof.LaunchKI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)

variable [FloatOps F]

/-! ## The TensorCore's five arrays and the two transpositions -/

abbrev a' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The index array transposed into the kernel's operand. -/
abbrev opT1 : HloOp τ sig (Elt F) :=
  StableHlo.unary main_arg0 main_v0 ((transpose S50x4096 [1, 0] · transposes_S4096x50_S50x4096_1_0) :
    (⟨S4096x50, .i32⟩ : BufTy).Contents (Elt F) → (⟨S50x4096, .i32⟩ : BufTy).Contents (Elt F))
/-- The kernel's output transposed into the result. -/
abbrev opT2 : HloOp τ sig (Elt F) :=
  StableHlo.unary main_v1 main_v2 ((transpose S4096x50x128 [1, 0, 2] · transposes_S50x4096x128_S4096x50x128_1_0_2) :
    (⟨S50x4096x128, .f32⟩ : BufTy).Contents (Elt F) → (⟨S4096x50x128, .f32⟩ : BufTy).Contents (Elt F))

/-- The five arrays, all unscoped; and the two the second transposition touches. -/
abbrev S5 : Finset (DevRef τ sig) := {a', x', i', o', r'}
abbrev S2o : Finset (DevRef τ sig) := {o', r'}

theorem held_S5 (d : Dev nD) (W : Valuation τ sig (Elt F)) :
    (held (T d) S5 W : sProp 𝕄) = iprop((aLoc d ↦{fullShare} W a') ∗ (xLoc d ↦{fullShare} W x') ∗ (iLoc d ↦{fullShare} W i')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem held_S2o (d : Dev nD) (W : Valuation τ sig (Elt F)) :
    (held (T d) S2o W : sProp 𝕄) = iprop((oLoc d ↦{fullShare} W o') ∗ rLoc d ↦{fullShare} W r') := by
  unfold held S2o
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the call, the output array at the gathered rows. -/
def V0 (d : Dev nD) : Valuation τ sig (Elt F) := fun b => m (d, b)
def V1 (d : Dev nD) : Valuation τ sig (Elt F) := Function.update (V0 m d) o' (G1 m d)

theorem unscoped_held (d : Dev nD) : (unscopedBufs d (fun b => m ((SparseCore.T d).loc b)) : sProp 𝕄) = held (T d) S5 (V0 m d) := by
  rw [unscopedBufs_eq, held_S5]; rfl

theorem V1_o (d : Dev nD) : V1 m d o' = G1 m d := Function.update_self _ _ _
theorem V1_r (d : Dev nD) : V1 m d r' = m (rLoc d) := Function.update_of_ne (show r' ≠ o' by decide) _ _

theorem hT1 : (opT1 (F := F)).bufs ⊆ S5 := show ({a', i'} : Finset (DevRef τ sig)) ⊆ S5 by decide
theorem hT2 : (opT2 (F := F)).bufs ⊆ S2o := show ({o', r'} : Finset (DevRef τ sig)) ⊆ S2o by decide

/-- After the first transposition: the transposed indices in their array, the other four as launched. -/
theorem held_T1 (d : Dev nD) :
    (held (T d) S5 ((opT1 (F := F)).result (V0 m d)) : sProp 𝕄) = iprop((aLoc d ↦{fullShare} m (aLoc d)) ∗ (xLoc d ↦{fullShare} m (xLoc d))
      ∗ (iLoc d ↦{fullShare} idxT m d) ∗ (oLoc d ↦{fullShare} m (oLoc d)) ∗ rLoc d ↦{fullShare} m (rLoc d)) := by
  rw [held_S5,
    (opT1 (F := F)).result_of_not_mem (V0 m d) (b := a') (show a' ∉ ({i'} : Finset (DevRef τ sig)) by decide),
    (opT1 (F := F)).result_of_not_mem (V0 m d) (b := x') (show x' ∉ ({i'} : Finset (DevRef τ sig)) by decide),
    (opT1 (F := F)).result_of_not_mem (V0 m d) (b := o') (show o' ∉ ({i'} : Finset (DevRef τ sig)) by decide),
    (opT1 (F := F)).result_of_not_mem (V0 m d) (b := r') (show r' ∉ ({i'} : Finset (DevRef τ sig)) by decide),
    StableHlo.unary_result]
  rfl

/-- After the second transposition: the result array at the transposed gathered rows. -/
theorem held_T2 (d : Dev nD) :
    (held (T d) S2o ((opT2 (F := F)).result (V1 m d)) : sProp 𝕄) = iprop((oLoc d ↦{fullShare} G1 m d)
      ∗ rLoc d ↦{fullShare} (transpose S4096x50x128 [1, 0, 2] (G1 m d) transposes_S50x4096x128_S4096x50x128_1_0_2 :
          (⟨S4096x50x128, .f32⟩ : BufTy).Contents (Elt F))) := by
  rw [held_S2o,
    (opT2 (F := F)).result_of_not_mem (V1 m d) (b := o') (show o' ∉ ({r'} : Finset (DevRef τ sig)) by decide),
    StableHlo.unary_result, V1_o]

/-! ## The arrays cut for the two SparseCores -/

/-- A SparseCore's half of the windows of the transposed indices, and of the output. -/
abbrev iWins (d : Dev nD) (c : Fin 2) (f : Buf (Elt F) (iLoc d)) : sProp 𝕄 :=
  bigSep Finset.univ fun s : Fin 16 => bigSep Finset.univ fun r : Fin 25 => iLoc d ↦[iSetR (coordsV c s) r]{fullShare} f
abbrev oWins (d : Dev nD) (c : Fin 2) (f : Buf (Elt F) (oLoc d)) : sProp 𝕄 :=
  bigSep Finset.univ fun s : Fin 16 => bigSep Finset.univ fun r : Fin 25 => oLoc d ↦[oSetR (coordsV c s) r]{fullShare} f

theorem iPts_split (d : Dev nD) (f : Buf (Elt F) (iLoc d)) :
    (iLoc d ↦{fullShare} f : sProp 𝕄) = iprop(iWins d 0 f ∗ iWins d 1 f) := by
  rw [iPts_windows, bigSep_fin2]
theorem oPts_split (d : Dev nD) (f : Buf (Elt F) (oLoc d)) :
    (oLoc d ↦{fullShare} f : sProp 𝕄) = iprop(oWins d 0 f ∗ oWins d 1 f) := by
  rw [oPts_windows, bigSep_fin2]

/-- The table as a remainder and one read share per SparseCore, and back. -/
theorem xPts_split (d : Dev nD) (f : Buf (Elt F) (xLoc d)) :
    (xLoc d ↦{fullShare} f : sProp 𝕄)
      ⊢ iprop((xLoc d ↦{Transfers.shareDrop fullShare 2} f) ∗ (xLoc d ↦{xqC 0} f) ∗ xLoc d ↦{xqC 1} f) := by
  have h : (xLoc d ↦{fullShare} f : sProp 𝕄) ⊢ iprop((xLoc d ↦{Transfers.shareDrop fullShare 2} f)
      ∗ bigSep Finset.univ fun i : Fin 2 => xLoc d ↦{Transfers.shareTok fullShare 2 i} f) :=
    Transfers.pointsTo_toks_split fullShare 2
  rw [bigSep_fin2] at h
  exact h
theorem xPts_join (d : Dev nD) (f : Buf (Elt F) (xLoc d)) :
    iprop((xLoc d ↦{Transfers.shareDrop fullShare 2} f) ∗ (xLoc d ↦{xqC 0} f) ∗ xLoc d ↦{xqC 1} f)
      ⊢ (xLoc d ↦{fullShare} f : sProp 𝕄) := by
  iintro ⟨Hr, Hs⟩
  iapply (Transfers.pointsTo_toks_join fullShare 2)
  isplitl [Hr]; · iexact Hr
  rw [bigSep_fin2]
  iexact Hs

/-- What the call takes for the two SparseCores, and what it hands back. -/
theorem st0_eq (d : Dev nD) : (bigSep Finset.univ fun c : Fin ((K (F := F)).nCore 0) => (P m).st 0 d c)
    = iprop((iWins d 0 (idxT m d) ∗ (xLoc d ↦{xqC 0} m (xLoc d)) ∗ oWins d 0 (m (oLoc d)))
        ∗ (iWins d 1 (idxT m d) ∗ (xLoc d ↦{xqC 1} m (xLoc d)) ∗ oWins d 1 (m (oLoc d)))) := by
  show (bigSep (Finset.univ : Finset (Fin 2)) fun c => stFor m d c) = _
  rw [bigSep_fin2]
  rfl
theorem dn0_eq (d : Dev nD) : (bigSep Finset.univ fun c : Fin ((K (F := F)).nCore 0) => (P m).dn 0 d c)
    = iprop((iWins d 0 (idxT m d) ∗ (xLoc d ↦{xqC 0} m (xLoc d)) ∗ oWins d 0 (G1 m d))
        ∗ (iWins d 1 (idxT m d) ∗ (xLoc d ↦{xqC 1} m (xLoc d)) ∗ oWins d 1 (G1 m d))) := by
  show (bigSep (Finset.univ : Finset (Fin 2)) fun c => dnFor m d c) = _
  rw [bigSep_fin2]
  rfl

/-! ## The entry function -/

/-- What the entry function leaves the claim: the index array and the table as launched, the result at the
    transposed gathered rows. -/
abbrev FIN (d : Dev nD) : sProp 𝕄 :=
  iprop((aLoc d ↦{fullShare} m (aLoc d)) ∗ (xLoc d ↦{fullShare} m (xLoc d))
    ∗ rLoc d ↦{fullShare} (transpose S4096x50x128 [1, 0, 2] (G1 m d) transposes_S50x4096x128_S4096x50x128_1_0_2 :
        (⟨S4096x50x128, .f32⟩ : BufTy).Contents (Elt F)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transposition, over the five arrays
  iapply (wp_hlo_within 𝒱 (SparseCore.T d) none Set.univ (op := opT1) (S := S5) hT1 (V := V0 m d)) $$ [Hb Hheld]
  · isplitl [Hb]; · iexact Hb
    iexact Hheld
  iintro ⟨Hb, Hheld⟩
  ihave Hh := (Entails.of_eq (held_T1 (F := F) m d)) $$ Hheld
  icases Hh with ⟨Ha, Hx, Hi, Ho, Hr⟩
  rw [wp_ret]; imodintro
  -- the arrays cut for the two SparseCores
  ihave Hi' := (Entails.of_eq (iPts_split (F := F) d (idxT m d))) $$ Hi
  icases Hi' with ⟨Hi0, Hi1⟩
  ihave Ho' := (Entails.of_eq (oPts_split (F := F) d (m (oLoc d)))) $$ Ho
  icases Ho' with ⟨Ho0, Ho1⟩
  ihave Hx' := (xPts_split (F := F) d (m (xLoc d))) $$ Hx
  icases Hx' with ⟨Hxr, Hx0, Hx1⟩
  -- the call
  iapply ((K (F := F)).wp_run (D (F := F)) 𝒱 (EH := EH) (P := P m) κ d 0) $$ [Hst Hi0 Hi1 Hx0 Hx1 Ho0 Ho1 Hb Ha Hr Hxr]
  isplitr; · iexact Hctx
  isplitl [Hst]; · iexact Hst
  isplitl [Hi0 Hi1 Hx0 Hx1 Ho0 Ho1]
  · rw [st0_eq]
    isplitl [Hi0 Hx0 Ho0]
    · isplitl [Hi0]; · iexact Hi0
      isplitl [Hx0]; · iexact Hx0
      iexact Ho0
    · isplitl [Hi1]; · iexact Hi1
      isplitl [Hx1]; · iexact Hx1
      iexact Ho1
  iintro ⟨Hst, Hdn⟩
  ihave Hdn' := (Entails.of_eq (dn0_eq m d)) $$ Hdn
  icases Hdn' with ⟨⟨-, Hx0, Ho0⟩, ⟨-, Hx1, Ho1⟩⟩
  -- the second transposition, over the output and the result
  iapply (wp_hlo_within 𝒱 (SparseCore.T d) none Set.univ (op := opT2) (S := S2o) hT2 (V := V1 m d)) $$ [Hb Ho0 Ho1 Hr]
  · isplitl [Hb]; · iexact Hb
    rw [held_S2o, V1_o, V1_r, oPts_split]
    isplitl [Ho0 Ho1]
    · isplitl [Ho0]; · iexact Ho0
      iexact Ho1
    iexact Hr
  iintro ⟨Hb, Hheld⟩
  ihave Hh := (Entails.of_eq (held_T2 (F := F) m d)) $$ Hheld
  icases Hh with ⟨-, Hr⟩
  rw [wp_ret]; imodintro; imodintro
  isplitl [Hst]; · iexact Hst
  isplitl [Ha]; · iexact Ha
  isplitl [Hxr Hx0 Hx1]
  · iapply (xPts_join (F := F) d (m (xLoc d)))
    isplitl [Hxr]; · iexact Hxr
    isplitl [Hx0]; · iexact Hx0
    iexact Hx1
  iexact Hr

/-! ## The final memory read against the claim -/

def fq (d : Dev nD) (s' : Phys nD τ sig (Elt F)) : Prop :=
  s'.mem.mem (rLoc d) = (transpose S4096x50x128 [1, 0, 2] (G1 m d) transposes_S50x4096x128_S4096x50x128_1_0_2 :
      (⟨S4096x50x128, .f32⟩ : BufTy).Contents (Elt F))
    ∧ s'.mem.mem (aLoc d) = m (aLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Ha, Hx, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare)
    (f := (transpose S4096x50x128 [1, 0, 2] (G1 m d) transposes_S50x4096x128_S4096x50x128_1_0_2 :
      (⟨S4096x50x128, .f32⟩ : BufTy).Contents (Elt F)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run, from the subcores' obligation -/

def QC : PUnit × MemSt nD τ sig (Elt F) → Prop := fun r => ∀ c : Dev nD,
  r.2.mem (rLoc c) = (transpose S4096x50x128 [1, 0, 2] (G1 m c) transposes_S50x4096x128_S4096x50x128_1_0_2 :
      (⟨S4096x50x128, .f32⟩ : BufTy).Contents (Elt F))
    ∧ r.2.mem (aLoc c) = m (aLoc c) ∧ r.2.mem (xLoc c) = m (xLoc c)

theorem run_of_tile [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.WinResult.lean ====
/-
  The program's two transposes around the kernel. The index array is transposed before the kernel reads it, and the
  kernel's output is transposed back: entry (b, s, e) of the result is the kernel's output at (s, b, e), which is
  lane e of the table's row named by the transposed indices at (s, b), that is by the given indices at (b, s).
-/
import proofs.«218878_g9363028706246_cont_9to1c4b_116_21_alg».proof.Proof.PayKI
import proofs.«218878_g9363028706246_cont_9to1c4b_116_21_alg».proof.Proof.Spec
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2 ix3)

variable [FloatOps F]

/-- The transposed indices are the given ones in another order: a bound on all of these is one on all of those. -/
theorem idxT_le (m : (ℓ : Loc nD τ sig) → Buf (Elt F) ℓ) (d : Dev nD) (h : ∀ j, (m (aLoc d) j).toNat ≤ 100000) :
    ∀ j, (idxT m d j).toNat ≤ 100000 :=
  fun j => h (Shape.Transposes.src transposes_S4096x50_S50x4096_1_0 j)

/-- The kernel's output transposed back is the lookup. -/
theorem result_eq (m : (ℓ : Loc nD τ sig) → Buf (Elt F) ℓ) (d : Dev nD) :
    (transpose S4096x50x128 [1, 0, 2] (G1 m d) transposes_S50x4096x128_S4096x50x128_1_0_2
        : (⟨S4096x50x128, .f32⟩ : BufTy).Contents (Elt F))
      = Spec.lookup (m (aLoc d)) (m (xLoc d)) := by
  funext j
  have e1 : transpose S4096x50x128 [1, 0, 2] (G1 m d) transposes_S50x4096x128_S4096x50x128_1_0_2 j
      = G1 m d (ix3 (n0 := 50) (n1 := 4096) (n2 := 128) (j 1) (j 0) (j 2)) :=
    transpose_apply _ _ _ _ _ fun b => match b with | ⟨0, _⟩ => rfl | ⟨1, _⟩ => rfl | ⟨2, _⟩ => rfl
  have e2 : idxT m d (ix2 (n0 := 50) (n1 := 4096) (j 1) (j 0))
      = m (aLoc d) (ix2 (n0 := 4096) (n1 := 50) (j 0) (j 1)) :=
    transpose_apply _ _ _ _ _ fun b => match b with | ⟨0, _⟩ => rfl | ⟨1, _⟩ => rfl
  rw [e1]
  show m (xLoc d) (ix2 (n0 := 100001) (n1 := 128) (Spec.rowOf (idxT m d (ix2 (n0 := 50) (n1 := 4096) (j 1) (j 0)))) (j 2))
    = m (xLoc d) (ix2 (n0 := 100001) (n1 := 128) (Spec.rowOf (m (aLoc d) (ix2 (n0 := 4096) (n1 := 50) (j 0) (j 1)))) (j 2))
  rw [e2]

end Cert.Proof.KI

end
-- ==== Proof.RefPre.lean ====
/-
  The precondition's integer half, decoded: when the stated input predicate holds of an index array and a table,
  every index word, read signed, lies in 0 … 100000 (so it reads the same unsigned, and names a row of the table).
-/
import proofs.«218878_g9363028706246_cont_9to1c4b_116_21_alg».proof.Pre_input_domain
import proofs.«218878_g9363028706246_cont_9to1c4b_116_21_alg».proof.Proof.Gen.Pre_input_domain
import Idealize.ShloMosaic.Lib.ReduceAll
import Idealize.ShloMosaic.Lib.ValueIdx

noncomputable section

namespace Cert.Proof.Ref

open Idealize.ShloMosaic

/-- The scalar shape has one index. -/
instance subsingleton_scalar_idx : Subsingleton Cert.Pre_input_domain.S_.Idx := ⟨fun a b => funext fun d => d.elim0⟩

/-- A 32-bit word between 0 and 100000 when read signed is at most 100000 when read unsigned. -/
theorem word_range {w : BitVec 32} (h0 : (0#32 : BitVec 32).toInt ≤ w.toInt) (h1 : w.toInt ≤ (100000#32 : BitVec 32).toInt) :
    0 ≤ w.toInt ∧ w.toNat ≤ 100000 := by
  have e0 : (0#32 : BitVec 32).toInt = 0 := by decide
  have e1 : (100000#32 : BitVec 32).toInt = 100000 := by decide
  rw [e0] at h0
  rw [e1] at h1
  refine ⟨h0, ?_⟩
  have hlt : 2 * w.toNat < 2 ^ 32 := BitVec.toInt_pos_iff.1 h0
  rw [BitVec.toInt_eq_toNat_of_lt hlt] at h1
  omega

/-- The predicate's second conjunct is "every index is at least 0 and at most 100000, signed"; read at one index. -/
theorem ids_le {F : FTy → Type} [FloatOps F] (ids : IVec Cert.Pre_input_domain.S4096x50 32)
    (tab : FVec F Cert.Pre_input_domain.S100001x128 .f32)
    (h : Cert.Pre_input_domain.fn (F := F) ids tab = fun _ => 1#1) :
    ∀ j, 0 ≤ (ids j).toInt ∧ (ids j).toNat ≤ 100000 := by
  intro j
  have h0 := congrFun h ValueIdx.ix0
  dsimp only [Cert.Pre_input_domain.fn] at h0
  have h1 := (IntOp.andi_eq_one.1 h0).2
  have h2 := Host.reduce_andi_all _ _ _ _ _ h1 j
  obtain ⟨h3, h4⟩ := IntOp.andi_eq_one.1 h2
  exact word_range (IntOp.cmpi_sge.1 h3) (IntOp.cmpi_sle.1 h4)

end Cert.Proof.Ref

end
-- ==== Proof.FinalKI.lean ====
import proofs.«218878_g9363028706246_cont_9to1c4b_116_21_alg».proof.Proof.SetupKI
import proofs.«218878_g9363028706246_cont_9to1c4b_116_21_alg».proof.Proof.ObligKI
import proofs.«218878_g9363028706246_cont_9to1c4b_116_21_alg».proof.Proof.MainKI
import proofs.«218878_g9363028706246_cont_9to1c4b_116_21_alg».proof.Proof.WinResult
import proofs.«218878_g9363028706246_cont_9to1c4b_116_21_alg».proof.Proof.RefPre

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What the proof asks of the launch memory: every index word lies in 0 … 100000, so names a row of the table. -/
def PreOK : Prop := ∀ (d : Dev nD) (j : S4096x50.Idx), (m (aLoc d) j).toNat ≤ 100000

/-- The program's run: it ends with the result array holding the lookup of the two arguments, which are unchanged. -/
theorem run_main [∀ e, Nonempty (Elt F e)] (hpre : PreOK m) :
    θ_run (defs (F := F)) (threads (F := F)) ⟨m, fun _ => 0, ρ⟩
      (fun r => ∀ c : Dev nD, r.2.mem (rLoc c) = Spec.lookup (m (aLoc c)) (m (xLoc c))
        ∧ r.2.mem (aLoc c) = m (aLoc c) ∧ r.2.mem (xLoc c) = m (xLoc c)) :=
  (θ_run (defs (F := F)) _ _).mono (fun _ h c => ⟨(h c).1.trans (result_eq m c), (h c).2⟩)
    (run_of_tile m ρ (tileObl m facts (fun d => idxT_le m d (hpre d))))

omit [FloatOps F] in
/-- The stated precondition gives it: the integer half of the input domain bounds every index word. -/
theorem ok_of_pre [FloatOps F]
    (h : ∀ c : Dev nD, Cert.Pre_input_domain.fn (F := F) (m ((c.tc : Thread nD τ).loc main_arg0)) (m ((c.tc : Thread nD τ).loc main_arg1)) = fun _ => 1#1) :
    PreOK m := fun d j => (Cert.Proof.Ref.ids_le _ _ (h d) j).2

end Cert.Proof.KI

end
-- ==== Proof.SetupKB.lean ====
/-
  The kernel as its launch sees it: thirty-two vector subcores (two SparseCores of sixteen), each moving twenty-five
  windows of 256 rows. Worker `w = 2·subcore + core` handles windows `w + 32·r`, `r < 25`; window `v` is row
  `v / 16`, columns `256·(v % 16) … + 256` of the transposed index array, and the same block of the output.
-/
import proofs.«218878_g9363028706246_cont_9to1c4b_116_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«218878_g9363028706246_cont_9to1c4b_116_21_alg».proof.Proof.Gen.Kernel
import proofs.«218878_g9363028706246_cont_9to1c4b_116_21_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

abbrev EH : Emb UH (MT nD τ sig (HIx 1) (Elt F) ℕ UU ℕ) := embL

/-! ## The arrays -/

/-- The index array as given, the table, the transposed indices, the kernel's output, the result. -/
abbrev aLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev xV : Memref sig .scVector .hbm S100001x128 .f32 := Memref.whole main_arg1_scv
abbrev iV : Memref sig .scVector .hbm S50x4096 .i32 := Memref.whole main_v0_scv
abbrev oV : Memref sig .scVector .hbm S50x4096x128 .f32 := Memref.whole main_v1_scv
/-- A subcore's two index lists and its two row buffers (one array of two slots). -/
abbrev l0V : Memref sig .scVector .vmem S256 .i32 := Memref.whole cc0_scratch0
abbrev l1V : Memref sig .scVector .vmem S256 .i32 := Memref.whole cc0_scratch1
abbrev bV : Memref sig .scVector .vmem S2x256x128 .f32 := Memref.whole cc0_scratch2

abbrev cV (L : grid0.Coords) : Fin τ.nSC := (L 0).castLE hcore0
abbrev jV (L : grid0.Coords) : Fin τ.nSub := (L 1).castLE hsub0

/-- Window `r` of worker `L`, in the index array and in the output, as the kernel slices them. -/
abbrev iWin (L : grid0.Coords) (w : BitVec 32) (h : ∀ a, (k0_off1 L w) a + S1x256.size a ≤ S50x4096.size a) : Memref sig .scVector .hbm S256 .i32 :=
  ((iV).slice (Rect.unit (s := S50x4096) (k0_off1 L w) S1x256.size h) (fun _ => rfl)).squeeze S256 squeezes_S1x256_S256
abbrev oWin (L : grid0.Coords) (w : BitVec 32) (h : ∀ a, (k0_off2 L w) a + S1x256x128.size a ≤ S50x4096x128.size a) : Memref sig .scVector .hbm S256x128 .f32 :=
  ((oV).slice (Rect.unit (s := S50x4096x128) (k0_off2 L w) S1x256x128.size h) (fun _ => rfl)).squeeze S256x128 squeezes_S1x256x128_S256x128

/-- The six transfer counters of a subcore: index fetches, gathers, write-outs, one per slot. -/
abbrev semI0 : DmaSem sig := ((cc0_scratch3.slice (Rect.unit (s := S2) ![0] S1.size inb_S2_S1_0)).squeeze S_ squeezes_S1_S_).sem
abbrev semI1 : DmaSem sig := ((cc0_scratch3.slice (Rect.unit (s := S2) ![1] S1.size inb_S2_S1_1)).squeeze S_ squeezes_S1_S_).sem
abbrev semG0 : DmaSem sig := ((cc0_scratch4.slice (Rect.unit (s := S2) ![0] S1.size inb_S2_S1_0)).squeeze S_ squeezes_S1_S_).sem
abbrev semG1 : DmaSem sig := ((cc0_scratch4.slice (Rect.unit (s := S2) ![1] S1.size inb_S2_S1_1)).squeeze S_ squeezes_S1_S_).sem
abbrev semO0 : DmaSem sig := ((cc0_scratch5.slice (Rect.unit (s := S2) ![0] S1.size inb_S2_S1_0)).squeeze S_ squeezes_S1_S_).sem
abbrev semO1 : DmaSem sig := ((cc0_scratch5.slice (Rect.unit (s := S2) ![1] S1.size inb_S2_S1_1)).squeeze S_ squeezes_S1_S_).sem

/-- The elements of a window, in the index array and in the output. -/
def iSet (L : grid0.Coords) (w : BitVec 32) (h : ∀ a, (k0_off1 L w) a + S1x256.size a ≤ S50x4096.size a) : Finset S50x4096.Idx := (iWin L w h).view.set
def oSet (L : grid0.Coords) (w : BitVec 32) (h : ∀ a, (k0_off2 L w) a + S1x256x128.size a ≤ S50x4096x128.size a) : Finset S50x4096x128.Idx := (oWin L w h).view.set

/-- Window number `r` of the worker at `L`. -/
abbrev iSetR (L : grid0.Coords) (r : Fin 25) : Finset S50x4096.Idx := iSet L (BitVec.ofNat 32 (32 * r.val)) (k0_off1_inb L r)
abbrev oSetR (L : grid0.Coords) (r : Fin 25) : Finset S50x4096x128.Idx := oSet L (BitVec.ofNat 32 (32 * r.val)) (k0_off2_inb L r)

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The number of the window: worker `2·subcore + core`, plus 32 per round. -/
def winNo (L : grid0.Coords) (r : Fin 25) : ℕ := 2 * (L 1).val + (L 0).val + 32 * r.val

end Cert.Proof.KB

end
-- ==== Proof.PayKB.lean ====
import proofs.«218878_g9363028706246_cont_9to1c4b_116_21_alg».proof.Proof.SetupKB
import proofs.«218878_g9363028706246_cont_9to1c4b_116_21_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2)

variable (m : (ℓ : Loc nD τ sig) → Buf (Elt F) ℓ) (ρ : Dev nD → PrngReg)

variable [FloatOps F]

/-- The transposed index array, as the program's first line leaves it: entry (s, b) is ids[b, s]. -/
def idxT (d : Dev nD) : Buf (Elt F) (iLoc d) :=
  (transpose S50x4096 [1, 0] (m (aLoc d)) transposes_S4096x50_S50x4096_1_0 : (⟨S50x4096, .i32⟩ : BufTy).Contents (Elt F))

/-- What the kernel leaves in its output array: at (s, b, e), entry e of the table's row idxT[s, b]. -/
def G1 (d : Dev nD) : Buf (Elt F) (oLoc d) :=
  fun j => m (xLoc d) (ix2 (n0 := 100001) (n1 := 128) (Spec.rowOf (idxT m d (ix2 (n0 := 50) (n1 := 4096) (j 0) (j 1)))) (j 2))

/-- The share of the table a SparseCore is lent, and a subcore's share of that. -/
abbrev xqC (c : Fin 2) : PosShare TreeShare := Transfers.shareTok fullShare 2 c
abbrev xq (c : Fin 2) (s : Fin 16) : PosShare TreeShare := Transfers.shareTok (xqC c) 16 s

/-- What a subcore at grid point `L` is handed: its twenty-five windows of the transposed indices, a share of the
    table, its twenty-five windows of the output; and what it hands back: the same, the output windows filled. -/
def goFor (d : Dev nD) (L : grid0.Coords) (q : PosShare TreeShare) : sProp 𝕄 :=
  iprop((bigSep Finset.univ fun r : Fin 25 => iLoc d ↦[iSetR L r]{fullShare} idxT m d) ∗ (xLoc d ↦{q} m (xLoc d))
    ∗ bigSep Finset.univ fun r : Fin 25 => oLoc d ↦[oSetR L r]{fullShare} m (oLoc d))
def tdFor (d : Dev nD) (L : grid0.Coords) (q : PosShare TreeShare) : sProp 𝕄 :=
  iprop((bigSep Finset.univ fun r : Fin 25 => iLoc d ↦[iSetR L r]{fullShare} idxT m d) ∗ (xLoc d ↦{q} m (xLoc d))
    ∗ bigSep Finset.univ fun r : Fin 25 => oLoc d ↦[oSetR L r]{fullShare} G1 m d)

/-- The same per SparseCore: all sixteen subcores' windows, the core's share of the table. -/
def stFor (d : Dev nD) (c : Fin 2) : sProp 𝕄 :=
  iprop((bigSep Finset.univ fun s : Fin 16 => bigSep Finset.univ fun r : Fin 25 => iLoc d ↦[iSetR (coordsV c s) r]{fullShare} idxT m d)
    ∗ (xLoc d ↦{xqC c} m (xLoc d))
    ∗ bigSep Finset.univ fun s : Fin 16 => bigSep Finset.univ fun r : Fin 25 => oLoc d ↦[oSetR (coordsV c s) r]{fullShare} m (oLoc d))
def dnFor (d : Dev nD) (c : Fin 2) : sProp 𝕄 :=
  iprop((bigSep Finset.univ fun s : Fin 16 => bigSep Finset.univ fun r : Fin 25 => iLoc d ↦[iSetR (coordsV c s) r]{fullShare} idxT m d)
    ∗ (xLoc d ↦{xqC c} m (xLoc d))
    ∗ bigSep Finset.univ fun s : Fin 16 => bigSep Finset.univ fun r : Fin 25 => oLoc d ↦[oSetR (coordsV c s) r]{fullShare} G1 m d)

instance goFor_storable (d : Dev nD) (L : grid0.Coords) (q : PosShare TreeShare) : BI.Storable (upEmb : UEmb _ 𝕄) (goFor m d L q) := by
  unfold goFor; infer_instance
instance tdFor_storable (d : Dev nD) (L : grid0.Coords) (q : PosShare TreeShare) : BI.Storable (upEmb : UEmb _ 𝕄) (tdFor m d L q) := by
  unfold tdFor; infer_instance
instance stFor_storable (d : Dev nD) (c : Fin 2) : BI.Storable (upEmb : UEmb _ 𝕄) (stFor m d c) := by
  unfold stFor; infer_instance
instance dnFor_storable (d : Dev nD) (c : Fin 2) : BI.Storable (upEmb : UEmb _ 𝕄) (dnFor m d c) := by
  unfold dnFor; infer_instance

/-- The one call: each SparseCore takes its half of the windows and a share of the table, each subcore its
    twenty-five; they come back with the output's windows filled. -/
def P : (K (F := F)).Pay (nD := nD) (Val := Elt F) (Name := ℕ) (U := UU) where
  st := fun q d c => match q with | 0 => stFor m d (Fin.cast nCore_zero c)
  dn := fun q d c => match q with | 0 => dnFor m d (Fin.cast nCore_zero c)
  go := fun q d c i => match q with | 0 => goFor m d (coordsV (Fin.cast nCore_zero c) (Fin.cast nSub_zero i)) (xq (Fin.cast nCore_zero c) (Fin.cast nSub_zero i))
  td := fun q d c i => match q with | 0 => tdFor m d (coordsV (Fin.cast nCore_zero c) (Fin.cast nSub_zero i)) (xq (Fin.cast nCore_zero c) (Fin.cast nSub_zero i))
  x := fun _ _ => iprop(emp)

instance P_storable : (P (F := F) m).IsStorable where
  st q d c := match q with | 0 => (inferInstance : BI.Storable (upEmb : UEmb _ 𝕄) (stFor m d (Fin.cast nCore_zero c)))
  dn q d c := match q with | 0 => (inferInstance : BI.Storable (upEmb : UEmb _ 𝕄) (dnFor m d (Fin.cast nCore_zero c)))
  go q d c i := match q with | 0 => (inferInstance : BI.Storable (upEmb : UEmb _ 𝕄) (goFor m d (coordsV (Fin.cast nCore_zero c) (Fin.cast nSub_zero i)) (xq (Fin.cast nCore_zero c) (Fin.cast nSub_zero i))))
  td q d c i := match q with | 0 => (inferInstance : BI.Storable (upEmb : UEmb _ 𝕄) (tdFor m d (coordsV (Fin.cast nCore_zero c) (Fin.cast nSub_zero i)) (xq (Fin.cast nCore_zero c) (Fin.cast nSub_zero i))))

end Cert.Proof.KB

end
-- ==== Proof.TilePreKB.lean ====
import proofs.«218878_g9363028706246_cont_9to1c4b_116_21_alg».proof.Proof.SetupKB
import proofs.«218878_g9363028706246_cont_9to1c4b_116_21_alg».proof.Proof.PayKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2)

variable (m : (ℓ : Loc nD τ sig) → Buf (Elt F) ℓ)

variable [FloatOps F] (d : Dev nD) (L : grid0.Coords)

omit [FloatOps F] in
theorem pts_x (q : PosShare TreeShare) (f : Buf (Elt F) (xLoc d)) :
    ((xV).view.loc (V d (cV L) (jV L)) ↦{q} f : sProp 𝕄) = xLoc d ↦{q} f := rfl
omit [FloatOps F] in
theorem pts_i (w : BitVec 32) (h : ∀ a, (k0_off1 L w) a + S1x256.size a ≤ S50x4096.size a) (f : Buf (Elt F) (iLoc d)) :
    ((iWin L w h).view.loc (V d (cV L) (jV L)) ↦[(iWin L w h).view.set]{fullShare} f : sProp 𝕄) = iLoc d ↦[iSet L w h]{fullShare} f := rfl
omit [FloatOps F] in
theorem pts_o (w : BitVec 32) (h : ∀ a, (k0_off2 L w) a + S1x256x128.size a ≤ S50x4096x128.size a) (f : Buf (Elt F) (oLoc d)) :
    ((oWin L w h).view.loc (V d (cV L) (jV L)) ↦[(oWin L w h).view.set]{fullShare} f : sProp 𝕄) = oLoc d ↦[oSet L w h]{fullShare} f := rfl
omit [FloatOps F] in
theorem pts_l0 (f : Buf (Elt F) ((V d (cV L) (jV L)).loc cc0_scratch0)) :
    ((l0V).view.loc (V d (cV L) (jV L)) ↦{fullShare} f : sProp 𝕄) = (V d (cV L) (jV L)).loc cc0_scratch0 ↦{fullShare} f := rfl
omit [FloatOps F] in
theorem pts_l1 (f : Buf (Elt F) ((V d (cV L) (jV L)).loc cc0_scratch1)) :
    ((l1V).view.loc (V d (cV L) (jV L)) ↦{fullShare} f : sProp 𝕄) = (V d (cV L) (jV L)).loc cc0_scratch1 ↦{fullShare} f := rfl
omit [FloatOps F] in
theorem pts_b (f : Buf (Elt F) ((V d (cV L) (jV L)).loc cc0_scratch2)) :
    ((bV).view.loc (V d (cV L) (jV L)) ↦{fullShare} f : sProp 𝕄) = (V d (cV L) (jV L)).loc cc0_scratch2 ↦{fullShare} f := rfl

omit [FloatOps F] in
/-- Whatever an index list held before, once a window of the index array has landed in it whole, every word of
    the list is a word of the index array, so names a row of the table. -/
theorem hin_l0 (fi : Buf (Elt F) (iLoc d)) (hfi : ∀ j, (fi j).toNat < 100001) (g : Buf (Elt F) ((V d (cV L) (jV L)).loc cc0_scratch0))
    (w : BitVec 32) (h : ∀ a, (k0_off1 L w) a + S1x256.size a ≤ S50x4096.size a) :
    ∀ x : S256.Idx, (View.read (Elt F) (l0V).view (View.write (Elt F) (l0V).view g
      (ReadAs.same.apply (View.read (Elt F) (iWin L w h).view fi)) Finset.univ) x).toNat < 100001 := by
  intro x
  rw [View.write_whole_univ]
  simp only [Memref.view_whole, View.read_whole]
  show (View.read (Elt F) (iWin L w h).view fi x).toNat < 100001
  rw [show View.read (Elt F) (iWin L w h).view fi x = fi ((iWin L w h).view.emb x) from (View.read_apply _ _).trans (cast_eq _ _)]
  exact hfi _
omit [FloatOps F] in
theorem hin_l1 (fi : Buf (Elt F) (iLoc d)) (hfi : ∀ j, (fi j).toNat < 100001) (g : Buf (Elt F) ((V d (cV L) (jV L)).loc cc0_scratch1))
    (w : BitVec 32) (h : ∀ a, (k0_off1 L w) a + S1x256.size a ≤ S50x4096.size a) :
    ∀ x : S256.Idx, (View.read (Elt F) (l1V).view (View.write (Elt F) (l1V).view g
      (ReadAs.same.apply (View.read (Elt F) (iWin L w h).view fi)) Finset.univ) x).toNat < 100001 := by
  intro x
  rw [View.write_whole_univ]
  simp only [Memref.view_whole, View.read_whole]
  show (View.read (Elt F) (iWin L w h).view fi x).toNat < 100001
  rw [show View.read (Elt F) (iWin L w h).view fi x = fi ((iWin L w h).view.emb x) from (View.read_apply _ _).trans (cast_eq _ _)]
  exact hfi _

/-- The subcore's six transfer counters, as cells. -/
abbrev cI0 (d : Dev nD) (c : Fin τ.nSC) (i : Fin τ.nSub) : GSem nD τ sig := (V d c i, .dma semI0)
abbrev cI1 (d : Dev nD) (c : Fin τ.nSC) (i : Fin τ.nSub) : GSem nD τ sig := (V d c i, .dma semI1)
abbrev cG0 (d : Dev nD) (c : Fin τ.nSC) (i : Fin τ.nSub) : GSem nD τ sig := (V d c i, .dma semG0)
abbrev cG1 (d : Dev nD) (c : Fin τ.nSC) (i : Fin τ.nSub) : GSem nD τ sig := (V d c i, .dma semG1)
abbrev cO0 (d : Dev nD) (c : Fin τ.nSC) (i : Fin τ.nSub) : GSem nD τ sig := (V d c i, .dma semO0)
abbrev cO1 (d : Dev nD) (c : Fin τ.nSC) (i : Fin τ.nSub) : GSem nD τ sig := (V d c i, .dma semO1)

omit [FloatOps F] in
theorem ownSems0_V :
    (ownSems0 (V d (cV L) (jV L)) : sProp 𝕄)
      = iprop(semVal (cI0 d (cV L) (jV L)) 0 ∗ semVal (cI1 d (cV L) (jV L)) 0 ∗ semVal (cG0 d (cV L) (jV L)) 0 ∗ semVal (cG1 d (cV L) (jV L)) 0 ∗ semVal (cO0 d (cV L) (jV L)) 0 ∗ semVal (cO1 d (cV L) (jV L)) 0
          ∗ bigSep (((((((ownCells (V d (cV L) (jV L))).erase (cI0 d (cV L) (jV L))).erase (cI1 d (cV L) (jV L))).erase (cG0 d (cV L) (jV L))).erase (cG1 d (cV L) (jV L))).erase (cO0 d (cV L) (jV L))).erase (cO1 d (cV L) (jV L))) fun g => semVal g 0) := by
  unfold SparseCore.Cfg.ownSems0
  rw [SparseCore.bigSep_erase' ((mem_ownCells (g := (cI0 d (cV L) (jV L)))).mpr ⟨rfl, by show (SemLoc.dma semI0 : SemLoc sig).isScoped .scVector = true; decide⟩),
    SparseCore.bigSep_erase' (Finset.mem_erase.mpr ⟨(fun e => absurd (congrArg Prod.snd e) (show (SemLoc.dma semI1 : SemLoc sig) ≠ SemLoc.dma semI0 by decide)), (mem_ownCells (g := (cI1 d (cV L) (jV L)))).mpr ⟨rfl, by show (SemLoc.dma semI1 : SemLoc sig).isScoped .scVector = true; decide⟩⟩),
    SparseCore.bigSep_erase' (Finset.mem_erase.mpr ⟨(fun e => absurd (congrArg Prod.snd e) (show (SemLoc.dma semG0 : SemLoc sig) ≠ SemLoc.dma semI1 by decide)), Finset.mem_erase.mpr ⟨(fun e => absurd (congrArg Prod.snd e) (show (SemLoc.dma semG0 : SemLoc sig) ≠ SemLoc.dma semI0 by decide)), (mem_ownCells (g := (cG0 d (cV L) (jV L)))).mpr ⟨rfl, by show (SemLoc.dma semG0 : SemLoc sig).isScoped .scVector = true; decide⟩⟩⟩),
    SparseCore.bigSep_erase' (Finset.mem_erase.mpr ⟨(fun e => absurd (congrArg Prod.snd e) (show (SemLoc.dma semG1 : SemLoc sig) ≠ SemLoc.dma semG0 by decide)), Finset.mem_erase.mpr ⟨(fun e => absurd (congrArg Prod.snd e) (show (SemLoc.dma semG1 : SemLoc sig) ≠ SemLoc.dma semI1 by decide)), Finset.mem_erase.mpr ⟨(fun e => absurd (congrArg Prod.snd e) (show (SemLoc.dma semG1 : SemLoc sig) ≠ SemLoc.dma semI0 by decide)), (mem_ownCells (g := (cG1 d (cV L) (jV L)))).mpr ⟨rfl, by show (SemLoc.dma semG1 : SemLoc sig).isScoped .scVector = true; decide⟩⟩⟩⟩),
    SparseCore.bigSep_erase' (Finset.mem_erase.mpr ⟨(fun e => absurd (congrArg Prod.snd e) (show (SemLoc.dma semO0 : SemLoc sig) ≠ SemLoc.dma semG1 by decide)), Finset.mem_erase.mpr ⟨(fun e => absurd (congrArg Prod.snd e) (show (SemLoc.dma semO0 : SemLoc sig) ≠ SemLoc.dma semG0 by decide)), Finset.mem_erase.mpr ⟨(fun e => absurd (congrArg Prod.snd e) (show (SemLoc.dma semO0 : SemLoc sig) ≠ SemLoc.dma semI1 by decide)), Finset.mem_erase.mpr ⟨(fun e => absurd (congrArg Prod.snd e) (show (SemLoc.dma semO0 : SemLoc sig) ≠ SemLoc.dma semI0 by decide)), (mem_ownCells (g := (cO0 d (cV L) (jV L)))).mpr ⟨rfl, by show (SemLoc.dma semO0 : SemLoc sig).isScoped .scVector = true; decide⟩⟩⟩⟩⟩),
    SparseCore.bigSep_erase' (Finset.mem_erase.mpr ⟨(fun e => absurd (congrArg Prod.snd e) (show (SemLoc.dma semO1 : SemLoc sig) ≠ SemLoc.dma semO0 by decide)), Finset.mem_erase.mpr ⟨(fun e => absurd (congrArg Prod.snd e) (show (SemLoc.dma semO1 : SemLoc sig) ≠ SemLoc.dma semG1 by decide)), Finset.mem_erase.mpr ⟨(fun e => absurd (congrArg Prod.snd e) (show (SemLoc.dma semO1 : SemLoc sig) ≠ SemLoc.dma semG0 by decide)), Finset.mem_erase.mpr ⟨(fun e => absurd (congrArg Prod.snd e) (show (SemLoc.dma semO1 : SemLoc sig) ≠ SemLoc.dma semI1 by decide)), Finset.mem_erase.mpr ⟨(fun e => absurd (congrArg Prod.snd e) (show (SemLoc.dma semO1 : SemLoc sig) ≠ SemLoc.dma semI0 by decide)), (mem_ownCells (g := (cO1 d (cV L) (jV L)))).mpr ⟨rfl, by show (SemLoc.dma semO1 : SemLoc sig).isScoped .scVector = true; decide⟩⟩⟩⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := ((Proc.scVector (cV L) (jV L)).devRef cc0_scratch2)) rfl⟩⟩)]

omit [FloatOps F] in
/-- A product over the twenty-five rounds, written out. -/
theorem bigSep_fin25 (Φ : Fin 25 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24) := by
  rw [show (Finset.univ : Finset (Fin 25)) = {0, 1, 2, 3, 4, 5, 6, 7, 8, 9, 10, 11, 12, 13, 14, 15, 16, 17, 18, 19, 20, 21, 22, 23, 24} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Cert.Proof.KB

end
-- ==== Proof.WinOffKB.lean ====
/-
  Where a worker's windows lie. The kernel computes a window's row and its column offset from the window number
  v = 2·subcore + core + 32·round by a floor division and a floor remainder by 16, each spelt with sign
  corrections around the truncating operations. The window number is never negative, so the corrections never
  fire: the row is v / 16 and the column offset 256·(v % 16).
-/
import proofs.«218878_g9363028706246_cont_9to1c4b_116_21_alg».proof.Proof.SetupKB

namespace Cert.Proof.KB

open Cert.Kernel Cert.Kernel.Gen
open Idealize.ShloMosaic

/-- Floor division of a word by 16 as the kernel spells it: the truncating quotient, less one when the signs of
    dividend and divisor differ and the remainder is not zero. -/
def fdiv16 (v2 : BitVec 32) : BitVec 32 :=
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c16_i32 : BitVec 32 := 16#32
  let c0_i32_2 : BitVec 32 := 0#32
  let v9 : BitVec 1 := Scalar.cmpi .sgt c16_i32 c0_i32_2
  let v10 : BitVec 32 := Scalar.extui v9
  let c0_i32_3 : BitVec 32 := 0#32
  let v11 : BitVec 1 := Scalar.cmpi .slt c16_i32 c0_i32_3
  let v12 : BitVec 32 := Scalar.extui v11
  let v13 : BitVec 32 := Scalar.subi v10 v12
  let v14 : BitVec 1 := Scalar.cmpi .ne v8 v13
  let v15 : BitVec 32 := Scalar.remsi v2 c16_i32
  let c0_i32_4 : BitVec 32 := 0#32
  let v16 : BitVec 1 := Scalar.cmpi .ne v15 c0_i32_4
  let v17 : BitVec 1 := Scalar.andi v14 v16
  let v3 : BitVec 32 := Scalar.divsi v2 c16_i32
  let c1_i32 : BitVec 32 := 1#32
  let v18 : BitVec 32 := Scalar.subi v3 c1_i32
  Scalar.select v17 v18 v3

/-- 256 times the floor remainder of a word by 16 as the kernel spells it: the truncating remainder, plus the
    divisor when it is not zero and its sign differs from the divisor's. -/
def fmod16x256 (v2 : BitVec 32) : BitVec 32 :=
  let c16_i32_5 : BitVec 32 := 16#32
  let c0_i32_6 : BitVec 32 := 0#32
  let v20 : BitVec 1 := Scalar.cmpi .eq c16_i32_5 c0_i32_6
  let c1_i32_7 : BitVec 32 := 1#32
  let v21 : BitVec 32 := Scalar.select v20 c1_i32_7 c16_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c256_i32 : BitVec 32 := 256#32
  Scalar.muli v29 c256_i32

/-- The window number as the kernel's word: twice the subcore, plus the core, plus the round constant. -/
def vWord (L : grid0.Coords) (w : BitVec 32) : BitVec 32 :=
  Scalar.addi (Scalar.addi (Scalar.muli (BitVec.ofNat 32 (L 1).val) 2#32) (BitVec.ofNat 32 (L 0).val)) w

/-- On a word that reads as a small nonnegative integer, the spelt floor division is the quotient. -/
theorem fdiv16_isInt {v2 : BitVec 32} {e : Int} (h_v2 : Affine.IsInt v2 e) (he : 0 ≤ e ∧ e < 2 ^ 20) :
    Affine.IsInt (fdiv16 v2) (e / 16) := by
  unfold fdiv16
  have h_0 : Affine.IsInt 0#32 (0) := Affine.ofNat _ (by omega)
  have h_1 : Affine.IsInt 1#32 (1) := Affine.ofNat _ (by omega)
  have h_16 : Affine.IsInt 16#32 (16) := Affine.ofNat _ (by omega)
  -- the sign of the divisor is 1
  have h_v9 : Affine.Holds _ := Affine.sgt_holds h_16 h_0 (by omega)
  have h_v10 : Affine.IsInt _ (1) := Affine.extui_holds h_v9 (by omega)
  have h_v11 : Affine.Fails _ := Affine.slt_fails h_16 h_0 (by omega)
  have h_v12 : Affine.IsInt _ (0) := Affine.extui_fails h_v11 (by omega)
  have h_v13 : Affine.IsInt _ (1) := Affine.subi h_v10 h_v12 (by omega)
  -- the dividend is not negative
  have h_v6 : Affine.Fails _ := Affine.slt_fails h_v2 h_0 (by omega)
  have h_v7 : Affine.IsInt _ (0) := Affine.extui_fails h_v6 (by omega)
  have h_v3 : Affine.IsInt _ (e / 16) := Affine.divsi h_v2 h_16 (by omega)
  have h_v18 : Affine.IsInt _ (e / 16 - 1) := Affine.subi h_v3 h_1 (by omega)
  have h_v15 : Affine.IsInt _ (e % 16) := Affine.remsi h_v2 h_16 (by omega)
  rcases (show e ≤ 0 ∨ 1 ≤ e by omega) with hs | hs
  · -- the dividend is zero: its sign differs from the divisor's, but the remainder is zero
    have h_v4 : Affine.Fails _ := Affine.sgt_fails h_v2 h_0 (by omega)
    have h_v5 : Affine.IsInt _ (0) := Affine.extui_fails h_v4 (by omega)
    have h_v8 : Affine.IsInt _ (0) := Affine.subi h_v5 h_v7 (by omega)
    have h_v14 : Affine.Holds _ := Affine.ne_holds h_v8 h_v13 (by omega)
    have h_v16 : Affine.Fails _ := Affine.ne_fails h_v15 h_0 (by omega)
    have h_v17 : Affine.Fails _ := Affine.andi_fails_right (Affine.tH h_v14) h_v16
    exact Affine.select_fails h_v17 h_v18 h_v3 (by omega)
  · -- the dividend is positive: the signs agree
    have h_v4 : Affine.Holds _ := Affine.sgt_holds h_v2 h_0 (by omega)
    have h_v5 : Affine.IsInt _ (1) := Affine.extui_holds h_v4 (by omega)
    have h_v8 : Affine.IsInt _ (1) := Affine.subi h_v5 h_v7 (by omega)
    have h_v14 : Affine.Fails _ := Affine.ne_fails h_v8 h_v13 (by omega)
    have h_v16 : Affine.Term _ := Affine.cmpi_term .ne h_v15 h_0
    have h_v17 : Affine.Fails _ := Affine.andi_fails_left h_v14 h_v16
    exact Affine.select_fails h_v17 h_v18 h_v3 (by omega)

/-- On such a word the spelt floor remainder is the remainder; scaled by 256. -/
theorem fmod16x256_isInt {v2 : BitVec 32} {e : Int} (h_v2 : Affine.IsInt v2 e) (he : 0 ≤ e ∧ e < 2 ^ 20) :
    Affine.IsInt (fmod16x256 v2) (256 * (e % 16)) := by
  unfold fmod16x256
  have h_0 : Affine.IsInt 0#32 (0) := Affine.ofNat _ (by omega)
  have h_1 : Affine.IsInt 1#32 (1) := Affine.ofNat _ (by omega)
  have h_16 : Affine.IsInt 16#32 (16) := Affine.ofNat _ (by omega)
  have h_256 : Affine.IsInt 256#32 (256) := Affine.ofNat _ (by omega)
  have h_v20 : Affine.Fails _ := Affine.eq_fails h_16 h_0 (by omega)
  have h_v21 : Affine.IsInt _ (16) := Affine.select_fails h_v20 h_1 h_16 (by omega)
  have h_v22 : Affine.IsInt _ (e % 16) := Affine.remsi h_v2 h_v21 (by omega)
  -- neither the remainder nor the divisor is negative
  have h_v24 : Affine.Fails _ := Affine.slt_fails h_v22 h_0 (by omega)
  have h_v25 : Affine.Fails _ := Affine.slt_fails h_v21 h_0 (by omega)
  have h_v26 : Affine.Fails _ := Affine.xori_ff h_v24 h_v25
  have h_v23 : Affine.Term _ := Affine.cmpi_term .ne h_v22 h_0
  have h_v27 : Affine.Fails _ := Affine.andi_fails_left h_v26 h_v23
  have h_v28 : Affine.IsInt _ (e % 16 + 16) := Affine.addi h_v22 h_v21 (by omega)
  have h_v29 : Affine.IsInt _ (e % 16) := Affine.select_fails h_v27 h_v28 h_v22 (by omega)
  exact Affine.muli h_v29 h_256 (by omega)

theorem winNo_lt (L : grid0.Coords) (r : Fin 25) : winNo L r < 800 := by
  have h1 : (L 1).val < 16 := (L 1).isLt
  have h0 : (L 0).val < 2 := (L 0).isLt
  have hr : r.val < 25 := r.isLt
  unfold winNo; omega

/-- The window number's word reads as the window number. -/
theorem vWord_isInt (L : grid0.Coords) (r : Fin 25) :
    Affine.IsInt (vWord L (BitVec.ofNat 32 (32 * r.val))) (winNo L r : Int) := by
  have h1 : (L 1).val < 16 := (L 1).isLt
  have h0 : (L 0).val < 2 := (L 0).isLt
  have hr : r.val < 25 := r.isLt
  unfold vWord
  have h_w : Affine.IsInt (BitVec.ofNat 32 (32 * r.val)) (32 * (r.val : Int)) := Affine.ofNat _ (by omega)
  have h_arg1 : Affine.IsInt (BitVec.ofNat 32 (L 1).val) (((L 1).val : Int)) := Affine.ofNat _ (by omega)
  have h_2 : Affine.IsInt 2#32 (2) := Affine.ofNat _ (by omega)
  have h_v0 : Affine.IsInt _ (2 * ((L 1).val : Int)) := Affine.muli h_arg1 h_2 (by omega)
  have h_arg0 : Affine.IsInt (BitVec.ofNat 32 (L 0).val) (((L 0).val : Int)) := Affine.ofNat _ (by omega)
  have h_v1 : Affine.IsInt _ (2 * ((L 1).val : Int) + ((L 0).val : Int)) := Affine.addi h_v0 h_arg0 (by omega)
  exact Affine.addi h_v1 h_w (by unfold winNo; omega)

/-- The index array's window of worker `L` in round `r`: row v / 16, from column 256·(v % 16). -/
theorem off1_closed (L : grid0.Coords) (r : Fin 25) :
    k0_off1 L (BitVec.ofNat 32 (32 * r.val)) = ![winNo L r / 16, 256 * (winNo L r % 16)] := by
  have hv := vWord_isInt L r
  have hw := winNo_lt L r
  have h1 := fdiv16_isInt hv (by omega)
  have h2 := fmod16x256_isInt hv (by omega)
  exact Affine.vec_cons h1 (by omega) <| Affine.vec_cons h2 (by omega) <| Affine.vec_nil

/-- The output's window of worker `L` in round `r`: the same row and columns, every lane. -/
theorem off2_closed (L : grid0.Coords) (r : Fin 25) :
    k0_off2 L (BitVec.ofNat 32 (32 * r.val)) = ![winNo L r / 16, 256 * (winNo L r % 16), 0] := by
  have hv := vWord_isInt L r
  have hw := winNo_lt L r
  have h1 := fdiv16_isInt hv (by omega)
  have h2 := fmod16x256_isInt hv (by omega)
  exact Affine.vec_cons h1 (by omega) <| Affine.vec_cons h2 (by omega) <| rfl

end Cert.Proof.KB
-- ==== Proof.WinMemKB.lean ====
/-
  Which elements a window holds, and where a window's own index lands. A window is a unit-stride rectangle of the
  array (one row, 256 columns; in the output also every lane) with its leading axis of size one dropped: its
  elements are the rectangle's, and its index x sits at the rectangle's offsets plus x behind the coordinate 0.
-/
import proofs.«218878_g9363028706246_cont_9to1c4b_116_21_alg».proof.Proof.WinOffKB

namespace Cert.Proof.KB

open Cert.Kernel Cert.Kernel.Gen
open Idealize.ShloMosaic

/-! ## Membership, from the offsets -/

theorem mem_iSet (L : grid0.Coords) (w : BitVec 32) (h : ∀ a, (k0_off1 L w) a + S1x256.size a ≤ S50x4096.size a)
    (j : S50x4096.Idx) :
    j ∈ iSet L w h ↔ ∀ a, (k0_off1 L w) a ≤ (j a).val ∧ (j a).val < (k0_off1 L w) a + S1x256.size a := by
  show j ∈ (((View.whole main_v0_scv).slice (Rect.unit (s := S50x4096) (k0_off1 L w) S1x256.size h)).reshape S256
    squeezes_S1x256_S256.numel_eq).set ↔ _
  rw [View.set_reshape, View.set_slice_whole, Rect.mem_set_unit]
  exact Iff.rfl

theorem mem_oSet (L : grid0.Coords) (w : BitVec 32) (h : ∀ a, (k0_off2 L w) a + S1x256x128.size a ≤ S50x4096x128.size a)
    (j : S50x4096x128.Idx) :
    j ∈ oSet L w h ↔ ∀ a, (k0_off2 L w) a ≤ (j a).val ∧ (j a).val < (k0_off2 L w) a + S1x256x128.size a := by
  show j ∈ (((View.whole main_v1_scv).slice (Rect.unit (s := S50x4096x128) (k0_off2 L w) S1x256x128.size h)).reshape S256x128
    squeezes_S1x256x128_S256x128.numel_eq).set ↔ _
  rw [View.set_reshape, View.set_slice_whole, Rect.mem_set_unit]
  exact Iff.rfl

/-- An index is in window v of the index array iff its row is v / 16 and its column lies in block v % 16. -/
theorem mem_iSetR (L : grid0.Coords) (r : Fin 25) (j : S50x4096.Idx) :
    j ∈ iSetR L r ↔ (j 0).val = winNo L r / 16 ∧ (j 1).val / 256 = winNo L r % 16 := by
  rw [mem_iSet, off1_closed, Fin.forall_fin_two]
  show (winNo L r / 16 ≤ (j 0).val ∧ (j 0).val < winNo L r / 16 + 1)
    ∧ (256 * (winNo L r % 16) ≤ (j 1).val ∧ (j 1).val < 256 * (winNo L r % 16) + 256) ↔ _
  omega

/-- The same for the output: every lane of those rows. -/
theorem mem_oSetR (L : grid0.Coords) (r : Fin 25) (j : S50x4096x128.Idx) :
    j ∈ oSetR L r ↔ (j 0).val = winNo L r / 16 ∧ (j 1).val / 256 = winNo L r % 16 := by
  have h2 : (j 2).val < 128 := (j 2).isLt
  rw [mem_oSet, off2_closed, Fin.forall_fin_succ, Fin.forall_fin_two]
  show (winNo L r / 16 ≤ (j 0).val ∧ (j 0).val < winNo L r / 16 + 1)
    ∧ (256 * (winNo L r % 16) ≤ (j 1).val ∧ (j 1).val < 256 * (winNo L r % 16) + 256)
    ∧ (0 ≤ (j 2).val ∧ (j 2).val < 0 + 128) ↔ _
  omega

/-! ## Where a window's own index lands -/

theorem iWin_emb (L : grid0.Coords) (w : BitVec 32) (h : ∀ a, (k0_off1 L w) a + S1x256.size a ≤ S50x4096.size a)
    (x : S256.Idx) :
    (((iWin L w h).view.emb x : S50x4096.Idx) 0).val = (k0_off1 L w) 0
      ∧ (((iWin L w h).view.emb x : S50x4096.Idx) 1).val = (k0_off1 L w) 1 + (x 0).val := by
  have e : ((iWin L w h).view.emb x : S50x4096.Idx)
      = (Rect.unit (s := S50x4096) (k0_off1 L w) S1x256.size h).emb (Fin.cons ⟨0, Nat.one_pos⟩ x) := by
    show (Rect.unit (s := S50x4096) (k0_off1 L w) S1x256.size h).emb
      (Shape.reshapeEquiv squeezes_S1x256_S256.numel_eq x) = _
    rw [Shape.reshapeEquiv_cons_one]
  rw [e]
  constructor
  · show (k0_off1 L w) 0 + 1 * 0 = _
    omega
  · show (k0_off1 L w) 1 + 1 * (x 0).val = _
    omega

theorem oWin_emb (L : grid0.Coords) (w : BitVec 32) (h : ∀ a, (k0_off2 L w) a + S1x256x128.size a ≤ S50x4096x128.size a)
    (y : S256x128.Idx) :
    (((oWin L w h).view.emb y : S50x4096x128.Idx) 0).val = (k0_off2 L w) 0
      ∧ (((oWin L w h).view.emb y : S50x4096x128.Idx) 1).val = (k0_off2 L w) 1 + (y 0).val
      ∧ (((oWin L w h).view.emb y : S50x4096x128.Idx) 2).val = (k0_off2 L w) 2 + (y 1).val := by
  have e : ((oWin L w h).view.emb y : S50x4096x128.Idx)
      = (Rect.unit (s := S50x4096x128) (k0_off2 L w) S1x256x128.size h).emb (Fin.cons ⟨0, Nat.one_pos⟩ y) := by
    show (Rect.unit (s := S50x4096x128) (k0_off2 L w) S1x256x128.size h).emb
      (Shape.reshapeEquiv squeezes_S1x256x128_S256x128.numel_eq y) = _
    rw [Shape.reshapeEquiv_cons_one]
  rw [e]
  refine ⟨?_, ?_, ?_⟩
  · show (k0_off2 L w) 0 + 1 * 0 = _
    omega
  · show (k0_off2 L w) 1 + 1 * (y 0).val = _
    omega
  · show (k0_off2 L w) 2 + 1 * (y 1).val = _
    omega

end Cert.Proof.KB
-- ==== Proof.WinValueKB.lean ====
/-
  The values a subcore's round moves. A round fetches a window of the transposed index array into a list, gathers
  the table's rows the list names into a slot, and writes the slot out to the same window of the output. Reading
  a view after a whole write through it gives back what was written, so the slot's row k holds the table's row
  named by the window's entry k; written out, the output's window holds at (row i, column c, lane e) the table's
  row idxT[i, c] at lane e.
-/
import proofs.«218878_g9363028706246_cont_9to1c4b_116_21_alg».proof.Proof.PayKB
import proofs.«218878_g9363028706246_cont_9to1c4b_116_21_alg».proof.Proof.WinMemKB
import Idealize.ShloMosaic.Lib.SparseCore.Launch
import Idealize.ShloMosaic.Lib.Writes
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2 ix1)

variable [FloatOps F]

/-- The slot after the gather, read at (k, e): lane e of the table's row named by entry k of the index window. -/
theorem payload_value (d : Dev nD) (L : grid0.Coords) (fx : Buf (Elt F) (xLoc d)) (fi : Buf (Elt F) (iLoc d))
    (hfi : ∀ j, (fi j).toNat ≤ 100000)
    (w : BitVec 32) (h1 : ∀ a, (k0_off1 L w) a + S1x256.size a ≤ S50x4096.size a)
    (slot : Memref sig .scVector .vmem S256x128 .f32) (lV : Memref sig .scVector .vmem S256 .i32)
    (PREV : slot.view.ty.Contents (Elt F)) (g : lV.view.ty.Contents (Elt F))
    (hg : S100001x128.Gathers 0 S256x128)
    (hx1 : ∀ a, (![0, 0] : Fin 2 → ℕ) a + S100001x128.size a ≤ S100001x128.size a)
    (hx2 : ∀ a, (Rect.unit (s := S100001x128) ![0, 0] S100001x128.size hx1).stride a = 1)
    (hn : S256.numel = S256x128.size hg.axis')
    (hin : ∀ x, (View.read (Elt F) lV.view (View.write (Elt F) lV.view g (ReadAs.same.apply (View.read (Elt F) (iWin L w h1).view fi)) Finset.univ) x).toNat < S100001x128.size hg.axis)
    (y : S256x128.Idx) :
    ReadAs.same.apply (View.read (Elt F) slot.view (View.write (Elt F) slot.view PREV
      (SparseCore.gatherPayload hg (View.read (Elt F) (xV.slice (Rect.unit (s := S100001x128) ![0, 0] S100001x128.size hx1) hx2).view fx)
        (SparseCore.rows (View.read (Elt F) lV.view (View.write (Elt F) lV.view g (ReadAs.same.apply (View.read (Elt F) (iWin L w h1).view fi)) Finset.univ)) hn hin))
      Finset.univ)) y
    = fx (ix2 (n0 := 100001) (n1 := 128) (Spec.rowOf (fi ((iWin L w h1).view.emb (ix1 (n := 256) (y 0))))) (y 1)) := by
  -- the index list as held: the window's words
  have hl : ∀ x, View.read (Elt F) lV.view (View.write (Elt F) lV.view g (ReadAs.same.apply (View.read (Elt F) (iWin L w h1).view fi)) Finset.univ) x
      = fi ((iWin L w h1).view.emb x) := fun x => by
    rw [View.read_write_univ]
    exact (View.read_apply _ _).trans (cast_eq _ _)
  -- entry k of the list, in row-major order, is the entry at index k
  have hk : S256.rowMajor.symm ((y hg.axis').cast hn.symm) = ix1 (n := 256) (y 0) := by
    rw [Equiv.symm_apply_eq]
    apply Fin.ext
    rw [Shape.rowMajor_val_one]
    rfl
  show View.read (Elt F) slot.view (View.write (Elt F) slot.view PREV _ Finset.univ) y = _
  rw [View.read_write_univ]
  refine ((View.read_apply _ _).trans (cast_eq _ _)).trans (congrArg fx ?_)
  funext a
  apply Fin.ext
  match a with
  | ⟨0, _⟩ =>
    show 0 + 1 * (hg.idx _ y hg.axis).val = _
    rw [Shape.Gathers.idx_axis]
    show 0 + 1 * (View.read (Elt F) lV.view _ (S256.rowMajor.symm ((y hg.axis').cast hn.symm))).toNat = _
    rw [hl, hk, Nat.zero_add, Nat.one_mul]
    exact (Spec.rowOf_val_of_le (hfi _)).symm
  | ⟨1, _⟩ =>
    show 0 + 1 * (hg.idx _ y ⟨1, _⟩).val = _
    rw [Shape.Gathers.idx_of_ne hg _ y ⟨1, _⟩ Nat.one_ne_zero, Nat.zero_add, Nat.one_mul]
    rfl

/-- What a subcore's write-out leaves in an output window: the lookup's values there. -/
theorem out_final (m : (ℓ : Loc nD τ sig) → Buf (Elt F) ℓ) (d : Dev nD) (L : grid0.Coords) (r : Fin 25) (w : BitVec 32)
    (hw : w = BitVec.ofNat 32 (32 * r.val))
    (h1 : ∀ a, (k0_off1 L w) a + S1x256.size a ≤ S50x4096.size a)
    (h2 : ∀ a, (k0_off2 L w) a + S1x256x128.size a ≤ S50x4096x128.size a)
    (fo : Buf (Elt F) (oLoc d)) (p : S256x128.Idx → Elt F .f32)
    (hp : ∀ y, p y = m (xLoc d) (ix2 (n0 := 100001) (n1 := 128)
      (Spec.rowOf (idxT m d ((iWin L w h1).view.emb (ix1 (n := 256) (y 0))))) (y 1))) :
    ((oWin L w h2).view.loc (V d (cV L) (jV L)) ↦[(oWin L w h2).view.set]{fullShare}
        (oWin L w h2).view.writes (Elt F) fo [⟨Rect.whole S256x128, p⟩] : sProp 𝕄)
      = oLoc d ↦[oSetR L r]{fullShare} G1 m d := by
  subst hw
  show (oLoc d ↦[oSetR L r]{fullShare} _ : sProp 𝕄) = _
  refine pointsTo_congr fun j hj => ?_
  obtain ⟨y, rfl⟩ := View.exists_emb_of_mem_set (oWin L (BitVec.ofNat 32 (32 * r.val)) h2).view hj
  -- the element written at the window's index y
  have e1 : ((oWin L (BitVec.ofNat 32 (32 * r.val)) h2).view.slice (Rect.whole S256x128)).emb y
      = (oWin L (BitVec.ofNat 32 (32 * r.val)) h2).view.emb y := by
    show (oWin L (BitVec.ofNat 32 (32 * r.val)) h2).view.emb ((Rect.whole S256x128).emb y) = _
    rw [Rect.emb_whole_apply]
  rw [View.writes_singleton, ← e1, View.write_emb_of_mem _ _ (Finset.mem_univ _)]
  refine (cast_eq _ _).trans ((hp y).trans ?_)
  rw [e1]
  -- its place in the array: the window's row, the window's first column plus y's row, y's lane
  obtain ⟨o0, o1, o2⟩ := oWin_emb L (BitVec.ofNat 32 (32 * r.val)) h2 y
  obtain ⟨i0, i1⟩ := iWin_emb L (BitVec.ofNat 32 (32 * r.val)) h1 (ix1 (n := 256) (y 0))
  have ea : (iWin L (BitVec.ofNat 32 (32 * r.val)) h1).view.emb (ix1 (n := 256) (y 0))
      = ix2 (n0 := 50) (n1 := 4096) (((oWin L (BitVec.ofNat 32 (32 * r.val)) h2).view.emb y : S50x4096x128.Idx) 0)
          (((oWin L (BitVec.ofNat 32 (32 * r.val)) h2).view.emb y : S50x4096x128.Idx) 1) := by
    funext a
    apply Fin.ext
    match a with
    | ⟨0, _⟩ => exact i0.trans o0.symm
    | ⟨1, _⟩ => exact i1.trans o1.symm
  have eb : (y 1 : Fin 128) = ((oWin L (BitVec.ofNat 32 (32 * r.val)) h2).view.emb y : S50x4096x128.Idx) 2 :=
    Fin.ext (o2.trans (Nat.zero_add _)).symm
  have key : ∀ (a a' : S50x4096.Idx) (b b' : Fin 128), a = a' → b = b' →
      m (xLoc d) (ix2 (n0 := 100001) (n1 := 128) (Spec.rowOf (idxT m d a)) b)
        = m (xLoc d) (ix2 (n0 := 100001) (n1 := 128) (Spec.rowOf (idxT m d a')) b') := by
    rintro _ _ _ _ rfl rfl; rfl
  exact key _ _ _ _ ea eb

end Cert.Proof.KB

end
-- ==== Proof.TileKB.lean ====
import proofs.«218878_g9363028706246_cont_9to1c4b_116_21_alg».proof.Proof.SetupKB
import proofs.«218878_g9363028706246_cont_9to1c4b_116_21_alg».proof.Proof.TilePreKB
import proofs.«218878_g9363028706246_cont_9to1c4b_116_21_alg».proof.Proof.WinValueKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2)

variable (m : (ℓ : Loc nD τ sig) → Buf (Elt F) ℓ)

variable [FloatOps F] (d : Dev nD) (L : grid0.Coords)

omit [FloatOps F] in
/-- Recording one more finished wait keeps every recorded wait either an earlier one or the kernel's own. -/
theorem waits_insert {W : Waits sig (HIx 1)} (S : Waits sig (HIx 1)) (a : SemLoc sig)
    (h : ∀ p ∈ S, p ∈ W ∨ p.2 = none) : ∀ p ∈ insert (a, (default : HIx 1)) S, p ∈ W ∨ p.2 = none := by
  intro p hp
  rcases Finset.mem_insert.mp hp with hp | hp
  · exact .inr (hp ▸ rfl)
  · exact h p hp

omit [FloatOps F] in
theorem pack_l0 (f : Buf (Elt F) ((V d (cV L) (jV L)).loc cc0_scratch0)) :
    ((l0V).view.loc (V d (cV L) (jV L)) ↦{fullShare} f : sProp 𝕄) ⊢ iprop(∃ f, (V d (cV L) (jV L)).loc cc0_scratch0 ↦{fullShare} f) := by
  iintro H; iexists f; iexact H
omit [FloatOps F] in
theorem pack_l1 (f : Buf (Elt F) ((V d (cV L) (jV L)).loc cc0_scratch1)) :
    ((l1V).view.loc (V d (cV L) (jV L)) ↦{fullShare} f : sProp 𝕄) ⊢ iprop(∃ f, (V d (cV L) (jV L)).loc cc0_scratch1 ↦{fullShare} f) := by
  iintro H; iexists f; iexact H
omit [FloatOps F] in
theorem pack_b (f : Buf (Elt F) ((V d (cV L) (jV L)).loc cc0_scratch2)) :
    ((bV).view.loc (V d (cV L) (jV L)) ↦{fullShare} f : sProp 𝕄) ⊢ iprop(∃ f, (V d (cV L) (jV L)).loc cc0_scratch2 ↦{fullShare} f) := by
  iintro H; iexists f; iexact H
omit [FloatOps F] in
/-- The waits recorded during the task, all the kernel's own, beside what the subcore still owes. -/
theorem pack_owes (O : CellTallies nD τ sig (HIx 1)) (W W' : Waits sig (HIx 1)) (h : ∀ p ∈ W', p ∈ W ∨ p.2 = none) :
    (owes (V d (cV L) (jV L)) O W' : sProp 𝕄) ⊢ iprop(∃ W', ⌜∀ p ∈ W', p ∈ W ∨ p.2 = none⌝ ∗ owes (V d (cV L) (jV L)) O W') := by
  iintro H; iexists W'; isplitr
  · ipureintro; exact h
  · iexact H

set_option maxHeartbeats 16000000 in
/-- The task of the subcore at grid point `L`: twenty-five rounds, each fetching a window of 256 transposed indices
    into one of two lists, gathering the table's rows they name into one of two row buffers, and writing the rows
    out to the matching window of the output; a list is refilled only after the gather reading it has been waited
    for, a row buffer only after its write-out has. Every window of the output ends holding the table's rows its
    indices name. -/
theorem tile_body (hF : (K (F := F)).Facts) (hpre : ∀ j, (idxT m d j).toNat ≤ 100000) (q : PosShare TreeShare)
    (O : CellTallies nD τ sig (HIx 1)) (W : Waits sig (HIx 1)) (hO : ∀ g, O g none = 0) :
    iprop(levAts (K (F := F)).L (K (F := F)).lev ∗ emp ∗ goFor m d L q
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather L xV (Memref.isWhole_whole _) iV (Memref.isWhole_whole _) oV (Memref.isWhole_whole _)
            l0V (Memref.isWhole_whole _) l1V (Memref.isWhole_whole _) bV (Memref.isWhole_whole _) cc0_scratch3 cc0_scratch4 cc0_scratch5)
          fun _ => iprop(tdFor m d L q ∗ scopedBufs (V d (cV L) (jV L)) ∗ scopedSems0 (V d (cV L) (jV L))
            ∗ ∃ W', ⌜∀ p ∈ W', p ∈ W ∨ p.2 = none⌝ ∗ owes (V d (cV L) (jV L)) O W') := by
  have hfi : ∀ j, (idxT m d j).toNat < 100001 := fun j => Nat.lt_succ_of_le (hpre j)
  simp only [cc0__gather_eq_skeleton]; unfold cc0__gather_skel
  rw [(K (F := F)).scopedBufs_V hF d (cV L) (jV L), SparseCore.Cfg.scopedSems0_V (Val := Elt F) d (cV L) (jV L), ownSems0_V, ownBufs_V]
  unfold goFor tdFor
  rw [bigSep_fin25, bigSep_fin25, bigSep_fin25]
  iintro ⟨#Hlv, -, ⟨⟨Hi0, Hi1, Hi2, Hi3, Hi4, Hi5, Hi6, Hi7, Hi8, Hi9, Hi10, Hi11, Hi12, Hi13, Hi14, Hi15, Hi16, Hi17, Hi18, Hi19, Hi20, Hi21, Hi22, Hi23, Hi24⟩, Hx, ⟨Ho0, Ho1, Ho2, Ho3, Ho4, Ho5, Ho6, Ho7, Ho8, Ho9, Ho10, Ho11, Ho12, Ho13, Ho14, Ho15, Ho16, Ho17, Ho18, Ho19, Ho20, Ho21, Ho22, Ho23, Ho24⟩⟩, ⟨⟨%f0, Hl0⟩, ⟨%f1, Hl1⟩, ⟨%f2, Hb⟩, Hbufs⟩, ⟨HsI0, HsI1, HsG0, HsG1, HsO0, HsO1, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hx := (Entails.of_eq (pts_x (F := F) d L _ _).symm) $$ Hx
  ihave Hi0 := (Entails.of_eq (pts_i (F := F) d L 0#32 (k0_off1_inb L 0) _).symm) $$ Hi0
  ihave Hi1 := (Entails.of_eq (pts_i (F := F) d L 32#32 (k0_off1_inb L 1) _).symm) $$ Hi1
  ihave Hi2 := (Entails.of_eq (pts_i (F := F) d L 64#32 (k0_off1_inb L 2) _).symm) $$ Hi2
  ihave Hi3 := (Entails.of_eq (pts_i (F := F) d L 96#32 (k0_off1_inb L 3) _).symm) $$ Hi3
  ihave Hi4 := (Entails.of_eq (pts_i (F := F) d L 128#32 (k0_off1_inb L 4) _).symm) $$ Hi4
  ihave Hi5 := (Entails.of_eq (pts_i (F := F) d L 160#32 (k0_off1_inb L 5) _).symm) $$ Hi5
  ihave Hi6 := (Entails.of_eq (pts_i (F := F) d L 192#32 (k0_off1_inb L 6) _).symm) $$ Hi6
  ihave Hi7 := (Entails.of_eq (pts_i (F := F) d L 224#32 (k0_off1_inb L 7) _).symm) $$ Hi7
  ihave Hi8 := (Entails.of_eq (pts_i (F := F) d L 256#32 (k0_off1_inb L 8) _).symm) $$ Hi8
  ihave Hi9 := (Entails.of_eq (pts_i (F := F) d L 288#32 (k0_off1_inb L 9) _).symm) $$ Hi9
  ihave Hi10 := (Entails.of_eq (pts_i (F := F) d L 320#32 (k0_off1_inb L 10) _).symm) $$ Hi10
  ihave Hi11 := (Entails.of_eq (pts_i (F := F) d L 352#32 (k0_off1_inb L 11) _).symm) $$ Hi11
  ihave Hi12 := (Entails.of_eq (pts_i (F := F) d L 384#32 (k0_off1_inb L 12) _).symm) $$ Hi12
  ihave Hi13 := (Entails.of_eq (pts_i (F := F) d L 416#32 (k0_off1_inb L 13) _).symm) $$ Hi13
  ihave Hi14 := (Entails.of_eq (pts_i (F := F) d L 448#32 (k0_off1_inb L 14) _).symm) $$ Hi14
  ihave Hi15 := (Entails.of_eq (pts_i (F := F) d L 480#32 (k0_off1_inb L 15) _).symm) $$ Hi15
  ihave Hi16 := (Entails.of_eq (pts_i (F := F) d L 512#32 (k0_off1_inb L 16) _).symm) $$ Hi16
  ihave Hi17 := (Entails.of_eq (pts_i (F := F) d L 544#32 (k0_off1_inb L 17) _).symm) $$ Hi17
  ihave Hi18 := (Entails.of_eq (pts_i (F := F) d L 576#32 (k0_off1_inb L 18) _).symm) $$ Hi18
  ihave Hi19 := (Entails.of_eq (pts_i (F := F) d L 608#32 (k0_off1_inb L 19) _).symm) $$ Hi19
  ihave Hi20 := (Entails.of_eq (pts_i (F := F) d L 640#32 (k0_off1_inb L 20) _).symm) $$ Hi20
  ihave Hi21 := (Entails.of_eq (pts_i (F := F) d L 672#32 (k0_off1_inb L 21) _).symm) $$ Hi21
  ihave Hi22 := (Entails.of_eq (pts_i (F := F) d L 704#32 (k0_off1_inb L 22) _).symm) $$ Hi22
  ihave Hi23 := (Entails.of_eq (pts_i (F := F) d L 736#32 (k0_off1_inb L 23) _).symm) $$ Hi23
  ihave Hi24 := (Entails.of_eq (pts_i (F := F) d L 768#32 (k0_off1_inb L 24) _).symm) $$ Hi24
  ihave Ho0 := (Entails.of_eq (pts_o (F := F) d L 0#32 (k0_off2_inb L 0) _).symm) $$ Ho0
  ihave Ho1 := (Entails.of_eq (pts_o (F := F) d L 32#32 (k0_off2_inb L 1) _).symm) $$ Ho1
  ihave Ho2 := (Entails.of_eq (pts_o (F := F) d L 64#32 (k0_off2_inb L 2) _).symm) $$ Ho2
  ihave Ho3 := (Entails.of_eq (pts_o (F := F) d L 96#32 (k0_off2_inb L 3) _).symm) $$ Ho3
  ihave Ho4 := (Entails.of_eq (pts_o (F := F) d L 128#32 (k0_off2_inb L 4) _).symm) $$ Ho4
  ihave Ho5 := (Entails.of_eq (pts_o (F := F) d L 160#32 (k0_off2_inb L 5) _).symm) $$ Ho5
  ihave Ho6 := (Entails.of_eq (pts_o (F := F) d L 192#32 (k0_off2_inb L 6) _).symm) $$ Ho6
  ihave Ho7 := (Entails.of_eq (pts_o (F := F) d L 224#32 (k0_off2_inb L 7) _).symm) $$ Ho7
  ihave Ho8 := (Entails.of_eq (pts_o (F := F) d L 256#32 (k0_off2_inb L 8) _).symm) $$ Ho8
  ihave Ho9 := (Entails.of_eq (pts_o (F := F) d L 288#32 (k0_off2_inb L 9) _).symm) $$ Ho9
  ihave Ho10 := (Entails.of_eq (pts_o (F := F) d L 320#32 (k0_off2_inb L 10) _).symm) $$ Ho10
  ihave Ho11 := (Entails.of_eq (pts_o (F := F) d L 352#32 (k0_off2_inb L 11) _).symm) $$ Ho11
  ihave Ho12 := (Entails.of_eq (pts_o (F := F) d L 384#32 (k0_off2_inb L 12) _).symm) $$ Ho12
  ihave Ho13 := (Entails.of_eq (pts_o (F := F) d L 416#32 (k0_off2_inb L 13) _).symm) $$ Ho13
  ihave Ho14 := (Entails.of_eq (pts_o (F := F) d L 448#32 (k0_off2_inb L 14) _).symm) $$ Ho14
  ihave Ho15 := (Entails.of_eq (pts_o (F := F) d L 480#32 (k0_off2_inb L 15) _).symm) $$ Ho15
  ihave Ho16 := (Entails.of_eq (pts_o (F := F) d L 512#32 (k0_off2_inb L 16) _).symm) $$ Ho16
  ihave Ho17 := (Entails.of_eq (pts_o (F := F) d L 544#32 (k0_off2_inb L 17) _).symm) $$ Ho17
  ihave Ho18 := (Entails.of_eq (pts_o (F := F) d L 576#32 (k0_off2_inb L 18) _).symm) $$ Ho18
  ihave Ho19 := (Entails.of_eq (pts_o (F := F) d L 608#32 (k0_off2_inb L 19) _).symm) $$ Ho19
  ihave Ho20 := (Entails.of_eq (pts_o (F := F) d L 640#32 (k0_off2_inb L 20) _).symm) $$ Ho20
  ihave Ho21 := (Entails.of_eq (pts_o (F := F) d L 672#32 (k0_off2_inb L 21) _).symm) $$ Ho21
  ihave Ho22 := (Entails.of_eq (pts_o (F := F) d L 704#32 (k0_off2_inb L 22) _).symm) $$ Ho22
  ihave Ho23 := (Entails.of_eq (pts_o (F := F) d L 736#32 (k0_off2_inb L 23) _).symm) $$ Ho23
  ihave Ho24 := (Entails.of_eq (pts_o (F := F) d L 768#32 (k0_off2_inb L 24) _).symm) $$ Ho24
  ihave Hl0 := (Entails.of_eq (pts_l0 (F := F) d L _).symm) $$ Hl0
  ihave Hl1 := (Entails.of_eq (pts_l1 (F := F) d L _).symm) $$ Hl1
  ihave Hb := (Entails.of_eq (pts_b (F := F) d L _).symm) $$ Hb
  have hin0 := hin_l0 (F := F) d L (idxT m d) hfi
  have hin1 := hin_l1 (F := F) d L (idxT m d) hfi
  sl_exec_parts
  sl_step
  ihave Ho0 := (Entails.of_eq (out_final (F := F) m d L 0 0#32 rfl (k0_off1_inb L 0) (k0_off2_inb L 0) _ _ ?hp0)) $$ Ho0
  case hp0 => exact fun y => payload_value (F := F) d L (m (xLoc d)) (idxT m d) hpre _ _ _ _ _ _ _ _ _ _ _ y
  ihave Ho1 := (Entails.of_eq (out_final (F := F) m d L 1 32#32 rfl (k0_off1_inb L 1) (k0_off2_inb L 1) _ _ ?hp1)) $$ Ho1
  case hp1 => exact fun y => payload_value (F := F) d L (m (xLoc d)) (idxT m d) hpre _ _ _ _ _ _ _ _ _ _ _ y
  ihave Ho2 := (Entails.of_eq (out_final (F := F) m d L 2 64#32 rfl (k0_off1_inb L 2) (k0_off2_inb L 2) _ _ ?hp2)) $$ Ho2
  case hp2 => exact fun y => payload_value (F := F) d L (m (xLoc d)) (idxT m d) hpre _ _ _ _ _ _ _ _ _ _ _ y
  ihave Ho3 := (Entails.of_eq (out_final (F := F) m d L 3 96#32 rfl (k0_off1_inb L 3) (k0_off2_inb L 3) _ _ ?hp3)) $$ Ho3
  case hp3 => exact fun y => payload_value (F := F) d L (m (xLoc d)) (idxT m d) hpre _ _ _ _ _ _ _ _ _ _ _ y
  ihave Ho4 := (Entails.of_eq (out_final (F := F) m d L 4 128#32 rfl (k0_off1_inb L 4) (k0_off2_inb L 4) _ _ ?hp4)) $$ Ho4
  case hp4 => exact fun y => payload_value (F := F) d L (m (xLoc d)) (idxT m d) hpre _ _ _ _ _ _ _ _ _ _ _ y
  ihave Ho5 := (Entails.of_eq (out_final (F := F) m d L 5 160#32 rfl (k0_off1_inb L 5) (k0_off2_inb L 5) _ _ ?hp5)) $$ Ho5
  case hp5 => exact fun y => payload_value (F := F) d L (m (xLoc d)) (idxT m d) hpre _ _ _ _ _ _ _ _ _ _ _ y
  ihave Ho6 := (Entails.of_eq (out_final (F := F) m d L 6 192#32 rfl (k0_off1_inb L 6) (k0_off2_inb L 6) _ _ ?hp6)) $$ Ho6
  case hp6 => exact fun y => payload_value (F := F) d L (m (xLoc d)) (idxT m d) hpre _ _ _ _ _ _ _ _ _ _ _ y
  ihave Ho7 := (Entails.of_eq (out_final (F := F) m d L 7 224#32 rfl (k0_off1_inb L 7) (k0_off2_inb L 7) _ _ ?hp7)) $$ Ho7
  case hp7 => exact fun y => payload_value (F := F) d L (m (xLoc d)) (idxT m d) hpre _ _ _ _ _ _ _ _ _ _ _ y
  ihave Ho8 := (Entails.of_eq (out_final (F := F) m d L 8 256#32 rfl (k0_off1_inb L 8) (k0_off2_inb L 8) _ _ ?hp8)) $$ Ho8
  case hp8 => exact fun y => payload_value (F := F) d L (m (xLoc d)) (idxT m d) hpre _ _ _ _ _ _ _ _ _ _ _ y
  ihave Ho9 := (Entails.of_eq (out_final (F := F) m d L 9 288#32 rfl (k0_off1_inb L 9) (k0_off2_inb L 9) _ _ ?hp9)) $$ Ho9
  case hp9 => exact fun y => payload_value (F := F) d L (m (xLoc d)) (idxT m d) hpre _ _ _ _ _ _ _ _ _ _ _ y
  ihave Ho10 := (Entails.of_eq (out_final (F := F) m d L 10 320#32 rfl (k0_off1_inb L 10) (k0_off2_inb L 10) _ _ ?hp10)) $$ Ho10
  case hp10 => exact fun y => payload_value (F := F) d L (m (xLoc d)) (idxT m d) hpre _ _ _ _ _ _ _ _ _ _ _ y
  ihave Ho11 := (Entails.of_eq (out_final (F := F) m d L 11 352#32 rfl (k0_off1_inb L 11) (k0_off2_inb L 11) _ _ ?hp11)) $$ Ho11
  case hp11 => exact fun y => payload_value (F := F) d L (m (xLoc d)) (idxT m d) hpre _ _ _ _ _ _ _ _ _ _ _ y
  ihave Ho12 := (Entails.of_eq (out_final (F := F) m d L 12 384#32 rfl (k0_off1_inb L 12) (k0_off2_inb L 12) _ _ ?hp12)) $$ Ho12
  case hp12 => exact fun y => payload_value (F := F) d L (m (xLoc d)) (idxT m d) hpre _ _ _ _ _ _ _ _ _ _ _ y
  ihave Ho13 := (Entails.of_eq (out_final (F := F) m d L 13 416#32 rfl (k0_off1_inb L 13) (k0_off2_inb L 13) _ _ ?hp13)) $$ Ho13
  case hp13 => exact fun y => payload_value (F := F) d L (m (xLoc d)) (idxT m d) hpre _ _ _ _ _ _ _ _ _ _ _ y
  ihave Ho14 := (Entails.of_eq (out_final (F := F) m d L 14 448#32 rfl (k0_off1_inb L 14) (k0_off2_inb L 14) _ _ ?hp14)) $$ Ho14
  case hp14 => exact fun y => payload_value (F := F) d L (m (xLoc d)) (idxT m d) hpre _ _ _ _ _ _ _ _ _ _ _ y
  ihave Ho15 := (Entails.of_eq (out_final (F := F) m d L 15 480#32 rfl (k0_off1_inb L 15) (k0_off2_inb L 15) _ _ ?hp15)) $$ Ho15
  case hp15 => exact fun y => payload_value (F := F) d L (m (xLoc d)) (idxT m d) hpre _ _ _ _ _ _ _ _ _ _ _ y
  ihave Ho16 := (Entails.of_eq (out_final (F := F) m d L 16 512#32 rfl (k0_off1_inb L 16) (k0_off2_inb L 16) _ _ ?hp16)) $$ Ho16
  case hp16 => exact fun y => payload_value (F := F) d L (m (xLoc d)) (idxT m d) hpre _ _ _ _ _ _ _ _ _ _ _ y
  ihave Ho17 := (Entails.of_eq (out_final (F := F) m d L 17 544#32 rfl (k0_off1_inb L 17) (k0_off2_inb L 17) _ _ ?hp17)) $$ Ho17
  case hp17 => exact fun y => payload_value (F := F) d L (m (xLoc d)) (idxT m d) hpre _ _ _ _ _ _ _ _ _ _ _ y
  ihave Ho18 := (Entails.of_eq (out_final (F := F) m d L 18 576#32 rfl (k0_off1_inb L 18) (k0_off2_inb L 18) _ _ ?hp18)) $$ Ho18
  case hp18 => exact fun y => payload_value (F := F) d L (m (xLoc d)) (idxT m d) hpre _ _ _ _ _ _ _ _ _ _ _ y
  ihave Ho19 := (Entails.of_eq (out_final (F := F) m d L 19 608#32 rfl (k0_off1_inb L 19) (k0_off2_inb L 19) _ _ ?hp19)) $$ Ho19
  case hp19 => exact fun y => payload_value (F := F) d L (m (xLoc d)) (idxT m d) hpre _ _ _ _ _ _ _ _ _ _ _ y
  ihave Ho20 := (Entails.of_eq (out_final (F := F) m d L 20 640#32 rfl (k0_off1_inb L 20) (k0_off2_inb L 20) _ _ ?hp20)) $$ Ho20
  case hp20 => exact fun y => payload_value (F := F) d L (m (xLoc d)) (idxT m d) hpre _ _ _ _ _ _ _ _ _ _ _ y
  ihave Ho21 := (Entails.of_eq (out_final (F := F) m d L 21 672#32 rfl (k0_off1_inb L 21) (k0_off2_inb L 21) _ _ ?hp21)) $$ Ho21
  case hp21 => exact fun y => payload_value (F := F) d L (m (xLoc d)) (idxT m d) hpre _ _ _ _ _ _ _ _ _ _ _ y
  ihave Ho22 := (Entails.of_eq (out_final (F := F) m d L 22 704#32 rfl (k0_off1_inb L 22) (k0_off2_inb L 22) _ _ ?hp22)) $$ Ho22
  case hp22 => exact fun y => payload_value (F := F) d L (m (xLoc d)) (idxT m d) hpre _ _ _ _ _ _ _ _ _ _ _ y
  ihave Ho23 := (Entails.of_eq (out_final (F := F) m d L 23 736#32 rfl (k0_off1_inb L 23) (k0_off2_inb L 23) _ _ ?hp23)) $$ Ho23
  case hp23 => exact fun y => payload_value (F := F) d L (m (xLoc d)) (idxT m d) hpre _ _ _ _ _ _ _ _ _ _ _ y
  ihave Ho24 := (Entails.of_eq (out_final (F := F) m d L 24 768#32 rfl (k0_off1_inb L 24) (k0_off2_inb L 24) _ _ ?hp24)) $$ Ho24
  case hp24 => exact fun y => payload_value (F := F) d L (m (xLoc d)) (idxT m d) hpre _ _ _ _ _ _ _ _ _ _ _ y
  ihave Hl0 := (pack_l0 (F := F) d L _) $$ Hl0
  ihave Hl1 := (pack_l1 (F := F) d L _) $$ Hl1
  ihave Hb := (pack_b (F := F) d L _) $$ Hb
  ihave HO := (pack_owes (F := F) d L O W _ ?hW) $$ HO
  case hW =>
    repeat (refine waits_insert _ _ ?_)
    exact fun p hp => .inl hp
  ihave Hi0 := (Entails.of_eq (pts_i (F := F) d L 0#32 (k0_off1_inb L 0) _)) $$ Hi0
  ihave Hi1 := (Entails.of_eq (pts_i (F := F) d L 32#32 (k0_off1_inb L 1) _)) $$ Hi1
  ihave Hi2 := (Entails.of_eq (pts_i (F := F) d L 64#32 (k0_off1_inb L 2) _)) $$ Hi2
  ihave Hi3 := (Entails.of_eq (pts_i (F := F) d L 96#32 (k0_off1_inb L 3) _)) $$ Hi3
  ihave Hi4 := (Entails.of_eq (pts_i (F := F) d L 128#32 (k0_off1_inb L 4) _)) $$ Hi4
  ihave Hi5 := (Entails.of_eq (pts_i (F := F) d L 160#32 (k0_off1_inb L 5) _)) $$ Hi5
  ihave Hi6 := (Entails.of_eq (pts_i (F := F) d L 192#32 (k0_off1_inb L 6) _)) $$ Hi6
  ihave Hi7 := (Entails.of_eq (pts_i (F := F) d L 224#32 (k0_off1_inb L 7) _)) $$ Hi7
  ihave Hi8 := (Entails.of_eq (pts_i (F := F) d L 256#32 (k0_off1_inb L 8) _)) $$ Hi8
  ihave Hi9 := (Entails.of_eq (pts_i (F := F) d L 288#32 (k0_off1_inb L 9) _)) $$ Hi9
  ihave Hi10 := (Entails.of_eq (pts_i (F := F) d L 320#32 (k0_off1_inb L 10) _)) $$ Hi10
  ihave Hi11 := (Entails.of_eq (pts_i (F := F) d L 352#32 (k0_off1_inb L 11) _)) $$ Hi11
  ihave Hi12 := (Entails.of_eq (pts_i (F := F) d L 384#32 (k0_off1_inb L 12) _)) $$ Hi12
  ihave Hi13 := (Entails.of_eq (pts_i (F := F) d L 416#32 (k0_off1_inb L 13) _)) $$ Hi13
  ihave Hi14 := (Entails.of_eq (pts_i (F := F) d L 448#32 (k0_off1_inb L 14) _)) $$ Hi14
  ihave Hi15 := (Entails.of_eq (pts_i (F := F) d L 480#32 (k0_off1_inb L 15) _)) $$ Hi15
  ihave Hi16 := (Entails.of_eq (pts_i (F := F) d L 512#32 (k0_off1_inb L 16) _)) $$ Hi16
  ihave Hi17 := (Entails.of_eq (pts_i (F := F) d L 544#32 (k0_off1_inb L 17) _)) $$ Hi17
  ihave Hi18 := (Entails.of_eq (pts_i (F := F) d L 576#32 (k0_off1_inb L 18) _)) $$ Hi18
  ihave Hi19 := (Entails.of_eq (pts_i (F := F) d L 608#32 (k0_off1_inb L 19) _)) $$ Hi19
  ihave Hi20 := (Entails.of_eq (pts_i (F := F) d L 640#32 (k0_off1_inb L 20) _)) $$ Hi20
  ihave Hi21 := (Entails.of_eq (pts_i (F := F) d L 672#32 (k0_off1_inb L 21) _)) $$ Hi21
  ihave Hi22 := (Entails.of_eq (pts_i (F := F) d L 704#32 (k0_off1_inb L 22) _)) $$ Hi22
  ihave Hi23 := (Entails.of_eq (pts_i (F := F) d L 736#32 (k0_off1_inb L 23) _)) $$ Hi23
  ihave Hi24 := (Entails.of_eq (pts_i (F := F) d L 768#32 (k0_off1_inb L 24) _)) $$ Hi24
  ihave Hx := (Entails.of_eq (pts_x (F := F) d L _ _)) $$ Hx
  isplitl [Hi0 Hi1 Hi2 Hi3 Hi4 Hi5 Hi6 Hi7 Hi8 Hi9 Hi10 Hi11 Hi12 Hi13 Hi14 Hi15 Hi16 Hi17 Hi18 Hi19 Hi20 Hi21 Hi22 Hi23 Hi24 Hx Ho0 Ho1 Ho2 Ho3 Ho4 Ho5 Ho6 Ho7 Ho8 Ho9 Ho10 Ho11 Ho12 Ho13 Ho14 Ho15 Ho16 Ho17 Ho18 Ho19 Ho20 Ho21 Ho22 Ho23 Ho24]
  · skip
    isplitl [Hi0 Hi1 Hi2 Hi3 Hi4 Hi5 Hi6 Hi7 Hi8 Hi9 Hi10 Hi11 Hi12 Hi13 Hi14 Hi15 Hi16 Hi17 Hi18 Hi19 Hi20 Hi21 Hi22 Hi23 Hi24]
    · skip
      isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      isplitl [Hi7]; · iexact Hi7
      isplitl [Hi8]; · iexact Hi8
      isplitl [Hi9]; · iexact Hi9
      isplitl [Hi10]; · iexact Hi10
      isplitl [Hi11]; · iexact Hi11
      isplitl [Hi12]; · iexact Hi12
      isplitl [Hi13]; · iexact Hi13
      isplitl [Hi14]; · iexact Hi14
      isplitl [Hi15]; · iexact Hi15
      isplitl [Hi16]; · iexact Hi16
      isplitl [Hi17]; · iexact Hi17
      isplitl [Hi18]; · iexact Hi18
      isplitl [Hi19]; · iexact Hi19
      isplitl [Hi20]; · iexact Hi20
      isplitl [Hi21]; · iexact Hi21
      isplitl [Hi22]; · iexact Hi22
      isplitl [Hi23]; · iexact Hi23
      iexact Hi24
    isplitl [Hx]; · iexact Hx
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Ho16]; · iexact Ho16
    isplitl [Ho17]; · iexact Ho17
    isplitl [Ho18]; · iexact Ho18
    isplitl [Ho19]; · iexact Ho19
    isplitl [Ho20]; · iexact Ho20
    isplitl [Ho21]; · iexact Ho21
    isplitl [Ho22]; · iexact Ho22
    isplitl [Ho23]; · iexact Ho23
    iexact Ho24
  isplitl [Hl0 Hl1 Hb Hbufs]
  · isplitl [Hl0]; · iexact Hl0
    isplitl [Hl1]; · iexact Hl1
    isplitl [Hb]; · iexact Hb
    iexact Hbufs
  isplitl [HsI0 HsI1 HsG0 HsG1 HsO0 HsO1 Hsems]
  · isplitl [HsI0]; · iexact HsI0
    isplitl [HsI1]; · iexact HsI1
    isplitl [HsG0]; · iexact HsG0
    isplitl [HsG1]; · iexact HsG1
    isplitl [HsO0]; · iexact HsO0
    isplitl [HsO1]; · iexact HsO1
    iexact Hsems
  iexact HO

end Cert.Proof.KB

end
-- ==== Proof.ObligKB.lean ====
import proofs.«218878_g9363028706246_cont_9to1c4b_116_21_alg».proof.Proof.SetupKB
import proofs.«218878_g9363028706246_cont_9to1c4b_116_21_alg».proof.Proof.TileKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

/-! ## The launch theorem's obligation for a subcore's task -/

theorem defs₀_vector (c : Fin τ.nSC) (s : Fin τ.nSub) :
    defs₀ (F := F) (.scVector c s) 0 ()
      = SparseCore.onTile hcore0 hsub0 (fun c s => cc0__gather (coordsV c s)
          xV (Memref.isWhole_whole _) iV (Memref.isWhole_whole _) oV (Memref.isWhole_whole _)
          l0V (Memref.isWhole_whole _) l1V (Memref.isWhole_whole _) bV (Memref.isWhole_whole _) cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
theorem tileObl (hF : (K (F := F)).Facts) (hpre : ∀ d j, (idxT m d j).toNat ≤ 100000) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hpre d) _ O W hO).trans (wp_mono frame _ _ fun _ => obl_post)

end Cert.Proof.KB

end
-- ==== Proof.WinTileKB.lean ====
/-
  The 800 windows tile the arrays. Window v = core + 2·subcore + 32·round is row v / 16, column block v % 16, so
  an index (i, k, …) lies in exactly the window v = 16·i + k / 256; and v determines its core v % 2, its subcore
  (v % 32) / 2 and its round v / 32.
-/
import proofs.«218878_g9363028706246_cont_9to1c4b_116_21_alg».proof.Proof.WinMemKB

namespace Cert.Proof.KB

open Cert.Kernel Cert.Kernel.Gen
open Idealize.ShloMosaic

theorem winNo_coordsV (c : Fin 2) (s : Fin 16) (r : Fin 25) :
    winNo (coordsV c s) r = 2 * s.val + c.val + 32 * r.val := rfl

/-- The window number determines the worker and the round. -/
theorem winNo_inj (a b : Fin 2 × Fin 16 × Fin 25)
    (h : winNo (coordsV a.1 a.2.1) a.2.2 = winNo (coordsV b.1 b.2.1) b.2.2) : a = b := by
  obtain ⟨c, s, r⟩ := a
  obtain ⟨c', s', r'⟩ := b
  simp only [winNo_coordsV] at h
  have hc := c.isLt
  have hc' := c'.isLt
  have hs := s.isLt
  have hs' := s'.isLt
  have e1 : c = c' := Fin.ext (by omega)
  have e2 : s = s' := Fin.ext (by omega)
  have e3 : r = r' := Fin.ext (by omega)
  rw [e1, e2, e3]

/-- The window holding row `i`, column `k`: number 16·i + k / 256, as (core, subcore, round). -/
def winOf (i k : ℕ) (hi : i < 50) (hk : k < 4096) : Fin 2 × Fin 16 × Fin 25 :=
  (⟨(16 * i + k / 256) % 2, by omega⟩, ⟨(16 * i + k / 256) % 32 / 2, by omega⟩, ⟨(16 * i + k / 256) / 32, by omega⟩)

theorem winNo_winOf (i k : ℕ) (hi : i < 50) (hk : k < 4096) :
    winNo (coordsV (winOf i k hi hk).1 (winOf i k hi hk).2.1) (winOf i k hi hk).2.2 = 16 * i + k / 256 := by
  rw [winNo_coordsV]
  show 2 * ((16 * i + k / 256) % 32 / 2) + (16 * i + k / 256) % 2 + 32 * ((16 * i + k / 256) / 32) = _
  omega

theorem iSetR_disjoint : ∀ a b : Fin 2 × Fin 16 × Fin 25, a ≠ b →
    Disjoint (iSetR (coordsV a.1 a.2.1) a.2.2) (iSetR (coordsV b.1 b.2.1) b.2.2) := by
  intro a b hab
  refine Finset.disjoint_left.mpr fun j hj hj' => hab (winNo_inj a b ?_)
  rw [mem_iSetR] at hj hj'
  omega

theorem oSetR_disjoint : ∀ a b : Fin 2 × Fin 16 × Fin 25, a ≠ b →
    Disjoint (oSetR (coordsV a.1 a.2.1) a.2.2) (oSetR (coordsV b.1 b.2.1) b.2.2) := by
  intro a b hab
  refine Finset.disjoint_left.mpr fun j hj hj' => hab (winNo_inj a b ?_)
  rw [mem_oSetR] at hj hj'
  omega

theorem iSetR_cover : (Finset.univ : Finset (Fin 2 × Fin 16 × Fin 25)).biUnion
    (fun a => iSetR (coordsV a.1 a.2.1) a.2.2) = Finset.univ := by
  refine Finset.eq_univ_iff_forall.mpr fun j => ?_
  have h0 : (j 0).val < 50 := (j 0).isLt
  have h1 : (j 1).val < 4096 := (j 1).isLt
  refine Finset.mem_biUnion.mpr ⟨winOf (j 0).val (j 1).val h0 h1, Finset.mem_univ _, ?_⟩
  rw [mem_iSetR, winNo_winOf]
  omega

theorem oSetR_cover : (Finset.univ : Finset (Fin 2 × Fin 16 × Fin 25)).biUnion
    (fun a => oSetR (coordsV a.1 a.2.1) a.2.2) = Finset.univ := by
  refine Finset.eq_univ_iff_forall.mpr fun j => ?_
  have h0 : (j 0).val < 50 := (j 0).isLt
  have h1 : (j 1).val < 4096 := (j 1).isLt
  refine Finset.mem_biUnion.mpr ⟨winOf (j 0).val (j 1).val h0 h1, Finset.mem_univ _, ?_⟩
  rw [mem_oSetR, winNo_winOf]
  omega

end Cert.Proof.KB
-- ==== Proof.LaunchKB.lean ====
import proofs.«218878_g9363028706246_cont_9to1c4b_116_21_alg».proof.Proof.SetupKB
import proofs.«218878_g9363028706246_cont_9to1c4b_116_21_alg».proof.Proof.PayKB
import proofs.«218878_g9363028706246_cont_9to1c4b_116_21_alg».proof.Proof.WinTileKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)

variable [FloatOps F]

/-! ## How a SparseCore's windows and share split among its sixteen subcores -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stFor m d (Fin.cast nCore_zero c) ⊢ |={Set.univ}=> iprop(
      (bigSep Finset.univ fun i : Fin ((K (F := F)).nSub 0) =>
        goFor m d (coordsV (Fin.cast nCore_zero c) (Fin.cast nSub_zero i)) (xq (Fin.cast nCore_zero c) (Fin.cast nSub_zero i)))
      ∗ ((bigSep Finset.univ fun i : Fin ((K (F := F)).nSub 0) =>
          tdFor m d (coordsV (Fin.cast nCore_zero c) (Fin.cast nSub_zero i)) (xq (Fin.cast nCore_zero c) (Fin.cast nSub_zero i)))
          -∗ dnFor m d (Fin.cast nCore_zero c)))
  unfold stFor dnFor goFor tdFor
  rw [bigSep_sep', bigSep_sep', bigSep_sep', bigSep_sep']
  iintro ⟨Hi, Hx, Ho⟩
  ihave Hx' := (Transfers.pointsTo_toks_split (xqC (Fin.cast nCore_zero c)) ((K (F := F)).nSub 0)) $$ Hx
  icases Hx' with ⟨Hxr, Hxs⟩
  imodintro
  isplitl [Hi Hxs Ho]
  · isplitl [Hi]; · iexact Hi
    isplitl [Hxs]; · iexact Hxs
    iexact Ho
  iintro ⟨Hi, Hxs, Ho⟩
  isplitl [Hi]; · iexact Hi
  isplitl [Hxr Hxs]
  · iapply (Transfers.pointsTo_toks_join (xqC (Fin.cast nCore_zero c)) ((K (F := F)).nSub 0)); isplitl [Hxr]
    · iexact Hxr
    · iexact Hxs
  iexact Ho

/-! ## The launch element: the handshakes' rounds; the transfers' counters start empty -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays as their 800 windows -/

omit [FloatOps F] in
set_option maxHeartbeats 2000000 in
theorem iPts_windows (d : Dev nD) (f : Buf (Elt F) (iLoc d)) :
    (iLoc d ↦{fullShare} f : sProp 𝕄) = bigSep Finset.univ fun c : Fin 2 => bigSep Finset.univ fun s : Fin 16 =>
      bigSep Finset.univ fun r : Fin 25 => iLoc d ↦[iSetR (coordsV c s) r]{fullShare} f := by
  have e : (bigSep Finset.univ fun c : Fin 2 => bigSep Finset.univ fun s : Fin 16 =>
      bigSep Finset.univ fun r : Fin 25 => (iLoc d ↦[iSetR (coordsV c s) r]{fullShare} f : sProp 𝕄))
      = bigSep Finset.univ fun a : Fin 2 × Fin 16 × Fin 25 => iLoc d ↦[iSetR (coordsV a.1 a.2.1) a.2.2]{fullShare} f := by
    rw [bigSep_univ_prod]
    refine bigSep_congr fun c _ => ?_
    rw [bigSep_univ_prod]
  rw [e, ← pointsTo_biUnion (Finset.univ : Finset (Fin 2 × Fin 16 × Fin 25)) (ℓ := iLoc d) (fun a => iSetR (coordsV a.1 a.2.1) a.2.2)
    (fun a _ b _ hab => iSetR_disjoint a b hab), iSetR_cover]

omit [FloatOps F] in
set_option maxHeartbeats 2000000 in
theorem oPts_windows (d : Dev nD) (f : Buf (Elt F) (oLoc d)) :
    (oLoc d ↦{fullShare} f : sProp 𝕄) = bigSep Finset.univ fun c : Fin 2 => bigSep Finset.univ fun s : Fin 16 =>
      bigSep Finset.univ fun r : Fin 25 => oLoc d ↦[oSetR (coordsV c s) r]{fullShare} f := by
  have e : (bigSep Finset.univ fun c : Fin 2 => bigSep Finset.univ fun s : Fin 16 =>
      bigSep Finset.univ fun r : Fin 25 => (oLoc d ↦[oSetR (coordsV c s) r]{fullShare} f : sProp 𝕄))
      = bigSep Finset.univ fun a : Fin 2 × Fin 16 × Fin 25 => oLoc d ↦[oSetR (coordsV a.1 a.2.1) a.2.2]{fullShare} f := by
    rw [bigSep_univ_prod]
    refine bigSep_congr fun c _ => ?_
    rw [bigSep_univ_prod]
  rw [e, ← pointsTo_biUnion (Finset.univ : Finset (Fin 2 × Fin 16 × Fin 25)) (ℓ := oLoc d) (fun a => oSetR (coordsV a.1 a.2.1) a.2.2)
    (fun a _ b _ hab => oSetR_disjoint a b hab), oSetR_cover]

omit [FloatOps F] in
theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

end Cert.Proof.KB

end
-- ==== Proof.MainKB.lean ====
/-
  The program's entry function on the TensorCore, and the run of the whole program from the subcores' obligation.

  The entry function transposes the index array, starts the two SparseCores on the transposed indices, the table and
  the output array and waits for them, then transposes the output into the result. Around the call the transposed
  indices and the output are cut into their 800 windows, half to each SparseCore, and the table is lent as two read
  shares; what comes back is the same with the output's windows filled. The index array, the table and the result are
  kept to the end: the first two at their launch contents, the result at the transposed gathered rows.
-/
import proofs.«218878_g9363028706246_cont_9to1c4b_116_21_alg».proof.Proof.SetupKB
import proofs.«218878_g9363028706246_cont_9to1c4b_116_21_alg».proof.Proof.PayKB
import proofs.«218878_g9363028706246_cont_9to1c4b_116_21_alg».proof.Proof.WinTileKB
import proofs.«218878_g9363028706246_cont_9to1c4b_116_21_alg».proof.Proof.LaunchKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)

variable [FloatOps F]

/-! ## The TensorCore's five arrays and the two transpositions -/

abbrev a' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The index array transposed into the kernel's operand. -/
abbrev opT1 : HloOp τ sig (Elt F) :=
  StableHlo.unary main_arg0 main_v0 ((transpose S50x4096 [1, 0] · transposes_S4096x50_S50x4096_1_0) :
    (⟨S4096x50, .i32⟩ : BufTy).Contents (Elt F) → (⟨S50x4096, .i32⟩ : BufTy).Contents (Elt F))
/-- The kernel's output transposed into the result. -/
abbrev opT2 : HloOp τ sig (Elt F) :=
  StableHlo.unary main_v1 main_v2 ((transpose S4096x50x128 [1, 0, 2] · transposes_S50x4096x128_S4096x50x128_1_0_2) :
    (⟨S50x4096x128, .f32⟩ : BufTy).Contents (Elt F) → (⟨S4096x50x128, .f32⟩ : BufTy).Contents (Elt F))

/-- The five arrays, all unscoped; and the two the second transposition touches. -/
abbrev S5 : Finset (DevRef τ sig) := {a', x', i', o', r'}
abbrev S2o : Finset (DevRef τ sig) := {o', r'}

theorem held_S5 (d : Dev nD) (W : Valuation τ sig (Elt F)) :
    (held (T d) S5 W : sProp 𝕄) = iprop((aLoc d ↦{fullShare} W a') ∗ (xLoc d ↦{fullShare} W x') ∗ (iLoc d ↦{fullShare} W i')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

theorem held_S2o (d : Dev nD) (W : Valuation τ sig (Elt F)) :
    (held (T d) S2o W : sProp 𝕄) = iprop((oLoc d ↦{fullShare} W o') ∗ rLoc d ↦{fullShare} W r') := by
  unfold held S2o
  rw [SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (iLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the call, the output array at the gathered rows. -/
def V0 (d : Dev nD) : Valuation τ sig (Elt F) := fun b => m (d, b)
def V1 (d : Dev nD) : Valuation τ sig (Elt F) := Function.update (V0 m d) o' (G1 m d)

theorem unscoped_held (d : Dev nD) : (unscopedBufs d (fun b => m ((SparseCore.T d).loc b)) : sProp 𝕄) = held (T d) S5 (V0 m d) := by
  rw [unscopedBufs_eq, held_S5]; rfl

theorem V1_o (d : Dev nD) : V1 m d o' = G1 m d := Function.update_self _ _ _
theorem V1_r (d : Dev nD) : V1 m d r' = m (rLoc d) := Function.update_of_ne (show r' ≠ o' by decide) _ _

theorem hT1 : (opT1 (F := F)).bufs ⊆ S5 := show ({a', i'} : Finset (DevRef τ sig)) ⊆ S5 by decide
theorem hT2 : (opT2 (F := F)).bufs ⊆ S2o := show ({o', r'} : Finset (DevRef τ sig)) ⊆ S2o by decide

/-- After the first transposition: the transposed indices in their array, the other four as launched. -/
theorem held_T1 (d : Dev nD) :
    (held (T d) S5 ((opT1 (F := F)).result (V0 m d)) : sProp 𝕄) = iprop((aLoc d ↦{fullShare} m (aLoc d)) ∗ (xLoc d ↦{fullShare} m (xLoc d))
      ∗ (iLoc d ↦{fullShare} idxT m d) ∗ (oLoc d ↦{fullShare} m (oLoc d)) ∗ rLoc d ↦{fullShare} m (rLoc d)) := by
  rw [held_S5,
    (opT1 (F := F)).result_of_not_mem (V0 m d) (b := a') (show a' ∉ ({i'} : Finset (DevRef τ sig)) by decide),
    (opT1 (F := F)).result_of_not_mem (V0 m d) (b := x') (show x' ∉ ({i'} : Finset (DevRef τ sig)) by decide),
    (opT1 (F := F)).result_of_not_mem (V0 m d) (b := o') (show o' ∉ ({i'} : Finset (DevRef τ sig)) by decide),
    (opT1 (F := F)).result_of_not_mem (V0 m d) (b := r') (show r' ∉ ({i'} : Finset (DevRef τ sig)) by decide),
    StableHlo.unary_result]
  rfl

/-- After the second transposition: the result array at the transposed gathered rows. -/
theorem held_T2 (d : Dev nD) :
    (held (T d) S2o ((opT2 (F := F)).result (V1 m d)) : sProp 𝕄) = iprop((oLoc d ↦{fullShare} G1 m d)
      ∗ rLoc d ↦{fullShare} (transpose S4096x50x128 [1, 0, 2] (G1 m d) transposes_S50x4096x128_S4096x50x128_1_0_2 :
          (⟨S4096x50x128, .f32⟩ : BufTy).Contents (Elt F))) := by
  rw [held_S2o,
    (opT2 (F := F)).result_of_not_mem (V1 m d) (b := o') (show o' ∉ ({r'} : Finset (DevRef τ sig)) by decide),
    StableHlo.unary_result, V1_o]

/-! ## The arrays cut for the two SparseCores -/

/-- A SparseCore's half of the windows of the transposed indices, and of the output. -/
abbrev iWins (d : Dev nD) (c : Fin 2) (f : Buf (Elt F) (iLoc d)) : sProp 𝕄 :=
  bigSep Finset.univ fun s : Fin 16 => bigSep Finset.univ fun r : Fin 25 => iLoc d ↦[iSetR (coordsV c s) r]{fullShare} f
abbrev oWins (d : Dev nD) (c : Fin 2) (f : Buf (Elt F) (oLoc d)) : sProp 𝕄 :=
  bigSep Finset.univ fun s : Fin 16 => bigSep Finset.univ fun r : Fin 25 => oLoc d ↦[oSetR (coordsV c s) r]{fullShare} f

theorem iPts_split (d : Dev nD) (f : Buf (Elt F) (iLoc d)) :
    (iLoc d ↦{fullShare} f : sProp 𝕄) = iprop(iWins d 0 f ∗ iWins d 1 f) := by
  rw [iPts_windows, bigSep_fin2]
theorem oPts_split (d : Dev nD) (f : Buf (Elt F) (oLoc d)) :
    (oLoc d ↦{fullShare} f : sProp 𝕄) = iprop(oWins d 0 f ∗ oWins d 1 f) := by
  rw [oPts_windows, bigSep_fin2]

/-- The table as a remainder and one read share per SparseCore, and back. -/
theorem xPts_split (d : Dev nD) (f : Buf (Elt F) (xLoc d)) :
    (xLoc d ↦{fullShare} f : sProp 𝕄)
      ⊢ iprop((xLoc d ↦{Transfers.shareDrop fullShare 2} f) ∗ (xLoc d ↦{xqC 0} f) ∗ xLoc d ↦{xqC 1} f) := by
  have h : (xLoc d ↦{fullShare} f : sProp 𝕄) ⊢ iprop((xLoc d ↦{Transfers.shareDrop fullShare 2} f)
      ∗ bigSep Finset.univ fun i : Fin 2 => xLoc d ↦{Transfers.shareTok fullShare 2 i} f) :=
    Transfers.pointsTo_toks_split fullShare 2
  rw [bigSep_fin2] at h
  exact h
theorem xPts_join (d : Dev nD) (f : Buf (Elt F) (xLoc d)) :
    iprop((xLoc d ↦{Transfers.shareDrop fullShare 2} f) ∗ (xLoc d ↦{xqC 0} f) ∗ xLoc d ↦{xqC 1} f)
      ⊢ (xLoc d ↦{fullShare} f : sProp 𝕄) := by
  iintro ⟨Hr, Hs⟩
  iapply (Transfers.pointsTo_toks_join fullShare 2)
  isplitl [Hr]; · iexact Hr
  rw [bigSep_fin2]
  iexact Hs

/-- What the call takes for the two SparseCores, and what it hands back. -/
theorem st0_eq (d : Dev nD) : (bigSep Finset.univ fun c : Fin ((K (F := F)).nCore 0) => (P m).st 0 d c)
    = iprop((iWins d 0 (idxT m d) ∗ (xLoc d ↦{xqC 0} m (xLoc d)) ∗ oWins d 0 (m (oLoc d)))
        ∗ (iWins d 1 (idxT m d) ∗ (xLoc d ↦{xqC 1} m (xLoc d)) ∗ oWins d 1 (m (oLoc d)))) := by
  show (bigSep (Finset.univ : Finset (Fin 2)) fun c => stFor m d c) = _
  rw [bigSep_fin2]
  rfl
theorem dn0_eq (d : Dev nD) : (bigSep Finset.univ fun c : Fin ((K (F := F)).nCore 0) => (P m).dn 0 d c)
    = iprop((iWins d 0 (idxT m d) ∗ (xLoc d ↦{xqC 0} m (xLoc d)) ∗ oWins d 0 (G1 m d))
        ∗ (iWins d 1 (idxT m d) ∗ (xLoc d ↦{xqC 1} m (xLoc d)) ∗ oWins d 1 (G1 m d))) := by
  show (bigSep (Finset.univ : Finset (Fin 2)) fun c => dnFor m d c) = _
  rw [bigSep_fin2]
  rfl

/-! ## The entry function -/

/-- What the entry function leaves the claim: the index array and the table as launched, the result at the
    transposed gathered rows. -/
abbrev FIN (d : Dev nD) : sProp 𝕄 :=
  iprop((aLoc d ↦{fullShare} m (aLoc d)) ∗ (xLoc d ↦{fullShare} m (xLoc d))
    ∗ rLoc d ↦{fullShare} (transpose S4096x50x128 [1, 0, 2] (G1 m d) transposes_S50x4096x128_S4096x50x128_1_0_2 :
        (⟨S4096x50x128, .f32⟩ : BufTy).Contents (Elt F)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transposition, over the five arrays
  iapply (wp_hlo_within 𝒱 (SparseCore.T d) none Set.univ (op := opT1) (S := S5) hT1 (V := V0 m d)) $$ [Hb Hheld]
  · isplitl [Hb]; · iexact Hb
    iexact Hheld
  iintro ⟨Hb, Hheld⟩
  ihave Hh := (Entails.of_eq (held_T1 (F := F) m d)) $$ Hheld
  icases Hh with ⟨Ha, Hx, Hi, Ho, Hr⟩
  rw [wp_ret]; imodintro
  -- the arrays cut for the two SparseCores
  ihave Hi' := (Entails.of_eq (iPts_split (F := F) d (idxT m d))) $$ Hi
  icases Hi' with ⟨Hi0, Hi1⟩
  ihave Ho' := (Entails.of_eq (oPts_split (F := F) d (m (oLoc d)))) $$ Ho
  icases Ho' with ⟨Ho0, Ho1⟩
  ihave Hx' := (xPts_split (F := F) d (m (xLoc d))) $$ Hx
  icases Hx' with ⟨Hxr, Hx0, Hx1⟩
  -- the call
  iapply ((K (F := F)).wp_run (D (F := F)) 𝒱 (EH := EH) (P := P m) κ d 0) $$ [Hst Hi0 Hi1 Hx0 Hx1 Ho0 Ho1 Hb Ha Hr Hxr]
  isplitr; · iexact Hctx
  isplitl [Hst]; · iexact Hst
  isplitl [Hi0 Hi1 Hx0 Hx1 Ho0 Ho1]
  · rw [st0_eq]
    isplitl [Hi0 Hx0 Ho0]
    · isplitl [Hi0]; · iexact Hi0
      isplitl [Hx0]; · iexact Hx0
      iexact Ho0
    · isplitl [Hi1]; · iexact Hi1
      isplitl [Hx1]; · iexact Hx1
      iexact Ho1
  iintro ⟨Hst, Hdn⟩
  ihave Hdn' := (Entails.of_eq (dn0_eq m d)) $$ Hdn
  icases Hdn' with ⟨⟨-, Hx0, Ho0⟩, ⟨-, Hx1, Ho1⟩⟩
  -- the second transposition, over the output and the result
  iapply (wp_hlo_within 𝒱 (SparseCore.T d) none Set.univ (op := opT2) (S := S2o) hT2 (V := V1 m d)) $$ [Hb Ho0 Ho1 Hr]
  · isplitl [Hb]; · iexact Hb
    rw [held_S2o, V1_o, V1_r, oPts_split]
    isplitl [Ho0 Ho1]
    · isplitl [Ho0]; · iexact Ho0
      iexact Ho1
    iexact Hr
  iintro ⟨Hb, Hheld⟩
  ihave Hh := (Entails.of_eq (held_T2 (F := F) m d)) $$ Hheld
  icases Hh with ⟨-, Hr⟩
  rw [wp_ret]; imodintro; imodintro
  isplitl [Hst]; · iexact Hst
  isplitl [Ha]; · iexact Ha
  isplitl [Hxr Hx0 Hx1]
  · iapply (xPts_join (F := F) d (m (xLoc d)))
    isplitl [Hxr]; · iexact Hxr
    isplitl [Hx0]; · iexact Hx0
    iexact Hx1
  iexact Hr

/-! ## The final memory read against the claim -/

def fq (d : Dev nD) (s' : Phys nD τ sig (Elt F)) : Prop :=
  s'.mem.mem (rLoc d) = (transpose S4096x50x128 [1, 0, 2] (G1 m d) transposes_S50x4096x128_S4096x50x128_1_0_2 :
      (⟨S4096x50x128, .f32⟩ : BufTy).Contents (Elt F))
    ∧ s'.mem.mem (aLoc d) = m (aLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Ha, Hx, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare)
    (f := (transpose S4096x50x128 [1, 0, 2] (G1 m d) transposes_S50x4096x128_S4096x50x128_1_0_2 :
      (⟨S4096x50x128, .f32⟩ : BufTy).Contents (Elt F)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run, from the subcores' obligation -/

def QC : PUnit × MemSt nD τ sig (Elt F) → Prop := fun r => ∀ c : Dev nD,
  r.2.mem (rLoc c) = (transpose S4096x50x128 [1, 0, 2] (G1 m c) transposes_S50x4096x128_S4096x50x128_1_0_2 :
      (⟨S4096x50x128, .f32⟩ : BufTy).Contents (Elt F))
    ∧ r.2.mem (aLoc c) = m (aLoc c) ∧ r.2.mem (xLoc c) = m (xLoc c)

theorem run_of_tile [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.WinResultKB.lean ====
/-
  The program's two transposes around the kernel. The index array is transposed before the kernel reads it, and the
  kernel's output is transposed back: entry (b, s, e) of the result is the kernel's output at (s, b, e), which is
  lane e of the table's row named by the transposed indices at (s, b), that is by the given indices at (b, s).
-/
import proofs.«218878_g9363028706246_cont_9to1c4b_116_21_alg».proof.Proof.PayKB
import proofs.«218878_g9363028706246_cont_9to1c4b_116_21_alg».proof.Proof.Spec
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.ValueIdx (ix2 ix3)

variable [FloatOps F]

/-- The transposed indices are the given ones in another order: a bound on all of these is one on all of those. -/
theorem idxT_le (m : (ℓ : Loc nD τ sig) → Buf (Elt F) ℓ) (d : Dev nD) (h : ∀ j, (m (aLoc d) j).toNat ≤ 100000) :
    ∀ j, (idxT m d j).toNat ≤ 100000 :=
  fun j => h (Shape.Transposes.src transposes_S4096x50_S50x4096_1_0 j)

/-- The kernel's output transposed back is the lookup. -/
theorem result_eq (m : (ℓ : Loc nD τ sig) → Buf (Elt F) ℓ) (d : Dev nD) :
    (transpose S4096x50x128 [1, 0, 2] (G1 m d) transposes_S50x4096x128_S4096x50x128_1_0_2
        : (⟨S4096x50x128, .f32⟩ : BufTy).Contents (Elt F))
      = Spec.lookup (m (aLoc d)) (m (xLoc d)) := by
  funext j
  have e1 : transpose S4096x50x128 [1, 0, 2] (G1 m d) transposes_S50x4096x128_S4096x50x128_1_0_2 j
      = G1 m d (ix3 (n0 := 50) (n1 := 4096) (n2 := 128) (j 1) (j 0) (j 2)) :=
    transpose_apply _ _ _ _ _ fun b => match b with | ⟨0, _⟩ => rfl | ⟨1, _⟩ => rfl | ⟨2, _⟩ => rfl
  have e2 : idxT m d (ix2 (n0 := 50) (n1 := 4096) (j 1) (j 0))
      = m (aLoc d) (ix2 (n0 := 4096) (n1 := 50) (j 0) (j 1)) :=
    transpose_apply _ _ _ _ _ fun b => match b with | ⟨0, _⟩ => rfl | ⟨1, _⟩ => rfl
  rw [e1]
  show m (xLoc d) (ix2 (n0 := 100001) (n1 := 128) (Spec.rowOf (idxT m d (ix2 (n0 := 50) (n1 := 4096) (j 1) (j 0)))) (j 2))
    = m (xLoc d) (ix2 (n0 := 100001) (n1 := 128) (Spec.rowOf (m (aLoc d) (ix2 (n0 := 4096) (n1 := 50) (j 0) (j 1)))) (j 2))
  rw [e2]

end Cert.Proof.KB

end
-- ==== Proof.FinalKB.lean ====
import proofs.«218878_g9363028706246_cont_9to1c4b_116_21_alg».proof.Proof.SetupKB
import proofs.«218878_g9363028706246_cont_9to1c4b_116_21_alg».proof.Proof.ObligKB
import proofs.«218878_g9363028706246_cont_9to1c4b_116_21_alg».proof.Proof.MainKB
import proofs.«218878_g9363028706246_cont_9to1c4b_116_21_alg».proof.Proof.WinResultKB
import proofs.«218878_g9363028706246_cont_9to1c4b_116_21_alg».proof.Proof.RefPre

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-- What the proof asks of the launch memory: every index word lies in 0 … 100000, so names a row of the table. -/
def PreOK : Prop := ∀ (d : Dev nD) (j : S4096x50.Idx), (m (aLoc d) j).toNat ≤ 100000

/-- The program's run: it ends with the result array holding the lookup of the two arguments, which are unchanged. -/
theorem run_main [∀ e, Nonempty (Elt F e)] (hpre : PreOK m) :
    θ_run (defs (F := F)) (threads (F := F)) ⟨m, fun _ => 0, ρ⟩
      (fun r => ∀ c : Dev nD, r.2.mem (rLoc c) = Spec.lookup (m (aLoc c)) (m (xLoc c))
        ∧ r.2.mem (aLoc c) = m (aLoc c) ∧ r.2.mem (xLoc c) = m (xLoc c)) :=
  (θ_run (defs (F := F)) _ _).mono (fun _ h c => ⟨(h c).1.trans (result_eq m c), (h c).2⟩)
    (run_of_tile m ρ (tileObl m facts (fun d => idxT_le m d (hpre d))))

omit [FloatOps F] in
/-- The stated precondition gives it: the integer half of the input domain bounds every index word. -/
theorem ok_of_pre [FloatOps F]
    (h : ∀ c : Dev nD, Cert.Pre_input_domain.fn (F := F) (m ((c.tc : Thread nD τ).loc main_arg0)) (m ((c.tc : Thread nD τ).loc main_arg1)) = fun _ => 1#1) :
    PreOK m := fun d j => (Cert.Proof.Ref.ids_le _ _ (h d) j).2

end Cert.Proof.KB

end
-- ==== Proof.RefRun.lean ====
/-
  The reference program's run. Its entry function calls the row lookup, which calls the three-way choice: with the two
  calls unfolded it is a straight line of twenty-three host operations over the buffers of the call records. Every
  weakly fair execution terminates; the result buffer ends at the operations' composed term `out` of the two
  arguments' launch contents, and the arguments are unchanged. The stages of that term are named here, generic in the
  float instance:

    wrapped  ids      : a negative index has the table's row count 100001 added (the numpy convention), any other is kept
    starts   ids      : the same words with a trailing axis of extent one, the start indices of the gather
    inBounds ids      : per index, whether the start lies in 0 … 100000
    rows     ids tab  : the gather of rows of the table at the starts (each start clamped into the table)
    out      ids tab  : the gathered value where the start was in bounds, the quiet not-a-number elsewhere
-/
import proofs.«218878_g9363028706246_cont_9to1c4b_116_21_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The index words after the wrap of negative ones. -/
def wrapped (ids : IVec S4096x50 32) : IVec S4096x50 32 :=
  select (cmpi .slt ids (broadcastInDim S4096x50 ![] bcast_S_S4096x50 (constantI S_ 32 0#32)))
    (addi ids (broadcastInDim S4096x50 ![] bcast_S_S4096x50 (constantI S_ 32 100001#32))) ids

/-- The start indices of the gather: the wrapped words under a trailing axis of extent one. -/
def starts (ids : IVec S4096x50 32) : IVec S4096x50x1 32 :=
  broadcastInDim S4096x50x1 ![0, 1] bcast_S4096x50_S4096x50x1_0_1 (wrapped ids)

/-- Per index: is the start at least 0 and at most 100000 (signed)? -/
def inBounds (ids : IVec S4096x50 32) : IVec S4096x50 1 :=
  Host.reduce IntOp.andi
    (andi (cmpi .sge (starts ids) (broadcastInDim S4096x50x1 ![] bcast_S_S4096x50x1 (constantI S_ 32 0#32)))
      (cmpi .sle (starts ids) (broadcastInDim S4096x50x1 ![0, 1, 2] bcast_S1x1x1_S4096x50x1_0_1_2
        (broadcastInDim S1x1x1 ![2] bcast_S1_S1x1x1_2 (constantI S1 32 100000#32)))))
    (constantI S_ 1 1#1) reducesTo_S4096x50x1_S4096x50_d2 h_S_

/-- The rows of the table at the starts. -/
def rows (ids : IVec S4096x50 32) (tab : FVec F S100001x128 .f32) : FVec F S4096x50x128 .f32 :=
  Host.gather gather_S100001x128_S4096x50x1_S4096x50x128_2_0_n_n_0_2_1128 tab (starts ids)

/-- The reference's result as a function of its two arguments. -/
def out (ids : IVec S4096x50 32) (tab : FVec F S100001x128 .f32) : FVec F S4096x50x128 .f32 :=
  select (broadcastInDim S4096x50x128 ![0, 1] bcast_S4096x50_S4096x50x128_0_1 (inBounds ids)) (rows ids tab)
    (broadcastInDim S4096x50x128 ![] bcast_S_S4096x50x128 (constant S_ .f32 0x7FC00000#32))

/-! ## The program as a straight line -/

/-- The entry function's operations in order, the two calls unfolded: the lookup's six operations before its call of
    the choice, the choice's one (a select into the record of that call), the lookup's sixteen after it. The lookup is
    called with the table first and the index array second. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 100001#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 100000#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S100001x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select ]

set_option maxRecDepth 1024 in
/-- The entry function is that line: the two functions' definitions unfolded at their calls, both sides are one chain
    of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters: every weakly fair execution of the entry function terminates, and every
    buffer ends at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the three buffers of the statement -/

attribute [local irreducible] Host.reduce Host.gather in
/-- The fold at the result buffer is `out` of the arguments' contents: each operation's result read at its own
    buffer, the typed references' transports the identity at these literal references. The reduction and the gather
    are kept folded meanwhile (the equation never looks inside them). -/
theorem out_eq (V : Valuation τ sig (Elt F)) :
    after ops V (main_v0 : DevRef τ sig) = out (V (main_arg0 : DevRef τ sig)) (V (main_arg1 : DevRef τ sig)) := by
  unfold out rows inBounds starts wrapped
  after_results
  rfl

/-- No operation writes the index array. -/
theorem arg0_eq (V : Valuation τ sig (Elt F)) : after ops V (main_arg0 : DevRef τ sig) = V (main_arg0 : DevRef τ sig) := by
  simp only [after_cons, after_nil]
  rfl

/-- No operation writes the table. -/
theorem arg1_eq (V : Valuation τ sig (Elt F)) : after ops V (main_arg1 : DevRef τ sig) = V (main_arg1 : DevRef τ sig) := by
  simp only [after_cons, after_nil]
  rfl

/-- The run, read at the result and the two arguments. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_all m ρ)

end Cert.Proof.Ref

end
-- ==== Proof.RefFrame.lean ====
/-
  The reference runs and leaves its two arguments as they were: the run of RefRun with the result's value dropped. The
  stated precondition is not needed for it.
-/
import proofs.«218878_g9363028706246_cont_9to1c4b_116_21_alg».proof.Defs
import proofs.«218878_g9363028706246_cont_9to1c4b_116_21_alg».proof.Proof.Gen.Pre_input_domain
import proofs.«218878_g9363028706246_cont_9to1c4b_116_21_alg».proof.Proof.RefRun

noncomputable section

namespace Cert.Proof.Ref

open Idealize.ShloMosaic Idealize.SL.Sem

theorem frame : Cert.frame_ReferenceIdeal := fun m g _ =>
  (θ_run (Cert.ReferenceIdeal.defs (F := Ideal)) _ _).mono (fun _ h c => (h c).2) (run_out (F := Ideal) m g)

end Cert.Proof.Ref

end
-- ==== Proof.RefRead.lean ====
/-
  The stages of the reference's result, read at an index, for every float instance.

  Under "every index word lies in 0 … 100000 (signed)": the wrap keeps the word, so the start index at (b, s, 0) is
  the word at (b, s); every in-bounds bit is 1; and the gather at (b, s, e) reads the table at row "start clamped into
  0 … 100000", column e.
-/
import proofs.«218878_g9363028706246_cont_9to1c4b_116_21_alg».proof.Proof.RefRun
import Idealize.ShloMosaic.Lib.ValueIdx
import Idealize.ShloMosaic.Lib.ReduceAll
import Idealize.ShloMosaic.PureOps.Reduce

noncomputable section

namespace Cert.Proof.Ref

open Cert.ReferenceIdeal Cert.ReferenceIdeal.Gen Idealize.ShloMosaic Idealize.ShloMosaic.ValueIdx

variable {F : FTy → Type} [FloatOps F]

/-! ## Words -/

/-- A word that is nonnegative when read signed reads the same unsigned. -/
theorem toInt_toNat_of_nonneg {w : BitVec 32} (h : 0 ≤ w.toInt) : w.toInt.toNat = w.toNat := by
  have hlt : 2 * w.toNat < 2 ^ 32 := BitVec.toInt_pos_iff.1 h
  rw [BitVec.toInt_eq_toNat_of_lt hlt]
  exact Int.toNat_natCast _

/-- A left fold by `and` from 1 over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_ones x hx l

/-- A reduction by `and` from 1 of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-! ## The stages at an index -/

/-- The wrap keeps a nonnegative word. -/
theorem wrapped_apply (ids : IVec S4096x50 32) (k : S4096x50.Idx) (h0 : 0 ≤ (ids k).toInt) : wrapped ids k = ids k := by
  have hc : ¬IntOp.cmpi .slt (ids k) 0#32 = 1#1 := by
    rw [IntOp.cmpi_slt]
    have e0 : (0#32 : BitVec 32).toInt = 0 := by decide
    omega
  show Scalar.select (IntOp.cmpi .slt (ids k) 0#32) _ (ids k) = ids k
  rw [eq_zero_of_ne_one hc]
  exact select_zero _ _

/-- The start index at (b, s, 0) is the wrapped word at (b, s). -/
theorem starts_apply (ids : IVec S4096x50 32) (j : S4096x50x1.Idx) : starts ids j = wrapped ids (ix2 (j 0) (j 1)) := by
  unfold starts broadcastInDim
  refine congrArg (wrapped ids) (funext fun a => ?_)
  match a with
  | ⟨0, _⟩ => rfl
  | ⟨1, _⟩ => rfl

/-- With every word in range, every in-bounds bit is 1. -/
theorem inBounds_eq_one (ids : IVec S4096x50 32) (hle : ∀ k, 0 ≤ (ids k).toInt ∧ (ids k).toNat ≤ 100000) (k : S4096x50.Idx) :
    inBounds ids k = 1#1 := by
  unfold inBounds
  refine reduce_andi_ones _ _ _ _ (fun i => ?_) (fun _ => rfl) k
  show IntOp.andi (IntOp.cmpi .sge (starts ids i) 0#32) (IntOp.cmpi .sle (starts ids i) 100000#32) = 1#1
  obtain ⟨h0, h1⟩ := hle (ix2 (i 0) (i 1))
  rw [starts_apply, wrapped_apply _ _ h0]
  have e0 : (0#32 : BitVec 32).toInt = 0 := by decide
  have e1 : (100000#32 : BitVec 32).toInt = 100000 := by decide
  have hlt : 2 * (ids (ix2 (i 0) (i 1))).toNat < 2 ^ 32 := BitVec.toInt_pos_iff.1 h0
  have e2 := BitVec.toInt_eq_toNat_of_lt hlt
  refine IntOp.andi_eq_one.2 ⟨IntOp.cmpi_sge.2 ?_, IntOp.cmpi_sle.2 ?_⟩
  · rw [e0]; exact h0
  · rw [e1, e2]; omega

/-- The gather at (b, s, e): the table at the row "start index read signed, clamped into 0 … 100000", column e. -/
theorem rows_apply (ids : IVec S4096x50 32) (tab : FVec F S100001x128 .f32) (j : S4096x50x128.Idx) :
    rows ids tab j
      = tab (ix2 (n0 := 100001) (n1 := 128)
          ⟨min (starts ids (ix3 (n2 := 1) (j 0) (j 1) 0)).toInt.toNat 100000, by omega⟩ (j 2)) := by
  unfold rows Host.gather
  refine congrArg tab (funext fun a => Fin.ext ?_)
  match a with
  | ⟨0, _⟩ =>
    show GatherDims.start gather_S100001x128_S4096x50x1_S4096x50x128_2_0_n_n_0_2_1128 j (starts ids) 0
        + GatherDims.batchCoord gather_S100001x128_S4096x50x1_S4096x50x128_2_0_n_n_0_2_1128 j 0
        + GatherDims.offCoord gather_S100001x128_S4096x50x1_S4096x50x128_2_0_n_n_0_2_1128 j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S100001x128_S4096x50x1_S4096x50x128_2_0_n_n_0_2_1128).startIndexMap from List.mem_singleton.mpr rfl)]
    have hsi : (gather_S100001x128_S4096x50x1_S4096x50x128_2_0_n_n_0_2_1128).siIdx j
        ⟨List.idxOf (0 : Fin 2) (gather_S100001x128_S4096x50x1_S4096x50x128_2_0_n_n_0_2_1128).startIndexMap,
          List.idxOf_lt_length_iff.2 (List.mem_singleton.mpr rfl)⟩ = ix3 (n2 := 1) (j 0) (j 1) 0 := by
      funext b; refine Fin.ext ?_
      match b with
      | ⟨0, _⟩ => rfl
      | ⟨1, _⟩ => rfl
      | ⟨2, _⟩ => rfl
    rw [hsi]
    rfl
  | ⟨1, _⟩ =>
    show GatherDims.start gather_S100001x128_S4096x50x1_S4096x50x128_2_0_n_n_0_2_1128 j (starts ids) 1
        + GatherDims.batchCoord gather_S100001x128_S4096x50x1_S4096x50x128_2_0_n_n_0_2_1128 j 1
        + GatherDims.offCoord gather_S100001x128_S4096x50x1_S4096x50x128_2_0_n_n_0_2_1128 j 1 = (j 2).val
    rw [GatherDims.batchCoord_eq_zero _ _ _ List.not_mem_nil]
    unfold GatherDims.start
    rw [dif_neg (show (1 : Fin 2) ∉ (gather_S100001x128_S4096x50x1_S4096x50x128_2_0_n_n_0_2_1128).startIndexMap from by decide)]
    unfold GatherDims.offCoord
    rw [dif_pos (show (1 : Fin 2) ∈ (gather_S100001x128_S4096x50x1_S4096x50x128_2_0_n_n_0_2_1128).sKept from by decide)]
    simp only [Nat.zero_add, Nat.add_zero]
    rfl

end Cert.Proof.Ref

end
-- ==== Proof.RefValue.lean ====
/-
  The reference computes the lookup. Under the stated precondition every index word lies in 0 … 100000, so: the wrap
  of negative indices is the identity, every in-bounds bit is 1 and the final choice keeps the gathered value, and the
  gather's clamp of the start index into the table is the clamp the lookup itself applies. Hence the reference's
  result at (b, s, e) is the table's entry e of row ids[b, s].
-/
import proofs.«218878_g9363028706246_cont_9to1c4b_116_21_alg».proof.Defs
import proofs.«218878_g9363028706246_cont_9to1c4b_116_21_alg».proof.Proof.Spec
import proofs.«218878_g9363028706246_cont_9to1c4b_116_21_alg».proof.Proof.RefPre
import proofs.«218878_g9363028706246_cont_9to1c4b_116_21_alg».proof.Proof.RefRead

noncomputable section

namespace Cert.Proof.Ref

open Cert.ReferenceIdeal Cert.ReferenceIdeal.Gen Idealize.ShloMosaic Idealize.ShloMosaic.ValueIdx Idealize.SL.Sem

variable {F : FTy → Type} [FloatOps F]

/-- With every index word in range, the reference's composed term is the lookup, at every float instance. -/
theorem out_eq_lookup (ids : IVec S4096x50 32) (tab : FVec F S100001x128 .f32)
    (hle : ∀ k, 0 ≤ (ids k).toInt ∧ (ids k).toNat ≤ 100000) : out ids tab = Cert.Proof.Spec.lookup ids tab := by
  funext j
  have hsel : out ids tab j = Scalar.select (inBounds ids (ix2 (j 0) (j 1))) (rows ids tab j)
      (FloatOps.ofBits .f32 0x7FC00000#32) := by
    unfold out
    show Scalar.select (broadcastInDim S4096x50x128 ![0, 1] bcast_S4096x50_S4096x50x128_0_1 (inBounds ids) j) _ _ = _
    unfold broadcastInDim
    refine congrArg (fun k => Scalar.select (inBounds ids k) (rows ids tab j) (FloatOps.ofBits .f32 0x7FC00000#32))
      (funext fun a => ?_)
    match a with
    | ⟨0, _⟩ => rfl
    | ⟨1, _⟩ => rfl
  rw [hsel, inBounds_eq_one ids hle, select_one, rows_apply]
  unfold Cert.Proof.Spec.lookup Cert.Proof.Spec.rowOf
  refine congrArg tab (funext fun a => Fin.ext ?_)
  match a with
  | ⟨0, _⟩ =>
    show min (starts ids (ix3 (n2 := 1) (j 0) (j 1) 0)).toInt.toNat 100000 = min (ids (ix2 (j 0) (j 1))).toNat 100000
    rw [starts_apply]
    show min (wrapped ids (ix2 (j 0) (j 1))).toInt.toNat 100000 = min (ids (ix2 (j 0) (j 1))).toNat 100000
    rw [wrapped_apply _ _ (hle _).1, toInt_toNat_of_nonneg (hle _).1]
  | ⟨1, _⟩ => rfl

/-- The reference's run under the stated precondition: the result buffer ends at the lookup of the two arguments'
    launch contents, and the arguments are unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v0)
          = Cert.Proof.Spec.lookup (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (out_eq_lookup (F := Ideal) _ _ (ids_le (F := Ideal) _ _ (hpre c))), (h c).2⟩)
    (run_out (F := Ideal) m g)

end Cert.Proof.Ref

end
-- ==== Proof.lean ====
/-
  An embedding lookup: the kernel moves the table's rows named by the (transposed) index array into the output,
  window by window, on thirty-two vector subcores, and the program transposes the result back; the reference is
  `take` along the table's rows. Both results are, entry by entry, `table[ids[b, s], e]`: inside the stated index
  range 0 … 100000 the reference's wrap of negative indices, its clamp and its out-of-range mask all do nothing.
  The frames are the same runs with the values dropped.
-/
import proofs.«218878_g9363028706246_cont_9to1c4b_116_21_alg».proof.Defs
import proofs.«218878_g9363028706246_cont_9to1c4b_116_21_alg».proof.Proof.Gen.Kernel
import proofs.«218878_g9363028706246_cont_9to1c4b_116_21_alg».proof.Proof.Gen.Kernel.Skeleton
import proofs.«218878_g9363028706246_cont_9to1c4b_116_21_alg».proof.Proof.Gen.KernelIdeal
import proofs.«218878_g9363028706246_cont_9to1c4b_116_21_alg».proof.Proof.Gen.KernelIdeal.Skeleton
import proofs.«218878_g9363028706246_cont_9to1c4b_116_21_alg».proof.Proof.Gen.ReferenceIdeal
import proofs.«218878_g9363028706246_cont_9to1c4b_116_21_alg».proof.Proof.Gen.Pre_input_domain
import proofs.«218878_g9363028706246_cont_9to1c4b_116_21_alg».proof.Proof.FinalKI
import proofs.«218878_g9363028706246_cont_9to1c4b_116_21_alg».proof.Proof.FinalKB
import proofs.«218878_g9363028706246_cont_9to1c4b_116_21_alg».proof.Proof.RefFrame
import proofs.«218878_g9363028706246_cont_9to1c4b_116_21_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_input_domain := Cert.Pre_input_domain.Gen.facts) := fun m ρ hpre =>
  (θ_run (Cert.Kernel.defs (F := Bits)) _ _).mono (fun _ h c => (h c).2) (Cert.Proof.KB.run_main (F := Bits) m ρ (Cert.Proof.KB.ok_of_pre m hpre))

theorem frame_ki : Cert.frame_KernelIdeal (hKernelIdeal := Cert.KernelIdeal.Gen.facts) (hPre_input_domain := Cert.Pre_input_domain.Gen.facts) := fun m ρ hpre =>
  (θ_run (Cert.KernelIdeal.defs (F := Ideal)) _ _).mono (fun _ h c => (h c).2) (Cert.Proof.KI.run_main (F := Ideal) m ρ (Cert.Proof.KI.ok_of_pre m hpre))

/-- From memories that agree on the two arguments both programs end with the lookup of those arguments. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m g m' g' hpre hagree
  refine ⟨fun c => Cert.Proof.Spec.lookup (m (Cert.Proof.KI.aLoc c)) (m (Cert.Proof.KI.xLoc c)),
    Cert.Proof.KI.run_main (F := Ideal) m g (Cert.Proof.KI.ok_of_pre m hpre), ?_⟩
  have hpre' : Cert.Pre_ReferenceIdeal (hPre_input_domain := Cert.Pre_input_domain.Gen.facts) m' := fun c => by
    rw [(hagree c).1, (hagree c).2]; exact hpre c
  refine (θ_run (Cert.ReferenceIdeal.defs (F := Ideal)) _ _).mono (fun _ h c => ⟨(h c).1.trans ?_, (h c).2⟩) (Cert.Proof.Ref.run m' g' hpre')
  rw [(hagree c).1, (hagree c).2]

theorem claim : Cert.Claim := ⟨Cert.Kernel.Gen.facts, Cert.KernelIdeal.Gen.facts, Cert.ReferenceIdeal.Gen.facts, Cert.Pre_input_domain.Gen.facts,
  frame_k, frame_ki, Cert.Proof.Ref.frame, trivial, algebraic⟩

end Cert.Proof

end
